-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S2048x2 : Shape := ⟨2, ![2048, 2]⟩
abbrev S2048x5 : Shape := ⟨2, ![2048, 5]⟩
abbrev S2048x3 : Shape := ⟨2, ![2048, 3]⟩
abbrev S_ : Shape := ⟨0, ![]⟩

class Facts : Prop where
  bcast_S_S2048x5 : S_.BroadcastsInDim S2048x5 (![] : Fin 0 → Fin S2048x5.rank)
  reducesTo_S2048x5_S_d0_1 : S2048x5.ReducesTo [0, 1] S_
  h_S_ : 0 < S_.numel

variable [Facts]

def fn {F : FTy → Type} [FloatOps F] (main_arg0 : IVec S8192x2 32) (main_arg1 : IVec S2048x2 32) (main_arg2 : FVec F S2048x5 .f32) (main_arg3 : IVec S2048x3 32) : IVec S_ 1 :=
  let main_v0 : FVec F S2048x5 .f32 := Host.absf main_arg2
  let main_cst : FVec F S_ .f32 := constant S_ .f32 0x7F800000#32
  let main_v1 : FVec F S2048x5 .f32 := broadcastInDim S2048x5 ![] bcast_S_S2048x5 main_cst
  let main_v2 : IVec S2048x5 1 := cmpf .olt main_v0 main_v1
  let main_c : IVec S_ 1 := constantI S_ 1 1#1
  let main_v3 : IVec S_ 1 := (fun x v => Host.reduce IntOp.andi x v reducesTo_S2048x5_S_d0_1 h_S_) main_v2 main_c
  main_v3
-- ==== Kernel.lean ====
abbrev S8192x2 : Shape := ⟨2, ![8192, 2]⟩
abbrev S2048x2 : Shape := ⟨2, ![2048, 2]⟩
abbrev S2048x5 : Shape := ⟨2, ![2048, 5]⟩
abbrev S2048x3 : Shape := ⟨2, ![2048, 3]⟩
abbrev S9x2 : Shape := ⟨2, ![9, 2]⟩
abbrev S1x9x2 : Shape := ⟨3, ![1, 9, 2]⟩
abbrev S2 : Shape := ⟨1, ![2]⟩
abbrev S2048x1 : Shape := ⟨2, ![2048, 1]⟩
abbrev S2048 : Shape := ⟨1, ![2048]⟩
abbrev S_ : Shape := ⟨0, ![]⟩
abbrev S1x2048 : Shape := ⟨2, ![1, 2048]⟩
abbrev S2x2048 : Shape := ⟨2, ![2, 2048]⟩
abbrev S8192x1x2 : Shape := ⟨3, ![8192, 1, 2]⟩
abbrev S8192x9x2 : Shape := ⟨3, ![8192, 9, 2]⟩
abbrev S1x1x2 : Shape := ⟨3, ![1, 1, 2]⟩
abbrev S73728x2 : Shape := ⟨2, ![73728, 2]⟩
abbrev S2048x1x2 : Shape := ⟨3, ![2048, 1, 2]⟩
abbrev S2048x9x2 : Shape := ⟨3, ![2048, 9, 2]⟩
abbrev S18432x2 : Shape := ⟨2, ![18432, 2]⟩
abbrev S92160x2 : Shape := ⟨2, ![92160, 2]⟩
abbrev S720x128 : Shape := ⟨2, ![720, 128]⟩
abbrev S1024x2 : Shape := ⟨2, ![1024, 2]⟩
abbrev S8x128 : Shape := ⟨2, ![8, 128]⟩
abbrev S1024x1 : Shape := ⟨2, ![1024, 1]⟩
abbrev S1024x2048 : Shape := ⟨2, ![1024, 2048]⟩
abbrev S1024 : Shape := ⟨1, ![1024]⟩
abbrev S92160 : Shape := ⟨1, ![92160]⟩
abbrev S73728 : Shape := ⟨1, ![73728]⟩
abbrev S18432 : Shape := ⟨1, ![18432]⟩
abbrev S8192x9 : Shape := ⟨2, ![8192, 9]⟩
abbrev S2048x9 : Shape := ⟨2, ![2048, 9]⟩

abbrev nBuf : Space → Nat
  | .hbm => 111
  | .vmem => 6
  | .smem => 0
  | _ => 0

abbrev bufTy : (tb : Table) → Fin (tcTables nBuf tb) → BufTy
  | .hbm, ⟨0, _⟩ => ⟨S8192x2, .i32⟩
  | .hbm, ⟨1, _⟩ => ⟨S2048x2, .i32⟩
  | .hbm, ⟨2, _⟩ => ⟨S2048x5, .f32⟩
  | .hbm, ⟨3, _⟩ => ⟨S2048x3, .i32⟩
  | .hbm, ⟨4, _⟩ => ⟨S9x2, .i32⟩
  | .hbm, ⟨5, _⟩ => ⟨S1x9x2, .i32⟩
  | .hbm, ⟨6, _⟩ => ⟨S2, .i32⟩
  | .hbm, ⟨7, _⟩ => ⟨S9x2, .i32⟩
  | .hbm, ⟨8, _⟩ => ⟨S1x9x2, .i32⟩
  | .hbm, ⟨9, _⟩ => ⟨S2048x1, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .i1⟩
  | .hbm, ⟨15, _⟩ => ⟨S2048x2, .i32⟩
  | .hbm, ⟨16, _⟩ => ⟨S2048x2, .f32⟩
  | .hbm, ⟨17, _⟩ => ⟨S2048x1, .f32⟩
  | .hbm, ⟨18, _⟩ => ⟨S2048, .f32⟩
  | .hbm, ⟨19, _⟩ => ⟨S2048x1, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S2048, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S2x2048, .f32⟩
  | .hbm, ⟨35, _⟩ => ⟨S8192x1x2, .i32⟩
  | .hbm, ⟨36, _⟩ => ⟨S8192x9x2, .i32⟩
  | .hbm, ⟨37, _⟩ => ⟨S8192x9x2, .i32⟩
  | .hbm, ⟨38, _⟩ => ⟨S8192x9x2, .i32⟩
  | .hbm, ⟨39, _⟩ => ⟨S1x1x2, .i32⟩
  | .hbm, ⟨40, _⟩ => ⟨S_, .i32⟩
  | .hbm, ⟨41, _⟩ => ⟨S1x1x2, .i32⟩
  | .hbm, ⟨42, _⟩ => ⟨S1x1x2, .i1⟩
  | .hbm, ⟨43, _⟩ => ⟨S_, .i32⟩
  | .hbm, ⟨44, _⟩ => ⟨S1x1x2, .i32⟩
  | .hbm, ⟨45, _⟩ => ⟨S1x1x2, .i32⟩
  | .hbm, ⟨46, _⟩ => ⟨S8192x9x2, .i32⟩
  | .hbm, ⟨47, _⟩ => ⟨S8192x9x2, .i32⟩
  | .hbm, ⟨48, _⟩ => ⟨S_, .i32⟩
  | .hbm, ⟨49, _⟩ => ⟨S8192x9x2, .i32⟩
  | .hbm, ⟨50, _⟩ => ⟨S8192x9x2, .i1⟩
  | .hbm, ⟨51, _⟩ => ⟨S_, .i32⟩
  | .hbm, ⟨52, _⟩ => ⟨S8192x9x2, .i32⟩
  | .hbm, ⟨53, _⟩ => ⟨S8192x9x2, .i1⟩
  | .hbm, ⟨54, _⟩ => ⟨S_, .i32⟩
  | .hbm, ⟨55, _⟩ => ⟨S1x1x2, .i32⟩
  | .hbm, ⟨56, _⟩ => ⟨S1x1x2, .i1⟩
  | .hbm, ⟨57, _⟩ => ⟨S8192x9x2, .i1⟩
  | .hbm, ⟨58, _⟩ => ⟨S8192x9x2, .i1⟩
  | .hbm, ⟨59, _⟩ => ⟨S8192x9x2, .i1⟩
  | .hbm, ⟨60, _⟩ => ⟨S8192x9x2, .i32⟩
  | .hbm, ⟨61, _⟩ => ⟨S8192x9x2, .i32⟩
  | .hbm, ⟨62, _⟩ => ⟨S8192x9x2, .i32⟩
  | .hbm, ⟨63, _⟩ => ⟨S73728x2, .i32⟩
  | .hbm, ⟨64, _⟩ => ⟨S73728x2, .f32⟩
  | .hbm, ⟨65, _⟩ => ⟨S2048x1x2, .i32⟩
  | .hbm, ⟨66, _⟩ => ⟨S2048x9x2, .i32⟩
  | .hbm, ⟨67, _⟩ => ⟨S2048x9x2, .i32⟩
  | .hbm, ⟨68, _⟩ => ⟨S2048x9x2, .i32⟩
  | .hbm, ⟨69, _⟩ => ⟨S1x1x2, .i32⟩
  | .hbm, ⟨70, _⟩ => ⟨S_, .i32⟩
  | .hbm, ⟨71, _⟩ => ⟨S1x1x2, .i32⟩
  | .hbm, ⟨72, _⟩ => ⟨S1x1x2, .i1⟩
  | .hbm, ⟨73, _⟩ => ⟨S_, .i32⟩
  | .hbm, ⟨74, _⟩ => ⟨S1x1x2, .i32⟩
  | .hbm, ⟨75, _⟩ => ⟨S1x1x2, .i32⟩
  | .hbm, ⟨76, _⟩ => ⟨S2048x9x2, .i32⟩
  | .hbm, ⟨77, _⟩ => ⟨S2048x9x2, .i32⟩
  | .hbm, ⟨78, _⟩ => ⟨S_, .i32⟩
  | .hbm, ⟨79, _⟩ => ⟨S2048x9x2, .i32⟩
  | .hbm, ⟨80, _⟩ => ⟨S2048x9x2, .i1⟩
  | .hbm, ⟨81, _⟩ => ⟨S_, .i32⟩
  | .hbm, ⟨82, _⟩ => ⟨S2048x9x2, .i32⟩
  | .hbm, ⟨83, _⟩ => ⟨S2048x9x2, .i1⟩
  | .hbm, ⟨84, _⟩ => ⟨S_, .i32⟩
  | .hbm, ⟨85, _⟩ => ⟨S1x1x2, .i32⟩
  | .hbm, ⟨86, _⟩ => ⟨S1x1x2, .i1⟩
  | .hbm, ⟨87, _⟩ => ⟨S2048x9x2, .i1⟩
  | .hbm, ⟨88, _⟩ => ⟨S2048x9x2, .i1⟩
  | .hbm, ⟨89, _⟩ => ⟨S2048x9x2, .i1⟩
  | .hbm, ⟨90, _⟩ => ⟨S2048x9x2, .i32⟩
  | .hbm, ⟨91, _⟩ => ⟨S2048x9x2, .i32⟩
  | .hbm, ⟨92, _⟩ => ⟨S2048x9x2, .i32⟩
  | .hbm, ⟨93, _⟩ => ⟨S18432x2, .i32⟩
  | .hbm, ⟨94, _⟩ => ⟨S18432x2, .f32⟩
  | .hbm, ⟨95, _⟩ => ⟨S92160x2, .f32⟩
  | .hbm, ⟨96, _⟩ => ⟨S720x128, .f32⟩
  | .hbm, ⟨97, _⟩ => ⟨S92160, .f32⟩
  | .hbm, ⟨98, _⟩ => ⟨S2048, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i1⟩
  | .hbm, ⟨103, _⟩ => ⟨S_, .f32⟩
  | .hbm, ⟨104, _⟩ => ⟨S_, .f32⟩
  | .hbm, ⟨105, _⟩ => ⟨S92160, .f32⟩
  | .hbm, ⟨106, _⟩ => ⟨S92160, .f32⟩
  | .hbm, ⟨107, _⟩ => ⟨S73728, .f32⟩
  | .hbm, ⟨108, _⟩ => ⟨S18432, .f32⟩
  | .hbm, ⟨109, _⟩ => ⟨S8192x9, .f32⟩
  | .hbm, ⟨110, _⟩ => ⟨S2048x9, .f32⟩
  | .local _ .vmem, ⟨0, _⟩ => ⟨S1024x2, .f32⟩
  | .local _ .vmem, ⟨1, _⟩ => ⟨S1024x2, .f32⟩
  | .local _ .vmem, ⟨2, _⟩ => ⟨S2x2048, .f32⟩
  | .local _ .vmem, ⟨3, _⟩ => ⟨S1x2048, .f32⟩
  | .local _ .vmem, ⟨4, _⟩ => ⟨S8x128, .f32⟩
  | .local _ .vmem, ⟨5, _⟩ => ⟨S8x128, .f32⟩
  | _, _ => ⟨S8192x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_v2 : Ref sig .tc := ⟨.hbm, 42, rfl⟩
abbrev main_call1_c_0 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_c_1 : Ref sig .tc := ⟨.hbm, 48, rfl⟩
abbrev main_call1_v7 : Ref sig .tc := ⟨.hbm, 49, rfl⟩
abbrev main_call1_v8 : Ref sig .tc := ⟨.hbm, 50, rfl⟩
abbrev main_call1_c_2 : Ref sig .tc := ⟨.hbm, 51, rfl⟩
abbrev main_call1_v9 : Ref sig .tc := ⟨.hbm, 52, rfl⟩
abbrev main_call1_v10 : Ref sig .tc := ⟨.hbm, 53, rfl⟩
abbrev main_call1_c_3 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_v15 : Ref sig .tc := ⟨.hbm, 59, rfl⟩
abbrev main_call1_v16 : Ref sig .tc := ⟨.hbm, 60, rfl⟩
abbrev main_call1_v17 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_call2_v0 : Ref sig .tc := ⟨.hbm, 69, rfl⟩
abbrev main_call2_c : Ref sig .tc := ⟨.hbm, 70, rfl⟩
abbrev main_call2_v1 : Ref sig .tc := ⟨.hbm, 71, rfl⟩
abbrev main_call2_v2 : Ref sig .tc := ⟨.hbm, 72, rfl⟩
abbrev main_call2_c_0 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_c_1 : Ref sig .tc := ⟨.hbm, 78, rfl⟩
abbrev main_call2_v7 : Ref sig .tc := ⟨.hbm, 79, rfl⟩
abbrev main_call2_v8 : Ref sig .tc := ⟨.hbm, 80, rfl⟩
abbrev main_call2_c_2 : Ref sig .tc := ⟨.hbm, 81, rfl⟩
abbrev main_call2_v9 : Ref sig .tc := ⟨.hbm, 82, rfl⟩
abbrev main_call2_v10 : Ref sig .tc := ⟨.hbm, 83, rfl⟩
abbrev main_call2_c_3 : Ref sig .tc := ⟨.hbm, 84, rfl⟩
abbrev main_call2_v11 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_v15 : Ref sig .tc := ⟨.hbm, 89, rfl⟩
abbrev main_call2_v16 : Ref sig .tc := ⟨.hbm, 90, rfl⟩
abbrev main_call2_v17 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_c_4 : Ref sig .tc := ⟨.hbm, 99, rfl⟩
abbrev main_v41 : Ref sig .tc := ⟨.hbm, 100, rfl⟩
abbrev main_c_5 : Ref sig .tc := ⟨.hbm, 101, rfl⟩
abbrev main_v42 : Ref sig .tc := ⟨.hbm, 102, rfl⟩
abbrev main_cst_6 : Ref sig .tc := ⟨.hbm, 103, rfl⟩
abbrev main_call3_v0 : Ref sig .tc := ⟨.hbm, 104, rfl⟩
abbrev main_call3_v1 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![90], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S9x2_S1x9x2_1_2 : S9x2.BroadcastsInDim S1x9x2 (![1, 2] : Fin 2 → Fin S1x9x2.rank)
  slices_S2048x5_S2048x1_0_4 : S2048x5.Slices ![0, 4] S2048x1
  shapeCasts_S2048x1_S2048 : S2048x1.ShapeCasts S2048
  bcast_S_S2048 : S_.BroadcastsInDim S2048 (![] : Fin 0 → Fin S2048.rank)
  slices_S2048x3_S2048x2_0_1 : S2048x3.Slices ![0, 1] S2048x2
  slices_S2048x2_S2048x1_0_0 : S2048x2.Slices ![0, 0] S2048x1
  slices_S2048x2_S2048x1_0_1 : S2048x2.Slices ![0, 1] S2048x1
  shapeCasts_S2048_S1x2048 : S2048.ShapeCasts S1x2048
  bcast_S2048_S1x2048_1 : S2048.BroadcastsInDim S1x2048 (![1] : Fin 1 → Fin S1x2048.rank)
  concatenates_S1x2048_S1x2048_S2x2048_d0 : Shape.Concatenates [S1x2048, S1x2048] S2x2048 0
  bcast_S8192x2_S8192x1x2_0_2 : S8192x2.BroadcastsInDim S8192x1x2 (![0, 2] : Fin 2 → Fin S8192x1x2.rank)
  bcast_S8192x1x2_S8192x9x2_0_1_2 : S8192x1x2.BroadcastsInDim S8192x9x2 (![0, 1, 2] : Fin 3 → Fin S8192x9x2.rank)
  bcast_S1x9x2_S8192x9x2_0_1_2 : S1x9x2.BroadcastsInDim S8192x9x2 (![0, 1, 2] : Fin 3 → Fin S8192x9x2.rank)
  bcast_S2_S1x1x2_2 : S2.BroadcastsInDim S1x1x2 (![2] : Fin 1 → Fin S1x1x2.rank)
  bcast_S_S1x1x2 : S_.BroadcastsInDim S1x1x2 (![] : Fin 0 → Fin S1x1x2.rank)
  bcast_S1x1x2_S8192x9x2_0_1_2 : S1x1x2.BroadcastsInDim S8192x9x2 (![0, 1, 2] : Fin 3 → Fin S8192x9x2.rank)
  bcast_S_S8192x9x2 : S_.BroadcastsInDim S8192x9x2 (![] : Fin 0 → Fin S8192x9x2.rank)
  shapeCasts_S8192x9x2_S73728x2 : S8192x9x2.ShapeCasts S73728x2
  bcast_S2048x2_S2048x1x2_0_2 : S2048x2.BroadcastsInDim S2048x1x2 (![0, 2] : Fin 2 → Fin S2048x1x2.rank)
  bcast_S2048x1x2_S2048x9x2_0_1_2 : S2048x1x2.BroadcastsInDim S2048x9x2 (![0, 1, 2] : Fin 3 → Fin S2048x9x2.rank)
  bcast_S1x9x2_S2048x9x2_0_1_2 : S1x9x2.BroadcastsInDim S2048x9x2 (![0, 1, 2] : Fin 3 → Fin S2048x9x2.rank)
  bcast_S1x1x2_S2048x9x2_0_1_2 : S1x1x2.BroadcastsInDim S2048x9x2 (![0, 1, 2] : Fin 3 → Fin S2048x9x2.rank)
  bcast_S_S2048x9x2 : S_.BroadcastsInDim S2048x9x2 (![] : Fin 0 → Fin S2048x9x2.rank)
  shapeCasts_S2048x9x2_S18432x2 : S2048x9x2.ShapeCasts S18432x2
  concatenates_S73728x2_S18432x2_S92160x2_d0 : Shape.Concatenates [S73728x2, S18432x2] S92160x2 0
  inb_S1024x2_S1024x1_0_0 : ∀ a, (![0, 0] : Fin 2 → Nat) a + S1024x1.size a ≤ S1024x2.size a
  h_S1024x1 : 0 < S1024x1.numel
  shapeCasts_S1024x1_S1024x1 : S1024x1.ShapeCasts S1024x1
  inb_S1024x2_S1024x1_0_1 : ∀ a, (![0, 1] : Fin 2 → Nat) a + S1024x1.size a ≤ S1024x2.size a
  inb_S2x2048_S1x2048_0_0 : ∀ a, (![0, 0] : Fin 2 → Nat) a + S1x2048.size a ≤ S2x2048.size a
  h_S1x2048 : 0 < S1x2048.numel
  shapeCasts_S1x2048_S1x2048 : S1x2048.ShapeCasts S1x2048
  inb_S2x2048_S1x2048_1_0 : ∀ a, (![1, 0] : Fin 2 → Nat) a + S1x2048.size a ≤ S2x2048.size a
  broadcasts_S1024x1_S1024x2048 : S1024x1.Broadcasts S1024x2048
  broadcasts_S1x2048_S1024x2048 : S1x2048.Broadcasts S1024x2048
  inb_S1x2048_S1x2048_0_0 : ∀ a, (![0, 0] : Fin 2 → Nat) a + S1x2048.size a ≤ S1x2048.size a
  reduces_S1024x2048_S1024 : S1024x2048.Reduces [1] S1024
  shapeCasts_S1024_S8x128 : S1024.ShapeCasts S8x128
  inb_S8x128_S8x128_0_0 : ∀ a, (![0, 0] : Fin 2 → Nat) a + S8x128.size a ≤ S8x128.size a
  h_S8x128 : 0 < S8x128.numel
  shapeCasts_S720x128_S92160 : S720x128.ShapeCasts S92160
  natLt_1_32 : 1 < 32
  reducesTo_S2048_S_d0 : S2048.ReducesTo [0] S_
  h_S_ : 0 < S_.numel
  bcast_S_S92160 : S_.BroadcastsInDim S92160 (![] : Fin 0 → Fin S92160.rank)
  slices_S92160_S73728_0 : S92160.Slices ![0] S73728
  slices_S92160_S18432_73728 : S92160.Slices ![73728] S18432
  shapeCasts_S73728_S8192x9 : S73728.ShapeCasts S8192x9
  shapeCasts_S18432_S2048x9 : S18432.ShapeCasts S2048x9
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S92160x2.size a
  hwx0_0 : ∀ i : grid0.Coords, EltTy.bits .f32 = 32 ∨ (Rect.block (s := S92160x2) S1024x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2048.size a ≤ S2x2048.size a
  hwx0_1 : ∀ i : grid0.Coords, EltTy.bits .f32 = 32 ∨ (Rect.block (s := S2x2048) S2x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S720x128.size a
  hwx0_3 : ∀ i : grid0.Coords, EltTy.bits .f32 = 32 ∨ (Rect.block (s := S720x128) S8x128.size (cc0_transform_3 i) (hinb0_3 i)).WholeWords (EltTy.packing .f32)

variable [Facts₀]

abbrev win0_0 : Pipeline.Window sig grid0 :=
  Pipeline.Window.ofSpec (Memref.whole main_v37) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2 : Shape := ⟨2, ![8192, 2]⟩
abbrev S2048x2 : Shape := ⟨2, ![2048, 2]⟩
abbrev S2048x5 : Shape := ⟨2, ![2048, 5]⟩
abbrev S2048x3 : Shape := ⟨2, ![2048, 3]⟩
abbrev S9x2 : Shape := ⟨2, ![9, 2]⟩
abbrev S2 : Shape := ⟨1, ![2]⟩
abbrev S2048x1 : Shape := ⟨2, ![2048, 1]⟩
abbrev S2048 : Shape := ⟨1, ![2048]⟩
abbrev S_ : Shape := ⟨0, ![]⟩
abbrev S8192x1x2 : Shape := ⟨3, ![8192, 1, 2]⟩
abbrev S1x9x2 : Shape := ⟨3, ![1, 9, 2]⟩
abbrev S8192x9x2 : Shape := ⟨3, ![8192, 9, 2]⟩
abbrev S1x1x2 : Shape := ⟨3, ![1, 1, 2]⟩
abbrev S2048x1x2 : Shape := ⟨3, ![2048, 1, 2]⟩
abbrev S2048x9x2 : Shape := ⟨3, ![2048, 9, 2]⟩
abbrev S73728x2 : Shape := ⟨2, ![73728, 2]⟩
abbrev S73728 : Shape := ⟨1, ![73728]⟩
abbrev S73728x1 : Shape := ⟨2, ![73728, 1]⟩
abbrev S1x2048 : Shape := ⟨2, ![1, 2048]⟩
abbrev S73728x2048 : Shape := ⟨2, ![73728, 2048]⟩
abbrev S2x2048 : Shape := ⟨2, ![2, 2048]⟩
abbrev S8192x9 : Shape := ⟨2, ![8192, 9]⟩
abbrev S18432x2 : Shape := ⟨2, ![18432, 2]⟩
abbrev S18432 : Shape := ⟨1, ![18432]⟩
abbrev S18432x1 : Shape := ⟨2, ![18432, 1]⟩
abbrev S18432x2048 : Shape := ⟨2, ![18432, 2048]⟩
abbrev S2048x9 : Shape := ⟨2, ![2048, 9]⟩

abbrev nBuf : Space → Nat
  | .hbm => 155
  | .vmem => 0
  | .smem => 0
  | _ => 0

abbrev hbmTy0_0 (i : Nat) : BufTy := match i % 128 with
  | 0 => ⟨S8192x2, .i32⟩
  | 1 => ⟨S2048x2, .i32⟩
  | 2 => ⟨S2048x5, .f32⟩
  | 3 => ⟨S2048x3, .i32⟩
  | 4 => ⟨S9x2, .i32⟩
  | 5 => ⟨S2, .i32⟩
  | 6 => ⟨S2048x1, .f32⟩
  | 7 => ⟨S2048, .f32⟩
  | 8 => ⟨S2048, .f32⟩
  | 9 => ⟨S_, .f32⟩
  | 10 => ⟨S2048, .f32⟩
  | 11 => ⟨S2048, .i1⟩
  | 12 => ⟨S2048x2, .i32⟩
  | 13 => ⟨S2048x2, .f32⟩
  | 14 => ⟨S8192x1x2, .i32⟩
  | 15 => ⟨S1x9x2, .i32⟩
  | 16 => ⟨S8192x9x2, .i32⟩
  | 17 => ⟨S8192x9x2, .i32⟩
  | 18 => ⟨S8192x9x2, .i32⟩
  | 19 => ⟨S1x1x2, .i32⟩
  | 20 => ⟨S_, .i32⟩
  | 21 => ⟨S1x1x2, .i32⟩
  | 22 => ⟨S1x1x2, .i1⟩
  | 23 => ⟨S_, .i32⟩
  | 24 => ⟨S1x1x2, .i32⟩
  | 25 => ⟨S1x1x2, .i32⟩
  | 26 => ⟨S8192x9x2, .i32⟩
  | 27 => ⟨S8192x9x2, .i32⟩
  | 28 => ⟨S_, .i32⟩
  | 29 => ⟨S8192x9x2, .i32⟩
  | 30 => ⟨S8192x9x2, .i1⟩
  | 31 => ⟨S_, .i32⟩
  | 32 => ⟨S8192x9x2, .i32⟩
  | 33 => ⟨S8192x9x2, .i1⟩
  | 34 => ⟨S_, .i32⟩
  | 35 => ⟨S1x1x2, .i32⟩
  | 36 => ⟨S1x1x2, .i1⟩
  | 37 => ⟨S8192x9x2, .i1⟩
  | 38 => ⟨S8192x9x2, .i1⟩
  | 39 => ⟨S8192x9x2, .i1⟩
  | 40 => ⟨S8192x9x2, .i32⟩
  | 41 => ⟨S8192x9x2, .i32⟩
  | 42 => ⟨S8192x9x2, .i32⟩
  | 43 => ⟨S2048x1x2, .i32⟩
  | 44 => ⟨S1x9x2, .i32⟩
  | 45 => ⟨S2048x9x2, .i32⟩
  | 46 => ⟨S2048x9x2, .i32⟩
  | 47 => ⟨S2048x9x2, .i32⟩
  | 48 => ⟨S1x1x2, .i32⟩
  | 49 => ⟨S_, .i32⟩
  | 50 => ⟨S1x1x2, .i32⟩
  | 51 => ⟨S1x1x2, .i1⟩
  | 52 => ⟨S_, .i32⟩
  | 53 => ⟨S1x1x2, .i32⟩
  | 54 => ⟨S1x1x2, .i32⟩
  | 55 => ⟨S2048x9x2, .i32⟩
  | 56 => ⟨S2048x9x2, .i32⟩
  | 57 => ⟨S_, .i32⟩
  | 58 => ⟨S2048x9x2, .i32⟩
  | 59 => ⟨S2048x9x2, .i1⟩
  | 60 => ⟨S_, .i32⟩
  | 61 => ⟨S2048x9x2, .i32⟩
  | 62 => ⟨S2048x9x2, .i1⟩
  | 63 => ⟨S_, .i32⟩
  | 64 => ⟨S1x1x2, .i32⟩
  | 65 => ⟨S1x1x2, .i1⟩
  | 66 => ⟨S2048x9x2, .i1⟩
  | 67 => ⟨S2048x9x2, .i1⟩
  | 68 => ⟨S2048x9x2, .i1⟩
  | 69 => ⟨S2048x9x2, .i32⟩
  | 70 => ⟨S2048x9x2, .i32⟩
  | 71 => ⟨S2048x9x2, .i32⟩
  | 72 => ⟨S2048, .i32⟩
  | 73 => ⟨S_, .i32⟩
  | 74 => ⟨S_, .i32⟩
  | 75 => ⟨S_, .i32⟩
  | 76 => ⟨S_, .i1⟩
  | 77 => ⟨S73728x2, .i32⟩
  | 78 => ⟨S73728x2, .f32⟩
  | 79 => ⟨S73728x2, .f32⟩
  | 80 => ⟨S_, .f32⟩
  | 81 => ⟨S73728, .f32⟩
  | 82 => ⟨S2048x2, .f32⟩
  | 83 => ⟨S_, .f32⟩
  | 84 => ⟨S2048, .f32⟩
  | 85 => ⟨S73728x1, .f32⟩
  | 86 => ⟨S1x2048, .f32⟩
  | 87 => ⟨S73728x2048, .f32⟩
  | 88 => ⟨S73728x2048, .f32⟩
  | 89 => ⟨S73728x2048, .f32⟩
  | 90 => ⟨S2x2048, .f32⟩
  | 91 => ⟨S73728x2048, .f32⟩
  | 92 => ⟨S_, .f32⟩
  | 93 => ⟨S73728x2048, .f32⟩
  | 94 => ⟨S73728x2048, .f32⟩
  | 95 => ⟨S73728x2048, .f32⟩
  | 96 => ⟨S1x2048, .i1⟩
  | 97 => ⟨S_, .f32⟩
  | 98 => ⟨S_, .f32⟩
  | 99 => ⟨S73728x2048, .i1⟩
  | 100 => ⟨S73728x2048, .f32⟩
  | 101 => ⟨S73728x2048, .f32⟩
  | 102 => ⟨S_, .f32⟩
  | 103 => ⟨S73728, .f32⟩
  | 104 => ⟨S_, .f32⟩
  | 105 => ⟨S73728, .f32⟩
  | 106 => ⟨S73728, .f32⟩
  | 107 => ⟨S73728, .f32⟩
  | 108 => ⟨S_, .f32⟩
  | 109 => ⟨S73728, .f32⟩
  | 110 => ⟨S73728, .f32⟩
  | 111 => ⟨S8192x9, .f32⟩
  | 112 => ⟨S_, .f32⟩
  | 113 => ⟨S_, .f32⟩
  | 114 => ⟨S8192x9, .f32⟩
  | 115 => ⟨S8192x9, .f32⟩
  | 116 => ⟨S18432x2, .i32⟩
  | 117 => ⟨S18432x2, .f32⟩
  | 118 => ⟨S18432x2, .f32⟩
  | 119 => ⟨S_, .f32⟩
  | 120 => ⟨S18432, .f32⟩
  | 121 => ⟨S2048x2, .f32⟩
  | 122 => ⟨S_, .f32⟩
  | 123 => ⟨S2048, .f32⟩
  | 124 => ⟨S18432x1, .f32⟩
  | 125 => ⟨S1x2048, .f32⟩
  | 126 => ⟨S18432x2048, .f32⟩
  | 127 => ⟨S18432x2048, .f32⟩
  | _ => ⟨S8192x2, .i32⟩

abbrev hbmTy0_1 (i : Nat) : BufTy := match i % 128 with
  | 0 => ⟨S18432x2048, .f32⟩
  | 1 => ⟨S2x2048, .f32⟩
  | 2 => ⟨S18432x2048, .f32⟩
  | 3 => ⟨S_, .f32⟩
  | 4 => ⟨S18432x2048, .f32⟩
  | 5 => ⟨S18432x2048, .f32⟩
  | 6 => ⟨S18432x2048, .f32⟩
  | 7 => ⟨S1x2048, .i1⟩
  | 8 => ⟨S_, .f32⟩
  | 9 => ⟨S_, .f32⟩
  | 10 => ⟨S18432x2048, .i1⟩
  | 11 => ⟨S18432x2048, .f32⟩
  | 12 => ⟨S18432x2048, .f32⟩
  | 13 => ⟨S_, .f32⟩
  | 14 => ⟨S18432, .f32⟩
  | 15 => ⟨S_, .f32⟩
  | 16 => ⟨S18432, .f32⟩
  | 17 => ⟨S18432, .f32⟩
  | 18 => ⟨S18432, .f32⟩
  | 19 => ⟨S_, .f32⟩
  | 20 => ⟨S18432, .f32⟩
  | 21 => ⟨S18432, .f32⟩
  | 22 => ⟨S2048x9, .f32⟩
  | 23 => ⟨S_, .f32⟩
  | 24 => ⟨S_, .f32⟩
  | 25 => ⟨S2048x9, .f32⟩
  | 26 => ⟨S2048x9, .f32⟩
  | _ => ⟨S8192x2, .i32⟩

abbrev hbmTy (i : Nat) : BufTy := match i / 128 with
  | 0 => hbmTy0_0 i
  | 1 => hbmTy0_1 i
  | _ => ⟨S8192x2, .i32⟩

abbrev bufTy : (tb : Table) → Fin (tcTables nBuf tb) → BufTy
  | .hbm, ⟨i, _⟩ => hbmTy i
  | _, _ => ⟨S8192x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_c_0 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_c_1 : Ref sig .tc := ⟨.hbm, 28, rfl⟩
abbrev main_call0_v7 : Ref sig .tc := ⟨.hbm, 29, rfl⟩
abbrev main_call0_v8 : Ref sig .tc := ⟨.hbm, 30, rfl⟩
abbrev main_call0_c_2 : Ref sig .tc := ⟨.hbm, 31, rfl⟩
abbrev main_call0_v9 : Ref sig .tc := ⟨.hbm, 32, rfl⟩
abbrev main_call0_v10 : Ref sig .tc := ⟨.hbm, 33, rfl⟩
abbrev main_call0_c_3 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_call0_v17 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_v2 : Ref sig .tc := ⟨.hbm, 51, rfl⟩
abbrev main_call1_c_0 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_c_1 : Ref sig .tc := ⟨.hbm, 57, rfl⟩
abbrev main_call1_v7 : Ref sig .tc := ⟨.hbm, 58, rfl⟩
abbrev main_call1_v8 : Ref sig .tc := ⟨.hbm, 59, rfl⟩
abbrev main_call1_c_2 : Ref sig .tc := ⟨.hbm, 60, rfl⟩
abbrev main_call1_v9 : Ref sig .tc := ⟨.hbm, 61, rfl⟩
abbrev main_call1_v10 : Ref sig .tc := ⟨.hbm, 62, rfl⟩
abbrev main_call1_c_3 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_v15 : Ref sig .tc := ⟨.hbm, 68, rfl⟩
abbrev main_call1_v16 : Ref sig .tc := ⟨.hbm, 69, rfl⟩
abbrev main_call1_v17 : Ref sig .tc := ⟨.hbm, 70, rfl⟩
abbrev main_v18 : Ref sig .tc := ⟨.hbm, 71, rfl⟩
abbrev main_v19 : Ref sig .tc := ⟨.hbm, 72, rfl⟩
abbrev main_c_1 : Ref sig .tc := ⟨.hbm, 73, rfl⟩
abbrev main_v20 : Ref sig .tc := ⟨.hbm, 74, rfl⟩
abbrev main_c_2 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_cst_3 : Ref sig .tc := ⟨.hbm, 80, rfl⟩
abbrev main_v25 : Ref sig .tc := ⟨.hbm, 81, rfl⟩
abbrev main_v26 : Ref sig .tc := ⟨.hbm, 82, rfl⟩
abbrev main_cst_4 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_5 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_cst_6 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v39 : Ref sig .tc := ⟨.hbm, 101, rfl⟩
abbrev main_cst_7 : Ref sig .tc := ⟨.hbm, 102, rfl⟩
abbrev main_v40 : Ref sig .tc := ⟨.hbm, 103, rfl⟩
abbrev main_cst_8 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_9 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_cst_10 : Ref sig .tc := ⟨.hbm, 112, rfl⟩
abbrev main_call3_v0 : Ref sig .tc := ⟨.hbm, 113, rfl⟩
abbrev main_call3_v1 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_cst_11 : Ref sig .tc := ⟨.hbm, 119, rfl⟩
abbrev main_v51 : Ref sig .tc := ⟨.hbm, 120, rfl⟩
abbrev main_v52 : Ref sig .tc := ⟨.hbm, 121, rfl⟩
abbrev main_cst_12 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_cst_13 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_cst_14 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_v65 : Ref sig .tc := ⟨.hbm, 140, rfl⟩
abbrev main_cst_15 : Ref sig .tc := ⟨.hbm, 141, rfl⟩
abbrev main_v66 : Ref sig .tc := ⟨.hbm, 142, rfl⟩
abbrev main_cst_16 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_cst_17 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_cst_18 : Ref sig .tc := ⟨.hbm, 151, rfl⟩
abbrev main_call5_v0 : Ref sig .tc := ⟨.hbm, 152, rfl⟩
abbrev main_call5_v1 : Ref sig .tc := ⟨.hbm, 153, rfl⟩
abbrev main_v73 : Ref sig .tc := ⟨.hbm, 154, rfl⟩

abbrev nD : Nat := 1
abbrev τ : Topo := Topo.v7x

variable {F : FTy → Type} [FloatOps F]

class Facts₀ : Prop where
  slices_S2048x5_S2048x1_0_4 : S2048x5.Slices ![0, 4] S2048x1
  shapeCasts_S2048x1_S2048 : S2048x1.ShapeCasts S2048
  bcast_S_S2048 : S_.BroadcastsInDim S2048 (![] : Fin 0 → Fin S2048.rank)
  slices_S2048x3_S2048x2_0_1 : S2048x3.Slices ![0, 1] S2048x2
  bcast_S8192x2_S8192x1x2_0_2 : S8192x2.BroadcastsInDim S8192x1x2 (![0, 2] : Fin 2 → Fin S8192x1x2.rank)
  bcast_S9x2_S1x9x2_1_2 : S9x2.BroadcastsInDim S1x9x2 (![1, 2] : Fin 2 → Fin S1x9x2.rank)
  bcast_S8192x1x2_S8192x9x2_0_1_2 : S8192x1x2.BroadcastsInDim S8192x9x2 (![0, 1, 2] : Fin 3 → Fin S8192x9x2.rank)
  bcast_S1x9x2_S8192x9x2_0_1_2 : S1x9x2.BroadcastsInDim S8192x9x2 (![0, 1, 2] : Fin 3 → Fin S8192x9x2.rank)
  bcast_S2_S1x1x2_2 : S2.BroadcastsInDim S1x1x2 (![2] : Fin 1 → Fin S1x1x2.rank)
  bcast_S_S1x1x2 : S_.BroadcastsInDim S1x1x2 (![] : Fin 0 → Fin S1x1x2.rank)
  bcast_S1x1x2_S8192x9x2_0_1_2 : S1x1x2.BroadcastsInDim S8192x9x2 (![0, 1, 2] : Fin 3 → Fin S8192x9x2.rank)
  bcast_S_S8192x9x2 : S_.BroadcastsInDim S8192x9x2 (![] : Fin 0 → Fin S8192x9x2.rank)
  bcast_S2048x2_S2048x1x2_0_2 : S2048x2.BroadcastsInDim S2048x1x2 (![0, 2] : Fin 2 → Fin S2048x1x2.rank)
  bcast_S2048x1x2_S2048x9x2_0_1_2 : S2048x1x2.BroadcastsInDim S2048x9x2 (![0, 1, 2] : Fin 3 → Fin S2048x9x2.rank)
  bcast_S1x9x2_S2048x9x2_0_1_2 : S1x9x2.BroadcastsInDim S2048x9x2 (![0, 1, 2] : Fin 3 → Fin S2048x9x2.rank)
  bcast_S1x1x2_S2048x9x2_0_1_2 : S1x1x2.BroadcastsInDim S2048x9x2 (![0, 1, 2] : Fin 3 → Fin S2048x9x2.rank)
  bcast_S_S2048x9x2 : S_.BroadcastsInDim S2048x9x2 (![] : Fin 0 → Fin S2048x9x2.rank)
  natLt_1_32 : 1 < 32
  reducesTo_S2048_S_d0 : S2048.ReducesTo [0] S_
  h_S_ : 0 < S_.numel
  shapeCasts_S8192x9x2_S73728x2 : S8192x9x2.ShapeCasts S73728x2
  reducesTo_S73728x2_S73728_d1 : S73728x2.ReducesTo [1] S73728
  reducesTo_S2048x2_S2048_d1 : S2048x2.ReducesTo [1] S2048
  bcast_S73728_S73728x1_0 : S73728.BroadcastsInDim S73728x1 (![0] : Fin 1 → Fin S73728x1.rank)
  bcast_S2048_S1x2048_1 : S2048.BroadcastsInDim S1x2048 (![1] : Fin 1 → Fin S1x2048.rank)
  bcast_S73728x1_S73728x2048_0_1 : S73728x1.BroadcastsInDim S73728x2048 (![0, 1] : Fin 2 → Fin S73728x2048.rank)
  bcast_S1x2048_S73728x2048_0_1 : S1x2048.BroadcastsInDim S73728x2048 (![0, 1] : Fin 2 → Fin S73728x2048.rank)
  transposes_S2048x2_S2x2048_1_0 : S2048x2.Transposes [1, 0] S2x2048
  bcast_S_S73728x2048 : S_.BroadcastsInDim S73728x2048 (![] : Fin 0 → Fin S73728x2048.rank)
  reducesTo_S73728x2048_S73728_d1 : S73728x2048.ReducesTo [1] S73728
  bcast_S_S73728 : S_.BroadcastsInDim S73728 (![] : Fin 0 → Fin S73728.rank)
  shapeCasts_S73728_S8192x9 : S73728.ShapeCasts S8192x9
  bcast_S_S8192x9 : S_.BroadcastsInDim S8192x9 (![] : Fin 0 → Fin S8192x9.rank)
  shapeCasts_S2048x9x2_S18432x2 : S2048x9x2.ShapeCasts S18432x2
  reducesTo_S18432x2_S18432_d1 : S18432x2.ReducesTo [1] S18432
  bcast_S18432_S18432x1_0 : S18432.BroadcastsInDim S18432x1 (![0] : Fin 1 → Fin S18432x1.rank)
  bcast_S18432x1_S18432x2048_0_1 : S18432x1.BroadcastsInDim S18432x2048 (![0, 1] : Fin 2 → Fin S18432x2048.rank)
  bcast_S1x2048_S18432x2048_0_1 : S1x2048.BroadcastsInDim S18432x2048 (![0, 1] : Fin 2 → Fin S18432x2048.rank)
  bcast_S_S18432x2048 : S_.BroadcastsInDim S18432x2048 (![] : Fin 0 → Fin S18432x2048.rank)
  reducesTo_S18432x2048_S18432_d1 : S18432x2048.ReducesTo [1] S18432
  bcast_S_S18432 : S_.BroadcastsInDim S18432 (![] : Fin 0 → Fin S18432.rank)
  shapeCasts_S18432_S2048x9 : S18432.ShapeCasts S2048x9
  bcast_S_S2048x9 : S_.BroadcastsInDim S2048x9 (![] : Fin 0 → Fin S2048x9.rank)
  dot_S73728x2_S2x2048_S73728x2048_1_0_0_1_n_n_wf : DotDims.WF S73728x2 S2x2048 S73728x2048 [1] [0] [0] [1] [] []
  dot_S18432x2_S2x2048_S18432x2048_1_0_0_1_n_n_wf : DotDims.WF S18432x2 S2x2048 S18432x2048 [1] [0] [0] [1] [] []

variable [Facts₀]

def dot_S73728x2_S2x2048_S73728x2048_1_0_0_1_n_n : DotDims S73728x2 S2x2048 S73728x2048 where
  lhsContracting := [1]
  rhsContracting := [0]
  lhsNonContracting := [0]
  rhsNonContracting := [1]
  lhsBatch := []
  rhsBatch := []
  wf := dot_S73728x2_S2x2048_S73728x2048_1_0_0_1_n_n_wf
def dot_S18432x2_S2x2048_S18432x2048_1_0_0_1_n_n : DotDims S18432x2 S2x2048 S18432x2048 where
  lhsContracting := [1]
  rhsContracting := [0]
  lhsNonContracting := [0]
  rhsNonContracting := [1]
  lhsBatch := []
  rhsBatch := []
  wf := dot_S18432x2_S2x2048_S18432x2048_1_0_0_1_n_n_wf

class Facts : Prop extends Facts₀ where

variable [Facts]
-- ==== Proof.Spec.lean ====
/-
  The common form of the two programs' results.

  A query point (ax, ay) and 2048 candidate points (qx j, qy j), all with integer coordinates, and a one-bit mark per
  candidate. One program takes, over all candidates, the least of
      |a|² + (|b_j|² + p_j) − ((a·b_j) + (a·b_j)),      p_j = 0 for a marked candidate and the finite word 1e30 otherwise,
  the other the least of
      |a|² + |b_j|² − 2 (a·b_j) for a marked candidate and +∞ otherwise;
  both then take the square root of the positive part, scale it by the word 0.01, and replace the whole result by 0
  unless more than one candidate is marked. The two results are stated here as functions of the same integer arrays; that
  they agree is a separate fact about the extended reals (the squared distance of two points with 32-bit integer
  coordinates is far below 1e30, so an unmarked candidate never wins while a marked one exists).
-/
import Idealize.ShloMosaic.PureOps.Ideal
import Idealize.ShloMosaic.PureOps.Ideal.Laws
import Idealize.ShloMosaic.Lib.ValueIdx

noncomputable section

namespace Cert.MinDist

open Idealize.ShloMosaic Idealize.ShloMosaic.ValueIdx

/-- A 32-bit word read as a signed integer, exactly: what an integer-to-float conversion gives at the exact values. -/
def ofI (w : BitVec 32) : EReal := ((w.toInt : ℝ) : EReal)

/-- One candidate's entry in the form with the finite penalty folded into the candidate's squared norm. -/
def colK (ax ay qx qy : EReal) (mj : BitVec 1) : EReal :=
  ((ax * ax + ay * ay)
      + ((qx * qx + qy * qy) + Scalar.select mj (Ideal.ofBits .f32 0x00000000#32) (Ideal.ofBits .f32 0x7149F2CA#32)))
    - ((ax * qx + ay * qy) + (ax * qx + ay * qy))

/-- One candidate's entry in the form that replaces an unmarked candidate by +∞. -/
def colR (ax ay qx qy : EReal) (mj : BitVec 1) : EReal :=
  Scalar.select mj
    (((ax * ax + ay * ay) + (qx * qx + qy * qy)) - Ideal.ofBits .f32 0x40000000#32 * (ax * qx + ay * qy))
    (Ideal.ofBits .f32 0x7F800000#32)

/-- The least entry over the candidates, from +∞, in the first form. -/
def rowK (ax ay : EReal) (qx qy : Fin 2048 → EReal) (msk : Fin 2048 → BitVec 1) : EReal :=
  (Finset.univ : Finset (Fin 2048)).fold min (Ideal.ofBits .f32 0x7F800000#32) (fun j => colK ax ay (qx j) (qy j) (msk j))

/-- The least entry over the candidates, from +∞, in the second form. -/
def rowR (ax ay : EReal) (qx qy : Fin 2048 → EReal) (msk : Fin 2048 → BitVec 1) : EReal :=
  (Finset.univ : Finset (Fin 2048)).fold min (Ideal.ofBits .f32 0x7F800000#32) (fun j => colR ax ay (qx j) (qy j) (msk j))

/-- The square root of the positive part, scaled by the word 0.01. -/
def finish (d : EReal) : EReal :=
  Ideal.sqrt (max d (Ideal.ofBits .f32 0x00000000#32)) * Ideal.ofBits .f32 0x3C23D70A#32

/-- A query point's result in the first form: kept when the bit u is set, 0 otherwise. -/
def gK (u : BitVec 1) (qx qy : Fin 2048 → BitVec 32) (msk : Fin 2048 → BitVec 1) (ax ay : BitVec 32) : EReal :=
  Scalar.select u (finish (rowK (ofI ax) (ofI ay) (fun j => ofI (qx j)) (fun j => ofI (qy j)) msk))
    (Ideal.ofBits .f32 0x00000000#32)

/-- A query point's result in the second form. -/
def gR (u : BitVec 1) (qx qy : Fin 2048 → BitVec 32) (msk : Fin 2048 → BitVec 1) (ax ay : BitVec 32) : EReal :=
  Scalar.select u (finish (rowR (ofI ax) (ofI ay) (fun j => ofI (qx j)) (fun j => ofI (qy j)) msk))
    (Ideal.ofBits .f32 0x00000000#32)

/-- "More than one candidate is marked", as the programs compute it: the marks widened to 32-bit words, summed from 0,
    compared (signed) with 1. -/
def useBit (M : IVec ⟨1, ![2048]⟩ 1) : BitVec 1 :=
  cmpi .sgt (Host.reduce (s := ⟨1, ![2048]⟩) (axes := [0]) (t := ⟨0, ![]⟩) (u := ⟨0, ![]⟩) IntOp.addi
      (extui 32 M) (constantI ⟨0, ![]⟩ 32 0#32)) (constantI ⟨0, ![]⟩ 32 1#32) ix0

/-- Row of the flattened [8192·9, 2] array of query points that entry (n, s) of an [8192, 9] result belongs to. -/
def rowLi (i : (⟨2, ![8192, 9]⟩ : Shape).Idx) : Fin 73728 := ⟨(i 0).val * 9 + (i 1).val, by
  have h0 : (i 0).val < 8192 := (i 0).isLt
  have h1 : (i 1).val < 9 := (i 1).isLt
  omega⟩

/-- Row of the flattened [2048·9, 2] array of query points that entry (n, s) of a [2048, 9] result belongs to. -/
def rowRa (i : (⟨2, ![2048, 9]⟩ : Shape).Idx) : Fin 18432 := ⟨(i 0).val * 9 + (i 1).val, by
  have h0 : (i 0).val < 2048 := (i 0).isLt
  have h1 : (i 1).val < 9 := (i 1).isLt
  omega⟩

/-- The [8192, 9] result in the first form, from the query points A, the candidates B and the marks M. -/
def outLiK (u : BitVec 1) (A : IVec ⟨2, ![73728, 2]⟩ 32) (B : IVec ⟨2, ![2048, 2]⟩ 32) (M : IVec ⟨1, ![2048]⟩ 1) :
    (⟨2, ![8192, 9]⟩ : Shape).Idx → EReal :=
  fun i => gK u (fun j => B (ix2 j (0 : Fin 2))) (fun j => B (ix2 j (1 : Fin 2))) (fun j => M (ix1 j))
    (A (ix2 (rowLi i) (0 : Fin 2))) (A (ix2 (rowLi i) (1 : Fin 2)))

/-- The [8192, 9] result in the second form. -/
def outLiR (u : BitVec 1) (A : IVec ⟨2, ![73728, 2]⟩ 32) (B : IVec ⟨2, ![2048, 2]⟩ 32) (M : IVec ⟨1, ![2048]⟩ 1) :
    (⟨2, ![8192, 9]⟩ : Shape).Idx → EReal :=
  fun i => gR u (fun j => B (ix2 j (0 : Fin 2))) (fun j => B (ix2 j (1 : Fin 2))) (fun j => M (ix1 j))
    (A (ix2 (rowLi i) (0 : Fin 2))) (A (ix2 (rowLi i) (1 : Fin 2)))

/-- The [2048, 9] result in the first form. -/
def outRaK (u : BitVec 1) (A : IVec ⟨2, ![18432, 2]⟩ 32) (B : IVec ⟨2, ![2048, 2]⟩ 32) (M : IVec ⟨1, ![2048]⟩ 1) :
    (⟨2, ![2048, 9]⟩ : Shape).Idx → EReal :=
  fun i => gK u (fun j => B (ix2 j (0 : Fin 2))) (fun j => B (ix2 j (1 : Fin 2))) (fun j => M (ix1 j))
    (A (ix2 (rowRa i) (0 : Fin 2))) (A (ix2 (rowRa i) (1 : Fin 2)))

/-- The [2048, 9] result in the second form. -/
def outRaR (u : BitVec 1) (A : IVec ⟨2, ![18432, 2]⟩ 32) (B : IVec ⟨2, ![2048, 2]⟩ 32) (M : IVec ⟨1, ![2048]⟩ 1) :
    (⟨2, ![2048, 9]⟩ : Shape).Idx → EReal :=
  fun i => gR u (fun j => B (ix2 j (0 : Fin 2))) (fun j => B (ix2 j (1 : Fin 2))) (fun j => M (ix1 j))
    (A (ix2 (rowRa i) (0 : Fin 2))) (A (ix2 (rowRa i) (1 : Fin 2)))

end Cert.MinDist

end
-- ==== Proof.KerSpec.lean ====
/-
  The distance region's result as one function of the three arrays it reads.

  The region's [720, 128] result holds, at (R, l), the value of query row 128 R + l of the [92160, 2] array of query
  points: over the 2048 candidates j, the least of
      (ax² + ay²) + bias_j − ((ax·qx_j + ay·qy_j) + (ax·qx_j + ay·qy_j))
  from +∞, then the square root of its positive part, scaled by the word 0.01 — qx and qy the two rows of the [2, 2048]
  array of candidate coordinates, bias the one row of the [1, 2048] array of penalised squared norms.
-/
import proofs.«154386_j24713241822141_2_alg».proof.Proof.Spec
import proofs.«154386_j24713241822141_2_alg».proof.KernelIdeal

noncomputable section

namespace Cert.KernelIdeal.KerSpec

open Cert.KernelIdeal Idealize.ShloMosaic Idealize.ShloMosaic.ValueIdx

/-- One candidate's entry, from the query point, the candidate and the candidate's penalised squared norm. -/
def entry (ax ay qx qy bias : EReal) : EReal :=
  ((ax * ax + ay * ay) + bias) - ((ax * qx + ay * qy) + (ax * qx + ay * qy))

/-- A query point's value: the least entry over the candidates from +∞, its positive part's square root, scaled. -/
def rowOf (ax ay : EReal) (qx qy bias : Fin 2048 → EReal) : EReal :=
  Cert.MinDist.finish ((Finset.univ : Finset (Fin 2048)).fold min (Ideal.ofBits .f32 0x7F800000#32)
    (fun j => entry ax ay (qx j) (qy j) (bias j)))

/-- The query row that entry (R, l) of the [720, 128] result belongs to. -/
def rowIdx (i : S720x128.Idx) : Fin 92160 := ⟨(i 0).val * 128 + (i 1).val, by
  have h0 : (i 0).val < 720 := (i 0).isLt
  have h1 : (i 1).val < 128 := (i 1).isLt
  omega⟩

/-- The region's result, entry by entry, from the arrays it reads. -/
def GK (X0 : S92160x2.Idx → EReal) (X1 : S2x2048.Idx → EReal) (X2 : S1x2048.Idx → EReal) : S720x128.Idx → EReal :=
  fun i => rowOf (X0 (ix2 (rowIdx i) (0 : Fin 2))) (X0 (ix2 (rowIdx i) (1 : Fin 2)))
    (fun j => X1 (ix2 (0 : Fin 2) j)) (fun j => X1 (ix2 (1 : Fin 2) j)) (fun j => X2 (ix2 (0 : Fin 1) j))

end Cert.KernelIdeal.KerSpec

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibBlockLayout.lean ====
/-
  Layout operations and row reductions read at an index given by coordinates, in the forms a kernel that works on one
  block of a larger array meets:
    [1, 1, a, b, c] cast to [a, b, c]        reads (i, j, k) at (0, 0, i, j, k);
    [a, b, c]       cast to [1, 1, a, b, c]  reads (u, v, i, j, k) at (i, j, k);
    [a, b]          cast to [1, 1, a, b]     reads (u, v, i, j) at (i, j);
  (each pair of indices has the same row-major position, the unit coordinates contributing nothing), and, at the exact
  values, the maximum of [a, b, c] over its trailing axis at (p, q) as the fold of max over k of the source at (p, q, k);
  the sum and the maximum of [a, b] over its trailing axis at p as the sum, or the fold of max, over k of the source at
  (p, k).
-/
import Idealize.ShloMosaic.Lib.ValueLayout
import Idealize.ShloMosaic.PureOps.Reduce
import Idealize.ShloMosaic.PureOps.Ideal.Laws

namespace Cert.BlockLayout

open Idealize.ShloMosaic Idealize.ShloMosaic.ValueIdx

variable {α : Type}

/-- A `[1, 1, a, b, c]` array cast to `[a, b, c]` reads, at `(i, j, k)`, the operand at `(0, 0, i, j, k)`. -/
theorem shapeCast_11abc_abc_apply {a b c : ℕ} (x : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ x h (ix3 i j k) = x (ix5 (0 : Fin 1) (0 : Fin 1) i j k) :=
  shapeCast_apply x h _ _ (by
    rw [Shape.rowMajor_val_three, Shape.rowMajor_val_five]
    show (((0 * 1 + 0) * a + i.val) * b + j.val) * c + k.val = (i.val * b + j.val) * c + k.val
    simp)

/-- An `[a, b, c]` array cast to `[1, 1, a, b, c]` reads, at `(u, v, i, j, k)`, the operand at `(i, j, k)`, whatever
    the two unit coordinates. -/
theorem shapeCast_abc_11abc_apply {a b c : ℕ} (x : (⟨3, ![a, b, c]⟩ : Shape).Idx → α)
    (h : (⟨3, ![a, b, c]⟩ : Shape).ShapeCasts ⟨5, ![1, 1, a, b, c]⟩) (u v : Fin 1) (i : Fin a) (j : Fin b) (k : Fin c) :
    shapeCast ⟨5, ![1, 1, a, b, c]⟩ x h (ix5 u v i j k) = x (ix3 i j k) :=
  shapeCast_apply x h _ _ (by
    have hu : u.val = 0 := by omega
    have hv : v.val = 0 := by omega
    rw [Shape.rowMajor_val_three, Shape.rowMajor_val_five]
    show (i.val * b + j.val) * c + k.val = (((u.val * 1 + v.val) * a + i.val) * b + j.val) * c + k.val
    rw [hu, hv]; simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp)

/-- Reducing `[a, b, c]` over its trailing axis: the source index over `(p, q)` with `k` inserted is `(p, q, k)`. -/
theorem lift_trailing3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, the maximum of `[a, b, c]` over its trailing axis reads, at `(p, q)`, the fold of `max` from
    the accumulator's value over `k` of the source at `(p, q, k)`. -/
theorem multiReduction_max_trailing3 {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin c)).fold max (Ideal.ofBits φ acc) (fun k => src (ix3 p q k)) := by
  refine (Ideal.multiReduction_maximumf_single src acc h hφ hacc (ix2 p q)).trans ?_
  exact congrArg (Finset.fold max _ · Finset.univ) (funext fun k => congrArg src (lift_trailing3 h p q k))

/-- Reducing `[a, b]` over its trailing axis: the source index over `p` with `k` inserted is `(p, k)`. -/
theorem lift_trailing2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- At the exact values, a float sum of `[a, b]` over its trailing axis reads, at `p`, the sum over `k` of the source at
    `(p, k)`. -/
theorem multiReduction_add_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_trailing2 h p k)

/-- At the exact values, the maximum of `[a, b]` over its trailing axis reads, at `p`, the fold of `max` from the
    accumulator's value over `k` of the source at `(p, k)`. -/
theorem multiReduction_max_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  exact congrArg (Finset.fold max _ · Finset.univ) (funext fun k => congrArg src (lift_trailing2 h p k))

end Cert.BlockLayout
-- ==== Proof.KerBody.lean ====
/-
  The value the distance body stores, read at one entry of its [8, 128] block.

  Entry (r, l) of the block belongs to row p = 128 r + l of the body's 1024 query points, and its value is that row's
  value (KerSpec.rowOf) of the loaded pieces: (ax, ay) row p of the two loaded columns of query coordinates, qx and qy
  the two loaded rows of candidate coordinates, bias the loaded row of penalised squared norms. The broadcasts only
  repeat a column along the rows or a row down the columns, so at (p, j) each reads its operand at p or at j alone; the
  reduction over the trailing axis is a fold of min over j.
-/
import proofs.«154386_j24713241822141_2_alg».proof.Proof.KerSpec
import proofs.«154386_j24713241822141_2_alg».proof.Proof.LibKeepdims
import proofs.«154386_j24713241822141_2_alg».proof.Proof.LibBlockLayout
import proofs.«154386_j24713241822141_2_alg».proof.Proof.Gen.KernelIdeal.Skeleton
import Idealize.ShloMosaic.Lib.ValueLayout
import Idealize.ShloMosaic.Lib.Pipeline.Value
import Idealize.ShloMosaic.PureOps.Reduce
import Idealize.ShloMosaic.PureOps.Ideal.Laws

noncomputable section

namespace Cert.KernelIdeal.KerBody

open Cert.KernelIdeal Cert.KernelIdeal.Gen Cert.KernelIdeal.KerSpec Idealize.ShloMosaic Idealize.ShloMosaic.ValueIdx

/-- At the exact values, the minimum of [a, b] over its trailing axis reads, at p, the fold of min from the accumulator's
    value over k of the source at (p, k). -/
theorem multiReduction_min_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.minimumf.neutral φ hφ) (p : Fin a) :
    multiReduction .minimumf [(1 : Fin 2)] ⟨1, ![a]⟩ src acc h hφ hacc (ix1 p)
      = (Finset.univ : Finset (Fin b)).fold min (Ideal.ofBits φ acc) (fun k => src (ix2 p k)) := by
  have e : multiReduction .minimumf [(1 : Fin 2)] ⟨1, ![a]⟩ src acc h hφ hacc (ix1 p)
      = (Finset.univ : Finset (Fin b)).fold min (Ideal.ofBits φ acc) (src ∘ h.lift (ix1 p)) := by
    rw [multiReduction_minimumf_eq_fold]; exact h.fold_filter_drop_single _ _ src (ix1 p)
  refine e.trans ?_
  exact congrArg (Finset.fold min _ · Finset.univ) (funext fun k => congrArg src (Cert.BlockLayout.lift_trailing2 h p k))

/-- A square root at an index is the square root of the element. -/
theorem sqrt_apply {s : Shape} {φ : FTy} (a : FVec Ideal s φ) (i : s.Idx) : sqrt a i = Ideal.sqrt (a i) := rfl

/-- The [1024, 2048] table of entries the body reduces, from the loaded pieces, in the body's own operations. -/
def table (l0 l1 : Vec Ideal S1024x1 .f32) (l2 l3 l4 : Vec Ideal S1x2048 .f32) : FVec Ideal S1024x2048 .f32 :=
  subf
    (addf
      (broadcastTo S1024x2048 (addf (mulf (shapeCast S1024x1 l0 shapeCasts_S1024x1_S1024x1) (shapeCast S1024x1 l0 shapeCasts_S1024x1_S1024x1))
        (mulf (shapeCast S1024x1 l1 shapeCasts_S1024x1_S1024x1) (shapeCast S1024x1 l1 shapeCasts_S1024x1_S1024x1))) broadcasts_S1024x1_S1024x2048)
      (broadcastTo S1024x2048 (shapeCast S1x2048 l4 shapeCasts_S1x2048_S1x2048) broadcasts_S1x2048_S1024x2048))
    (addf
      (addf
        (mulf (broadcastTo S1024x2048 (shapeCast S1024x1 l0 shapeCasts_S1024x1_S1024x1) broadcasts_S1024x1_S1024x2048)
          (broadcastTo S1024x2048 (shapeCast S1x2048 l2 shapeCasts_S1x2048_S1x2048) broadcasts_S1x2048_S1024x2048))
        (mulf (broadcastTo S1024x2048 (shapeCast S1024x1 l1 shapeCasts_S1024x1_S1024x1) broadcasts_S1024x1_S1024x2048)
          (broadcastTo S1024x2048 (shapeCast S1x2048 l3 shapeCasts_S1x2048_S1x2048) broadcasts_S1x2048_S1024x2048)))
      (addf
        (mulf (broadcastTo S1024x2048 (shapeCast S1024x1 l0 shapeCasts_S1024x1_S1024x1) broadcasts_S1024x1_S1024x2048)
          (broadcastTo S1024x2048 (shapeCast S1x2048 l2 shapeCasts_S1x2048_S1x2048) broadcasts_S1x2048_S1024x2048))
        (mulf (broadcastTo S1024x2048 (shapeCast S1024x1 l1 shapeCasts_S1024x1_S1024x1) broadcasts_S1024x1_S1024x2048)
          (broadcastTo S1024x2048 (shapeCast S1x2048 l3 shapeCasts_S1x2048_S1x2048) broadcasts_S1x2048_S1024x2048))))

/-- The table at (p, j) is candidate j's entry for query row p. -/
theorem table_apply (l0 l1 : Vec Ideal S1024x1 .f32) (l2 l3 l4 : Vec Ideal S1x2048 .f32) (p : Fin 1024) (j : Fin 2048) :
    table l0 l1 l2 l3 l4 (ix2 p j)
      = entry (l0 (ix2 p (0 : Fin 1))) (l1 (ix2 p (0 : Fin 1))) (l2 (ix2 (0 : Fin 1) j)) (l3 (ix2 (0 : Fin 1) j)) (l4 (ix2 (0 : Fin 1) j)) := by
  unfold table entry
  simp only [shapeCast_self, subf_apply, addf_apply, mulf_apply, Cert.Keepdims.broadcastTo_a1_ab_apply, broadcastTo_1b_ab_apply]

/-- The stored value in the body's own operations, over the table. -/
def stored (l0 l1 : Vec Ideal S1024x1 .f32) (l2 l3 l4 : Vec Ideal S1x2048 .f32) : FVec Ideal S8x128 .f32 :=
  shapeCast S8x128
    (mulf (sqrt (maximumf
        (multiReduction .minimumf [1] S1024 (table l0 l1 l2 l3 l4) 0x7F800000#32 reduces_S1024x2048_S1024 (.inl rfl) rfl)
        (broadcast S1024 (Scalar.ofBits .f32 0x00000000#32))))
      (broadcast S1024 (Scalar.ofBits .f32 0x3C23D70A#32)))
    shapeCasts_S1024_S8x128

/-- The body's stored value is that term. -/
theorem pay_eq_stored (l0 l1 : Vec Ideal S1024x1 .f32) (l2 l3 l4 : Vec Ideal S1x2048 .f32) :
    k0_pay1 (F := Ideal) l0 l1 l2 l3 l4 = stored l0 l1 l2 l3 l4 := rfl

/-- The stored value at entry (r, l) is the value of query row p = 128 r + l. -/
theorem pay_apply (l0 l1 : Vec Ideal S1024x1 .f32) (l2 l3 l4 : Vec Ideal S1x2048 .f32) (r : Fin 8) (l : Fin 128)
    (p : Fin 1024) (hp : p.val = r.val * 128 + l.val) :
    k0_pay1 (F := Ideal) l0 l1 l2 l3 l4 (ix2 r l)
      = rowOf (l0 (ix2 p (0 : Fin 1))) (l1 (ix2 p (0 : Fin 1))) (fun j => l2 (ix2 (0 : Fin 1) j)) (fun j => l3 (ix2 (0 : Fin 1) j))
          (fun j => l4 (ix2 (0 : Fin 1) j)) := by
  rw [pay_eq_stored]
  unfold stored
  refine (shapeCast_apply _ _ (ix2 r l) (ix1 p) (by rw [Shape.rowMajor_val_one, Shape.rowMajor_val_two]; exact hp)).trans ?_
  rw [mulf_apply, sqrt_apply, maximumf_apply, broadcast_apply, broadcast_apply]
  unfold rowOf Cert.MinDist.finish
  show Ideal.sqrt (max
        (multiReduction (F := Ideal) .minimumf [1] S1024 (table l0 l1 l2 l3 l4) 0x7F800000#32 reduces_S1024x2048_S1024 (.inl rfl) rfl (ix1 p))
        (Ideal.ofBits .f32 0x00000000#32)) * Ideal.ofBits .f32 0x3C23D70A#32 = _
  refine congrArg (fun z => Ideal.sqrt (max z (Ideal.ofBits .f32 0x00000000#32)) * Ideal.ofBits .f32 0x3C23D70A#32) ?_
  refine (multiReduction_min_trailing2 (table l0 l1 l2 l3 l4) 0x7F800000#32 reduces_S1024x2048_S1024 (.inl rfl) rfl p).trans ?_
  exact congrArg (Finset.fold min _ · Finset.univ) (funext fun j => table_apply l0 l1 l2 l3 l4 p j)

end Cert.KernelIdeal.KerBody

end
-- ==== Proof.KerValue.lean ====
/-
  From the blocks the distance body writes to the whole [720, 128] array, and through the host operations after the region.

  Grid point t of the 90 reads rows 1024 t … 1024 t + 1023 of the query array and the whole candidate and bias arrays, and
  writes rows 8 t … 8 t + 7 of the result. Entry (r, l) of its block is the value of the block's query row 128 r + l, that
  is of row 1024 t + 128 r + l of the whole query array — which is row 128 (8 t + r) + l, the query row the whole-array
  function assigns to entry (8 t + r, l). The 90 blocks tile the 720 rows, so the array ends as that function. The host
  operations after the region then flatten it, keep it only when the test on the marks holds, cut it in two and re-lay the parts.
-/
import proofs.«154386_j24713241822141_2_alg».proof.Proof.KerBody
import proofs.«154386_j24713241822141_2_alg».proof.Proof.Gen.KernelIdeal.Frame
import Idealize.ShloMosaic.Lib.Pipeline.Value
import Idealize.ShloMosaic.Lib.StableHlo.Run

noncomputable section

namespace Cert.KernelIdeal.KerValue

open Cert.KernelIdeal Cert.KernelIdeal.Gen Cert.KernelIdeal.KerSpec Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the query window and the result window move with the point, the other two stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem rowOf_congr {ax ax' ay ay' : EReal} {qx qx' qy qy' bias bias' : Fin 2048 → EReal}
    (h1 : ax = ax') (h2 : ay = ay') (h3 : qx = qx') (h4 : qy = qy') (h5 : bias = bias') :
    rowOf ax ay qx qy bias = rowOf ax' ay' qx' qy' bias' := by
  subst h1 h2 h3 h4 h5; rfl

/-- Row p of the point's query block, first coordinate, is row 128 (8 t + r) + l of the query array when p = 128 r + l. -/
theorem read_ax (c : Dev nD) (t : Fin cfg0.N) (r : Fin 8) (l : Fin 128) (p : Fin 1024) (hp : p.val = r.val * 128 + l.val) :
    View.ld (iblk m c 0 t) r0_0 (ix2 p (0 : Fin 1))
      = V m c main_v37 (ix2 (rowIdx (((cfg0.win 3).blk t).view.emb (ix2 r l))) (0 : Fin 2)) := by
  obtain ⟨e00, e01, -, -, -, -, e30, e31⟩ := idx_facts t
  show V m c main_v37 (((cfg0.win 0).blk t).view.emb (r0_0.idx (ix2 p (0 : Fin 1)))) = _
  refine congrArg (V m c main_v37) (funext fun a => Fin.ext ?_)
  match a with
  | ⟨0, _⟩ =>
    show win0_0.index t (0 : Fin 2) * 1024 + 1 * (0 + 1 * p.val)
      = (win0_3.index t (0 : Fin 2) * 8 + 1 * r.val) * 128 + (win0_3.index t (1 : Fin 2) * 128 + 1 * l.val)
    omega
  | ⟨1, _⟩ =>
    show win0_0.index t (1 : Fin 2) * 2 + 1 * (0 + 1 * 0) = 0
    omega

/-- The same row's second coordinate. -/
theorem read_ay (c : Dev nD) (t : Fin cfg0.N) (r : Fin 8) (l : Fin 128) (p : Fin 1024) (hp : p.val = r.val * 128 + l.val) :
    View.ld (iblk m c 0 t) r0_1 (ix2 p (0 : Fin 1))
      = V m c main_v37 (ix2 (rowIdx (((cfg0.win 3).blk t).view.emb (ix2 r l))) (1 : Fin 2)) := by
  obtain ⟨e00, e01, -, -, -, -, e30, e31⟩ := idx_facts t
  show V m c main_v37 (((cfg0.win 0).blk t).view.emb (r0_1.idx (ix2 p (0 : Fin 1)))) = _
  refine congrArg (V m c main_v37) (funext fun a => Fin.ext ?_)
  match a with
  | ⟨0, _⟩ =>
    show win0_0.index t (0 : Fin 2) * 1024 + 1 * (0 + 1 * p.val)
      = (win0_3.index t (0 : Fin 2) * 8 + 1 * r.val) * 128 + (win0_3.index t (1 : Fin 2) * 128 + 1 * l.val)
    omega
  | ⟨1, _⟩ =>
    show win0_0.index t (1 : Fin 2) * 2 + 1 * (1 + 1 * 0) = 1
    omega

/-- The candidates' first coordinates: row 0 of the candidate array, whole at every point. -/
theorem read_qx (c : Dev nD) (t : Fin cfg0.N) (k : Fin 2048) :
    View.ld (iblk m c 1 t) r0_2 (ix2 (0 : Fin 1) k) = V m c main_v22 (ix2 (0 : Fin 2) k) := by
  obtain ⟨-, -, e10, e11, -, -, -, -⟩ := idx_facts t
  show V m c main_v22 (((cfg0.win 1).blk t).view.emb (r0_2.idx (ix2 (0 : Fin 1) k))) = _
  refine congrArg (V m c main_v22) (funext fun a => Fin.ext ?_)
  match a with
  | ⟨0, _⟩ =>
    show win0_1.index t (0 : Fin 2) * 2 + 1 * (0 + 1 * 0) = 0
    omega
  | ⟨1, _⟩ =>
    show win0_1.index t (1 : Fin 2) * 2048 + 1 * (0 + 1 * k.val) = k.val
    omega

/-- The candidates' second coordinates: row 1 of the candidate array. -/
theorem read_qy (c : Dev nD) (t : Fin cfg0.N) (k : Fin 2048) :
    View.ld (iblk m c 1 t) r0_3 (ix2 (0 : Fin 1) k) = V m c main_v22 (ix2 (1 : Fin 2) k) := by
  obtain ⟨-, -, e10, e11, -, -, -, -⟩ := idx_facts t
  show V m c main_v22 (((cfg0.win 1).blk t).view.emb (r0_3.idx (ix2 (0 : Fin 1) k))) = _
  refine congrArg (V m c main_v22) (funext fun a => Fin.ext ?_)
  match a with
  | ⟨0, _⟩ =>
    show win0_1.index t (0 : Fin 2) * 2 + 1 * (1 + 1 * 0) = 1
    omega
  | ⟨1, _⟩ =>
    show win0_1.index t (1 : Fin 2) * 2048 + 1 * (0 + 1 * k.val) = k.val
    omega

/-- The penalised squared norms: the one row of the bias array. -/
theorem read_bias (c : Dev nD) (t : Fin cfg0.N) (k : Fin 2048) :
    View.ld (iblk m c 2 t) r0_4 (ix2 (0 : Fin 1) k) = V m c main_v19 (ix2 (0 : Fin 1) k) := by
  obtain ⟨-, -, -, -, e20, e21, -, -⟩ := idx_facts t
  show V m c main_v19 (((cfg0.win 2).blk t).view.emb (r0_4.idx (ix2 (0 : Fin 1) k))) = _
  refine congrArg (V m c main_v19) (funext fun a => Fin.ext ?_)
  match a with
  | ⟨0, _⟩ =>
    show win0_2.index t (0 : Fin 2) * 1 + 1 * (0 + 1 * 0) = 0
    omega
  | ⟨1, _⟩ =>
    show win0_2.index t (1 : Fin 2) * 2048 + 1 * (0 + 1 * k.val) = k.val
    omega

/-- What point t writes back is block t of the whole-array function of the arrays the region reads. -/
theorem flushed_eq (c : Dev nD) (t : Fin cfg0.N) :
    (dats m 0 c).flushed 3 t
      = ((cfg0.win 3).blk t).view.read (Elt Ideal) (GK (V m c main_v37) (V m c main_v22) (V m c main_v19)) := by
  show (cfg0.win 3).cut (grid0.coords t) ((dats m 0 c).after 3 t) = _
  rw [after0_3]
  unfold out0_3
  rw [View.canon_unit_zero hz]
  funext j
  revert j
  show ∀ j : S8x128.Idx, k0_pay1 (View.ld (iblk m c 0 t) r0_0) (View.ld (iblk m c 0 t) r0_1) (View.ld (iblk m c 1 t) r0_2)
      (View.ld (iblk m c 1 t) r0_3) (View.ld (iblk m c 2 t) r0_4) j
    = GK (V m c main_v37) (V m c main_v22) (V m c main_v19) (((cfg0.win 3).blk t).view.emb j)
  intro j
  obtain ⟨r, l, rfl⟩ : ∃ (r : Fin 8) (l : Fin 128), j = ix2 r l := ⟨j 0, j 1, eq_ix2 j⟩
  have hr := r.isLt
  have hl := l.isLt
  refine (KerBody.pay_apply _ _ _ _ _ r l ⟨r.val * 128 + l.val, by omega⟩ rfl).trans ?_
  unfold GK
  exact rowOf_congr (read_ax m c t r l _ rfl) (read_ay m c t r l _ rfl) (funext fun k => read_qx m c t k)
    (funext fun k => read_qy m c t k) (funext fun k => read_bias m c t k)

end Cert.KernelIdeal.KerValue

end
-- ==== Proof.KerCover.lean ====
/-
  The result window's blocks cover the result array.

  The distance region runs over a grid of 90 points; at point t its result window holds the [8, 128] block of the
  [720, 128] result array whose block index is (t, 0): rows 8t … 8t + 7, all 128 columns. An index (r, c) of the array
  lies in the block of the point r / 8, which is below 90 because r < 720; and every point writes its block back. So
  every index of the array is in the block of some point that writes back.
-/
import proofs.«154386_j24713241822141_2_alg».proof.Proof.Gen.KernelIdeal.Frame
import Idealize.ShloMosaic.Lib.Pipeline.Value

noncomputable section

namespace Cert.KernelIdeal.KerCover

open Cert.KernelIdeal Cert.KernelIdeal.Gen Idealize.ShloMosaic Idealize.ShloMosaic.TcCoe Idealize.SL.Sem

/-- The result window's index map, decided over the grid: at point t the block index is (t, 0). -/
theorem idx3 : ∀ t : Fin cfg0.N, win0_3.index t (0 : Fin 2) = t.val ∧ win0_3.index t (1 : Fin 2) = 0 :=
  (by decide +kernel : ∀ t : Fin grid0.N, _)

/-- An index of the array is in point t's block iff each coordinate is in the block's range on its axis. -/
theorem mem_blk (t : Fin cfg0.N) (i : S720x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v38).slice (win0_3.rect t)).set ↔ _
  rw [View.set_slice_whole, Rect.mem_set_unit]
  exact Iff.rfl

/-- Every index (r, c) of the array is in the block of the point r / 8, and that point writes its block back. -/
theorem cover (i : S720x128.Idx) : ∃ t : Fin cfg0.N, (cfg0.win 3).flush t = true ∧ i ∈ ((cfg0.win 3).blk t).view.set := by
  have hN : cfg0.N = 90 := N_0
  have hi0 : (i 0).val < 720 := (i 0).isLt
  have hi1 : (i 1).val < 128 := (i 1).isLt
  have ht : (i 0).val / 8 < cfg0.N := by rw [hN]; omega
  obtain ⟨e0, e1⟩ := idx3 ⟨(i 0).val / 8, ht⟩
  have e0' : win0_3.index ⟨(i 0).val / 8, ht⟩ (0 : Fin 2) = (i 0).val / 8 := e0
  refine ⟨⟨(i 0).val / 8, ht⟩, flush0_3 _, ?_⟩
  rw [mem_blk]
  intro a
  match a with
  | ⟨0, _⟩ =>
    show win0_3.index ⟨(i 0).val / 8, ht⟩ (0 : Fin 2) * 8 ≤ (i 0).val
      ∧ (i 0).val < win0_3.index ⟨(i 0).val / 8, ht⟩ (0 : Fin 2) * 8 + 8
    omega
  | ⟨1, _⟩ =>
    show win0_3.index ⟨(i 0).val / 8, ht⟩ (1 : Fin 2) * 128 ≤ (i 1).val
      ∧ (i 1).val < win0_3.index ⟨(i 0).val / 8, ht⟩ (1 : Fin 2) * 128 + 128
    omega

end Cert.KernelIdeal.KerCover

end
-- ==== Proof.KerTerm.lean ====
/-
  The kernel program's host side as composed terms of its argument arrays, stage by stage: the marks of the candidates
  (|velocity| > 0.1), the candidates' integer coordinates, the query points (each input point shifted by the nine offsets
  and wrapped modulo 513), the test "more than one candidate is marked"; the three arrays the distance region reads —
  all query points as one [92160, 2] float array, the candidates' coordinates as the two rows of a [2, 2048] array, and
  the row [1, 2048] of the candidates' squared norms plus 0 for a marked candidate and the word 1e30 otherwise —; and what
  the program does with the region's [720, 128] result: flatten it, replace it by 0 unless more than one candidate is
  marked, cut it in two and lay each part out per input point.
-/
import proofs.«154386_j24713241822141_2_alg».proof.KernelIdeal

noncomputable section

namespace Cert.KernelIdeal.KerTerm

open Cert.KernelIdeal Idealize.ShloMosaic
open Facts₀ Facts

variable {F : FTy → Type} [FloatOps F] [Facts]

/-- The marks: candidate j is marked when |column 4 of its row| exceeds the word 0.1. -/
def maskT (a2 : FVec F S2048x5 .f32) : IVec S2048 1 :=
  cmpf .ogt (Host.absf (shapeCast S2048 (extractStridedSlice S2048x1 ![0, 4] a2 slices_S2048x5_S2048x1_0_4) shapeCasts_S2048x1_S2048))
    (broadcastInDim S2048 ![] bcast_S_S2048 (constant S_ .f32 0x3DCCCCCD#32))

/-- The candidates' integer coordinates: columns 1 and 2 of the voxel table. -/
def dyIT (a3 : IVec S2048x3 32) : IVec S2048x2 32 := extractStridedSlice S2048x2 ![0, 1] a3 slices_S2048x3_S2048x2_0_1

/-- "More than one candidate is marked": the marks widened to words, summed from 0, compared (signed) with 1. -/
def useT (M : IVec S2048 1) : IVec S_ 1 :=
  cmpi .sgt (Host.reduce IntOp.addi (extui 32 M natLt_1_32) (constantI S_ 32 0#32) reducesTo_S2048_S_d0 h_S_) (constantI S_ 32 1#32)

/-- Floor-modulo by 513 on the shifted 8192×9×2 integer coordinates: the truncating remainder, corrected by the divisor where
    its sign differs from the divisor's. -/
def remLi (x : IVec S8192x9x2 32) : IVec S8192x9x2 32 :=
  let d0 : IVec S1x1x2 32 := broadcastInDim S1x1x2 ![2] bcast_S2_S1x1x2_2 (constantI S2 32 513#32)
  let d : IVec S1x1x2 32 := select (cmpi .eq d0 (broadcastInDim S1x1x2 ![] bcast_S_S1x1x2 (constantI S_ 32 0#32)))
    (broadcastInDim S1x1x2 ![] bcast_S_S1x1x2 (constantI S_ 32 1#32)) d0
  let r : IVec S8192x9x2 32 := Host.remsi x (broadcastInDim S8192x9x2 ![0, 1, 2] bcast_S1x1x2_S8192x9x2_0_1_2 d)
  select (andi (cmpi .ne (cmpi .slt r (broadcastInDim S8192x9x2 ![] bcast_S_S8192x9x2 (constantI S_ 32 0#32)))
        (broadcastInDim S8192x9x2 ![0, 1, 2] bcast_S1x1x2_S8192x9x2_0_1_2
          (cmpi .slt d (broadcastInDim S1x1x2 ![] bcast_S_S1x1x2 (constantI S_ 32 0#32)))))
      (cmpi .ne r (broadcastInDim S8192x9x2 ![] bcast_S_S8192x9x2 (constantI S_ 32 0#32))))
    (addi r (broadcastInDim S8192x9x2 ![0, 1, 2] bcast_S1x1x2_S8192x9x2_0_1_2 d)) r

/-- The 73728 query points: each of the 8192 input points shifted by the nine offsets, wrapped modulo 513, laid out as rows. -/
def nbLiT (a : IVec S8192x2 32) : IVec S73728x2 32 :=
  shapeCast S73728x2 (remLi (addi
    (broadcastInDim S8192x9x2 ![0, 1, 2] bcast_S8192x1x2_S8192x9x2_0_1_2 (broadcastInDim S8192x1x2 ![0, 2] bcast_S8192x2_S8192x1x2_0_2 a))
    (broadcastInDim S8192x9x2 ![0, 1, 2] bcast_S1x9x2_S8192x9x2_0_1_2
      (broadcastInDim S1x9x2 ![1, 2] bcast_S9x2_S1x9x2_1_2 (fun i => lit0 (S9x2.rowMajor i)))))) shapeCasts_S8192x9x2_S73728x2

/-- Floor-modulo by 513 on the shifted 2048×9×2 integer coordinates: the truncating remainder, corrected by the divisor where
    its sign differs from the divisor's. -/
def remRa (x : IVec S2048x9x2 32) : IVec S2048x9x2 32 :=
  let d0 : IVec S1x1x2 32 := broadcastInDim S1x1x2 ![2] bcast_S2_S1x1x2_2 (constantI S2 32 513#32)
  let d : IVec S1x1x2 32 := select (cmpi .eq d0 (broadcastInDim S1x1x2 ![] bcast_S_S1x1x2 (constantI S_ 32 0#32)))
    (broadcastInDim S1x1x2 ![] bcast_S_S1x1x2 (constantI S_ 32 1#32)) d0
  let r : IVec S2048x9x2 32 := Host.remsi x (broadcastInDim S2048x9x2 ![0, 1, 2] bcast_S1x1x2_S2048x9x2_0_1_2 d)
  select (andi (cmpi .ne (cmpi .slt r (broadcastInDim S2048x9x2 ![] bcast_S_S2048x9x2 (constantI S_ 32 0#32)))
        (broadcastInDim S2048x9x2 ![0, 1, 2] bcast_S1x1x2_S2048x9x2_0_1_2
          (cmpi .slt d (broadcastInDim S1x1x2 ![] bcast_S_S1x1x2 (constantI S_ 32 0#32)))))
      (cmpi .ne r (broadcastInDim S2048x9x2 ![] bcast_S_S2048x9x2 (constantI S_ 32 0#32))))
    (addi r (broadcastInDim S2048x9x2 ![0, 1, 2] bcast_S1x1x2_S2048x9x2_0_1_2 d)) r

/-- The 18432 query points: each of the 2048 input points shifted by the nine offsets, wrapped modulo 513, laid out as rows. -/
def nbRaT (a : IVec S2048x2 32) : IVec S18432x2 32 :=
  shapeCast S18432x2 (remRa (addi
    (broadcastInDim S2048x9x2 ![0, 1, 2] bcast_S2048x1x2_S2048x9x2_0_1_2 (broadcastInDim S2048x1x2 ![0, 2] bcast_S2048x2_S2048x1x2_0_2 a))
    (broadcastInDim S2048x9x2 ![0, 1, 2] bcast_S1x9x2_S2048x9x2_0_1_2
      (broadcastInDim S1x9x2 ![1, 2] bcast_S9x2_S1x9x2_1_2 (fun i => lit1 (S9x2.rowMajor i)))))) shapeCasts_S2048x9x2_S18432x2

/-- The candidates' first coordinates as floats. -/
def qxT (B : IVec S2048x2 32) : FVec F S2048 .f32 :=
  shapeCast S2048 (extractStridedSlice S2048x1 ![0, 0] (sitofp .f32 B : FVec F S2048x2 .f32) slices_S2048x2_S2048x1_0_0) shapeCasts_S2048x1_S2048

/-- The candidates' second coordinates as floats. -/
def qyT (B : IVec S2048x2 32) : FVec F S2048 .f32 :=
  shapeCast S2048 (extractStridedSlice S2048x1 ![0, 1] (sitofp .f32 B : FVec F S2048x2 .f32) slices_S2048x2_S2048x1_0_1) shapeCasts_S2048x1_S2048

/-- The row of the candidates' squared norms plus the penalty: 0 for a marked candidate, the word 1e30 otherwise. -/
def biasT (B : IVec S2048x2 32) (M : IVec S2048 1) : FVec F S1x2048 .f32 :=
  shapeCast S1x2048 (addf (addf (mulf (qxT B) (qxT B)) (mulf (qyT B) (qyT B)))
    (id (select M (broadcastInDim S2048 ![] bcast_S_S2048 (constant S_ .f32 0x00000000#32))
      (broadcastInDim S2048 ![] bcast_S_S2048 (constant S_ .f32 0x7149F2CA#32))))) shapeCasts_S2048_S1x2048

/-- The candidates' coordinates as the two rows of a [2, 2048] array. -/
def dyRowsT (B : IVec S2048x2 32) : FVec F S2x2048 .f32 :=
  concatenate S2x2048 0 [⟨S1x2048, broadcastInDim S1x2048 ![1] bcast_S2048_S1x2048_1 (qxT B)⟩,
    ⟨S1x2048, broadcastInDim S1x2048 ![1] bcast_S2048_S1x2048_1 (qyT B)⟩] concatenates_S1x2048_S1x2048_S2x2048_d0

/-- All query points as one float array: the 73728 of the first input set, then the 18432 of the second. -/
def nbFlatT (A : IVec S73728x2 32) (A' : IVec S18432x2 32) : FVec F S92160x2 .f32 :=
  concatenate S92160x2 0 [⟨S73728x2, (sitofp .f32 A : FVec F S73728x2 .f32)⟩, ⟨S18432x2, (sitofp .f32 A' : FVec F S18432x2 .f32)⟩]
    concatenates_S73728x2_S18432x2_S92160x2_d0

/-- The region's result flattened and replaced by 0 unless the bit u is set. -/
def gatedT (u : IVec S_ 1) (o : FVec F S720x128 .f32) : FVec F S92160 .f32 :=
  select (broadcastInDim S92160 ![] bcast_S_S92160 u) (shapeCast S92160 o shapeCasts_S720x128_S92160)
    (broadcastInDim S92160 ![] bcast_S_S92160 (id (constant S_ .f32 0x00000000#32)))

/-- The first 73728 entries laid out per input point. -/
def tailLi (u : IVec S_ 1) (o : FVec F S720x128 .f32) : FVec F S8192x9 .f32 :=
  shapeCast S8192x9 (extractStridedSlice S73728 ![0] (gatedT u o) slices_S92160_S73728_0) shapeCasts_S73728_S8192x9

/-- The last 18432 entries laid out per input point. -/
def tailRa (u : IVec S_ 1) (o : FVec F S720x128 .f32) : FVec F S2048x9 .f32 :=
  shapeCast S2048x9 (extractStridedSlice S18432 ![73728] (gatedT u o) slices_S92160_S18432_73728) shapeCasts_S18432_S2048x9

end Cert.KernelIdeal.KerTerm

end
-- ==== Proof.KerTail.lean ====
/-
  The kernel program's host operations after the distance region. From the buffer contents the region leaves — its
  [720, 128] result array, every other buffer as it was when the region was entered — the fourteen operations flatten
  the result, recompute the test "more than one candidate is marked" from the marks, replace the flattened result by 0
  unless the test holds, cut it at 73728 and lay the two parts out per input point. Read at the two result buffers, the
  fold of the operations is KerTerm.tailLi and KerTerm.tailRa of the test on the marks and the region's result.
-/
import proofs.«154386_j24713241822141_2_alg».proof.Proof.KerTerm
import proofs.«154386_j24713241822141_2_alg».proof.Proof.Gen.KernelIdeal.Frame
import Idealize.ShloMosaic.Lib.StableHlo.Run

noncomputable section

namespace Cert.KernelIdeal.KerTail

open Cert.KernelIdeal Cert.KernelIdeal.Gen Idealize.ShloMosaic Idealize.ShloMosaic.TcCoe Idealize.SL.Sem Idealize.ShloMosaic.StableHlo

variable {F : FTy → Type} [FloatOps F]

attribute [local irreducible] Host.reduce broadcastInDim extractStridedSlice in
set_option maxRecDepth 16384 in
set_option maxHeartbeats 4000000 in
/-- The first result after the fourteen operations, from any contents X: the test on X's marks gating X's region result. -/
theorem tailLi_of (X : Valuation τ sig (Elt F)) :
    after (List.flatten [hostOps1, hostOps1_1, hostOps1_2]) X (main_v46 : DevRef τ sig)
      = KerTerm.tailLi (KerTerm.useT (X (main_v6 : DevRef τ sig))) (X (main_v38 : DevRef τ sig)) := by
  simp only [hostOps1, hostOps1_1, hostOps1_2, List.flatten_cons, List.flatten_nil, List.append_nil, List.cons_append, List.nil_append]
  after_results_simp
  rfl

attribute [local irreducible] Host.reduce broadcastInDim extractStridedSlice in
set_option maxRecDepth 16384 in
set_option maxHeartbeats 4000000 in
/-- The second result after the fourteen operations, from any contents X. -/
theorem tailRa_of (X : Valuation τ sig (Elt F)) :
    after (List.flatten [hostOps1, hostOps1_1, hostOps1_2]) X (main_v47 : DevRef τ sig)
      = KerTerm.tailRa (KerTerm.useT (X (main_v6 : DevRef τ sig))) (X (main_v38 : DevRef τ sig)) := by
  simp only [hostOps1, hostOps1_1, hostOps1_2, List.flatten_cons, List.flatten_nil, List.append_nil, List.cons_append, List.nil_append]
  after_results_simp
  rfl

variable (m : (ℓ : Loc nD τ sig) → Buf (Elt F) ℓ)

/-- The region writes its result array and no other buffer: the marks are as the region found them. -/
theorem exit_v6 (c : Dev nD) :
    (Pipeline.withArrays (cfgs 0).spec c (V0 m c) fun w => (dats m 0 c).arrAt w (cfgs 0).N) (Proc.devRef .tc main_v6) = V0 m c (Proc.devRef .tc main_v6) :=
  Pipeline.withArrays_of_ne _ c (V0 m c) _ main_v6 (by exact (by decide : ∀ w, Pipeline.arrRef spec0 w ≠ main_v6))

/-- The region's result array is the pipeline's fourth array, at what the proof data compute for it. -/
theorem exit_v38 (c : Dev nD) (O : S720x128.Idx → Elt F .f32) (hO : (dats m 0 c).arrAt 3 cfg0.N = O) :
    (Pipeline.withArrays (cfgs 0).spec c (V0 m c) fun w => (dats m 0 c).arrAt w (cfgs 0).N) (Proc.devRef .tc main_v38) = O :=
  (Pipeline.withArrays_arr spec0 launch0.win.arr_inj c (V0 m c) _ 3).trans hO

/-- The first result buffer at the run's end. -/
theorem tail_v46 (c : Dev nD) (O : S720x128.Idx → Elt F .f32) (hO : (dats m 0 c).arrAt 3 cfg0.N = O) :
    Pipeline.afterTail₀ cfgs (dats m) 0 (V0 m) [hostOps1, hostOps1_1, hostOps1_2] c main_v46
      = KerTerm.tailLi (KerTerm.useT (V0 m c (Proc.devRef .tc main_v6))) O := by
  unfold Pipeline.afterTail₀
  rw [tailLi_of, exit_v6 m c, exit_v38 m c O hO]

/-- The second result buffer at the run's end. -/
theorem tail_v47 (c : Dev nD) (O : S720x128.Idx → Elt F .f32) (hO : (dats m 0 c).arrAt 3 cfg0.N = O) :
    Pipeline.afterTail₀ cfgs (dats m) 0 (V0 m) [hostOps1, hostOps1_1, hostOps1_2] c main_v47
      = KerTerm.tailRa (KerTerm.useT (V0 m c (Proc.devRef .tc main_v6))) O := by
  unfold Pipeline.afterTail₀
  rw [tailRa_of, exit_v6 m c, exit_v38 m c O hO]

end Cert.KernelIdeal.KerTail

end
-- ==== Proof.LibFoldConcat.lean ====
/-
  Folding a straight line of host operations through concatenations.

  The contents a buffer holds after a line of host operations are a fold of the operations' results over the launch
  contents, and the library's result lemmas rewrite that fold one operation at a time. Two kinds of concatenation stop
  the rewriting, and the two facts here let it go on:

  * an operation on a LITERAL family of three references (three arrays laid end to end): the library states such an
    operation's result with the operands read under a binder, `fun k => V ↑(![x, a, b] k)`, where no result lemma
    applies; `nary3_result'` states it with each operand's contents at its own reference (the three-operand analogue of
    the library's lemma for four);
  * a two-piece concatenation `concatenate t a [⟨s1, x1⟩, ⟨s2, x2⟩] hc`: its side condition `hc` is stated over the list
    of pieces, so a rewriting pass cannot enter the pieces; `cat2` is the same value with each piece an argument of its
    own, and `cat2_fold` turns the one into the other (by definition), after which the pieces are rewritten like any
    other argument.

  Use: add `nary3_result'` and `cat2_fold` to the `simp (disch := decide) only [after_cons, after_nil, …_result', …_result_ne']`
  pass that computes `StableHlo.after ops V ↑b`, and close against the composed term by `rfl` (`cat2` unfolds).
-/
import Idealize.ShloMosaic.Lib.StableHlo.Run

noncomputable section

namespace Cert.Lib.FoldConcat

open Idealize.ShloMosaic Idealize.ShloMosaic.TcCoe Idealize.ShloMosaic.StableHlo

variable {τ : Topo} {sig : RefSig} {Val : EltTy → Type}

/-- An operation on a literal family of three references: its result with each operand's contents at its own reference. -/
theorem nary3_result' {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

/-- Two pieces laid side by side along an axis, each piece an argument of its own. -/
def cat2 {α : Type} (t : Shape) (a : Fin t.rank) (s1 s2 : Shape) (x1 : s1.Idx → α) (x2 : s2.Idx → α)
    (hc : Shape.Concatenates [s1, s2] t a) : t.Idx → α :=
  concatenate t a [⟨s1, x1⟩, ⟨s2, x2⟩] hc

/-- The library's two-piece concatenation is `cat2` of its pieces. -/
theorem cat2_fold {α : Type} (t : Shape) (a : Fin t.rank) (s1 s2 : Shape) (x1 : s1.Idx → α) (x2 : s2.Idx → α)
    (hc : Shape.Concatenates [s1, s2] t a) : concatenate t a [⟨s1, x1⟩, ⟨s2, x2⟩] hc = cat2 t a s1 s2 x1 x2 hc := rfl

end Cert.Lib.FoldConcat

end
-- ==== Proof.KerPrefix.lean ====
/-
  What the distance region finds in the arrays it reads, and what the marks buffer holds, as functions of the program's
  arguments: the host operations before the region, composed.
-/
import proofs.«154386_j24713241822141_2_alg».proof.Proof.KerTerm
import proofs.«154386_j24713241822141_2_alg».proof.Proof.LibFoldConcat
import proofs.«154386_j24713241822141_2_alg».proof.Proof.Gen.KernelIdeal.Frame
import Idealize.ShloMosaic.Lib.StableHlo.Run

noncomputable section

namespace Cert.KernelIdeal.KerPrefix

open Cert.KernelIdeal Cert.KernelIdeal.Gen Idealize.ShloMosaic Idealize.ShloMosaic.TcCoe Idealize.SL.Sem
open Idealize.ShloMosaic.StableHlo Cert.Lib.FoldConcat

variable {F : FTy → Type} [FloatOps F]
variable (m : (ℓ : Loc nD τ sig) → Buf (Elt F) ℓ)

/-- The host operations before the region, as one list. -/
theorem prefix_eq : (List.flatten [hostOps0, hostOps0_1, hostOps0_2, hostOps0_3, hostOps0_4, hostOps0_5, hostOps0_6] : List (HloOp τ sig (Elt F)))
    = hostOps0 ++ (hostOps0_1 ++ (hostOps0_2 ++ (hostOps0_3 ++ (hostOps0_4 ++ (hostOps0_5 ++ hostOps0_6))))) := by
  simp only [List.flatten_cons, List.flatten_nil, List.append_nil]

/-- The marks buffer holds the marks of the velocity column. -/
theorem V0_v6 (c : Dev nD) :
    (V0 m c (Proc.devRef .tc main_v6) : S2048.Idx → BitVec 1) = KerTerm.maskT (m ((c : Thread nD τ).loc main_arg2)) := by
  dsimp only [Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  simp (disch := decide) only [after_cons, after_nil,
      nullary_result', unary_result', binary_result', ternary_result', quaternary_result', reshape_result',
      nullary_result_ne', unary_result_ne', binary_result_ne', ternary_result_ne', quaternary_result_ne', reshape_result_ne', cat2_fold]
  rfl

set_option maxHeartbeats 4000000 in
/-- Window 0's array: all query points, as floats. -/
theorem V_v37 (c : Dev nD) :
    (V m c main_v37 : S92160x2.Idx → Elt F .f32)
      = KerTerm.nbFlatT (KerTerm.nbLiT (m ((c : Thread nD τ).loc main_arg0))) (KerTerm.nbRaT (m ((c : Thread nD τ).loc main_arg1))) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  simp (disch := decide) only [after_cons, after_nil,
      nullary_result', unary_result', binary_result', ternary_result', quaternary_result', reshape_result',
      nullary_result_ne', unary_result_ne', binary_result_ne', ternary_result_ne', quaternary_result_ne', reshape_result_ne', cat2_fold]
  unfold KerTerm.nbFlatT KerTerm.nbLiT KerTerm.nbRaT KerTerm.remLi KerTerm.remRa cat2
  rfl

/-- Window 1's array: the candidates' coordinates as two rows. -/
theorem V_v22 (c : Dev nD) :
    (V m c main_v22 : S2x2048.Idx → Elt F .f32) = KerTerm.dyRowsT (KerTerm.dyIT (m ((c : Thread nD τ).loc main_arg3))) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  simp (disch := decide) only [after_cons, after_nil,
      nullary_result', unary_result', binary_result', ternary_result', quaternary_result', reshape_result',
      nullary_result_ne', unary_result_ne', binary_result_ne', ternary_result_ne', quaternary_result_ne', reshape_result_ne', cat2_fold]
  rfl

/-- Window 2's array: the candidates' squared norms plus the penalty. -/
theorem V_v19 (c : Dev nD) :
    (V m c main_v19 : S1x2048.Idx → Elt F .f32)
      = KerTerm.biasT (KerTerm.dyIT (m ((c : Thread nD τ).loc main_arg3))) (KerTerm.maskT (m ((c : Thread nD τ).loc main_arg2))) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  simp (disch := decide) only [after_cons, after_nil,
      nullary_result', unary_result', binary_result', ternary_result', quaternary_result', reshape_result',
      nullary_result_ne', unary_result_ne', binary_result_ne', ternary_result_ne', quaternary_result_ne', reshape_result_ne', cat2_fold]
  rfl

end Cert.KernelIdeal.KerPrefix

end
-- ==== Proof.LibRowInDim.lean ====
/-
  The row forms of `broadcast_in_dim`, read at an index given by coordinates: a vector `[b]` laid as the row
  `[1, b]` (its axis sent to axis 1), and a row `[1, b]` repeated down the rows to `[a, b]` (axes sent to
  themselves). This is how a per-column quantity — a bias — is added to every row of a matrix: both read the
  operand at the column coordinate alone. (`b ≠ 1`: on an axis of extent one a broadcast reads coordinate 0
  whatever the index, and the statements would need no hypothesis but another proof.)
-/
import Idealize.ShloMosaic.Lib.Pipeline.Value
import Idealize.ShloMosaic.Lib.ValueIdx

namespace Cert.Lib.RowInDim

open Idealize.ShloMosaic Idealize.ShloMosaic.ValueIdx

variable {α : Type}

/-- A vector `[b]` laid as the row `[1, b]` reads, at `(u, q)`, the vector at `q`. -/
theorem row_apply {b : ℕ} (hb : b ≠ 1) (h : (⟨1, ![b]⟩ : Shape).BroadcastsInDim ⟨2, ![1, b]⟩ ![1])
    (v : (⟨1, ![b]⟩ : Shape).Idx → α) (u : Fin 1) (q : Fin b) :
    broadcastInDim ⟨2, ![1, b]⟩ ![1] h v (ix2 u q) = v (ix1 q) :=
  broadcastInDim_apply _ h v (ix2 u q) (ix1 q) (fun a => match a with
    | ⟨0, _⟩ => by show q.val = if b = 1 then 0 else q.val; rw [if_neg hb])

/-- A row `[1, b]` repeated down the rows to `[a, b]` reads, at `(P, q)`, the row's entry of column `q`. -/
theorem repeat_apply {a b : ℕ} (hb : b ≠ 1) (h : (⟨2, ![1, b]⟩ : Shape).BroadcastsInDim ⟨2, ![a, b]⟩ ![0, 1])
    (v : (⟨2, ![1, b]⟩ : Shape).Idx → α) (P : Fin a) (q : Fin b) :
    broadcastInDim ⟨2, ![a, b]⟩ ![0, 1] h v (ix2 P q) = v (ix2 (0 : Fin 1) q) :=
  broadcastInDim_apply _ h v (ix2 P q) (ix2 (0 : Fin 1) q) (fun ax => match ax with
    | ⟨0, _⟩ => by show 0 = if (1 : ℕ) = 1 then 0 else P.val; rw [if_pos rfl]
    | ⟨1, _⟩ => by show q.val = if b = 1 then 0 else q.val; rw [if_neg hb])

end Cert.Lib.RowInDim
-- ==== Proof.KerRead.lean ====
/-
  The kernel program's host side, read entry by entry.

  Entry (n, s) of the [8192, 9] result is flat position 9n + s of the gated vector; entry (n, s) of the [2048, 9]
  result is flat position 73728 + 9n + s. The gated vector at flat position q is, when the bit is set, the region's
  [720, 128] result at (q / 128, q % 128), whose query row is q again, and the word 0 otherwise. Query row q of the
  [92160, 2] array of query points is row q of the first integer array when q < 73728 and row q − 73728 of the second
  otherwise, read as a signed integer; the two rows of the candidates' array are the two columns of the candidates'
  integer table; the bias row is the candidates' squared norm plus 0 for a marked candidate and the word 1e30 otherwise.
  With these readings the region's value of a query row is the common form's first variant.
-/
import proofs.«154386_j24713241822141_2_alg».proof.Proof.KerTerm
import proofs.«154386_j24713241822141_2_alg».proof.Proof.KerSpec
import proofs.«154386_j24713241822141_2_alg».proof.Proof.Spec
import proofs.«154386_j24713241822141_2_alg».proof.Proof.LibRowInDim
import Idealize.ShloMosaic.Lib.ValueIdx
import Idealize.ShloMosaic.Lib.ValueLayout
import Idealize.ShloMosaic.Lib.Pipeline.Value

noncomputable section

namespace Cert.KernelIdeal.KerRead

open Cert.KernelIdeal Facts₀ Facts Idealize.ShloMosaic Idealize.ShloMosaic.ValueIdx

variable [Cert.KernelIdeal.Facts]

/-! ### The tail: from a result entry to a flat position of the gated vector -/

/-- Entry (n, s) of the [8192, 9] result is flat position 9n + s of the gated vector. -/
theorem tailLi_apply (u : IVec S_ 1) (o : FVec Ideal S720x128 .f32) (n : Fin 8192) (s : Fin 9)
    (q : Fin 92160) (hq : q.val = n.val * 9 + s.val) :
    KerTerm.tailLi (F := Ideal) u o (ix2 n s) = KerTerm.gatedT (F := Ideal) u o (ix1 q) := by
  unfold KerTerm.tailLi
  have hq' : n.val * 9 + s.val < 73728 := by have := n.isLt; have := s.isLt; omega
  refine (shapeCast_apply _ _ (ix2 n s) (ix1 (⟨n.val * 9 + s.val, hq'⟩ : Fin 73728)) ?_).trans ?_
  · rw [Shape.rowMajor_val_two, Shape.rowMajor_val_one]
    rfl
  · refine extractStridedSlice_apply _ _ _ _ (ix1 q) ?_
    intro a
    match a with
    | ⟨0, _⟩ => show q.val = 0 + (n.val * 9 + s.val); omega

/-- Entry (n, s) of the [2048, 9] result is flat position 73728 + 9n + s of the gated vector. -/
theorem tailRa_apply (u : IVec S_ 1) (o : FVec Ideal S720x128 .f32) (n : Fin 2048) (s : Fin 9)
    (q : Fin 92160) (hq : q.val = 73728 + (n.val * 9 + s.val)) :
    KerTerm.tailRa (F := Ideal) u o (ix2 n s) = KerTerm.gatedT (F := Ideal) u o (ix1 q) := by
  unfold KerTerm.tailRa
  have hq' : n.val * 9 + s.val < 18432 := by have := n.isLt; have := s.isLt; omega
  refine (shapeCast_apply _ _ (ix2 n s) (ix1 (⟨n.val * 9 + s.val, hq'⟩ : Fin 18432)) ?_).trans ?_
  · rw [Shape.rowMajor_val_two, Shape.rowMajor_val_one]
    rfl
  · refine extractStridedSlice_apply _ _ _ _ (ix1 q) ?_
    intro a
    match a with
    | ⟨0, _⟩ => show q.val = 73728 + (n.val * 9 + s.val); omega

/-! ### The gated vector at a flat position -/

theorem select_apply {s : Shape} {α : Type} (c : IVec s 1) (a b : s.Idx → α) (i : s.Idx) :
    select c a b i = Scalar.select (c i) (a i) (b i) := rfl

/-- The gated vector at flat position q = 128 R + l: the region's result at (R, l) when the bit is set, the word 0
    otherwise. -/
theorem gatedT_apply (u : IVec S_ 1) (o : FVec Ideal S720x128 .f32) (q : Fin 92160) (R : Fin 720) (l : Fin 128)
    (hq : q.val = R.val * 128 + l.val) :
    KerTerm.gatedT (F := Ideal) u o (ix1 q)
      = Scalar.select (u ix0) (o (ix2 R l)) (Ideal.ofBits .f32 0x00000000#32) := by
  unfold KerTerm.gatedT
  refine (select_apply _ _ _ _).trans ?_
  have e1 : broadcastInDim S92160 ![] bcast_S_S92160 u (ix1 q) = u ix0 :=
    broadcastInDim_apply _ _ u (ix1 q) ix0 (fun a => a.elim0)
  have e2 : shapeCast S92160 o shapeCasts_S720x128_S92160 (ix1 q) = o (ix2 R l) :=
    shapeCast_apply o _ (ix1 q) (ix2 R l) (by
      rw [Shape.rowMajor_val_two, Shape.rowMajor_val_one]
      show R.val * 128 + l.val = q.val
      omega)
  have e3 : broadcastInDim S92160 ![] bcast_S_S92160 (id (constant (F := Ideal) S_ .f32 0x00000000#32)) (ix1 q)
      = Ideal.ofBits .f32 0x00000000#32 :=
    broadcastInDim_apply _ _ _ (ix1 q) ix0 (fun a => a.elim0)
  rw [e1, e2, e3]

/-! ### The three arrays the region reads -/

/-- A query row below 73728 is that row of the first integer array, read as a signed integer. -/
theorem nbFlat_left (A : IVec S73728x2 32) (A' : IVec S18432x2 32) (q : Fin 92160) (k : Fin 2) (hq : q.val < 73728) :
    KerTerm.nbFlatT (F := Ideal) A A' (ix2 q k) = Cert.MinDist.ofI (A (ix2 (⟨q.val, hq⟩ : Fin 73728) k)) := by
  unfold KerTerm.nbFlatT
  refine (concatenate_pair_apply_left (s₁ := S73728x2) (s₂ := S18432x2) (0 : Fin 2) _ _ _ (ix2 q k) rfl (ix2 (⟨q.val, hq⟩ : Fin 73728) k)
    (fun b => match b with | ⟨0, _⟩ => rfl | ⟨1, _⟩ => rfl)).trans ?_
  rfl

/-- A query row from 73728 on is row q − 73728 of the second integer array, read as a signed integer. -/
theorem nbFlat_right (A : IVec S73728x2 32) (A' : IVec S18432x2 32) (q : Fin 92160) (k : Fin 2) (r : Fin 18432)
    (hq : r.val + 73728 = q.val) :
    KerTerm.nbFlatT (F := Ideal) A A' (ix2 q k) = Cert.MinDist.ofI (A' (ix2 r k)) := by
  unfold KerTerm.nbFlatT
  refine (concatenate_pair_apply_right (s₁ := S73728x2) (s₂ := S18432x2) (0 : Fin 2) _ _ _ (ix2 q k) rfl rfl (ix2 r k) ?_ ?_).trans ?_
  · intro b hb
    match b, hb with
    | ⟨0, _⟩, hb => exact absurd rfl hb
    | ⟨1, _⟩, _ => rfl
  · exact hq
  · rfl

/-- The candidates' first coordinates as floats: column 0 of the integer table, read as signed integers. -/
theorem qxT_apply (B : IVec S2048x2 32) (j : Fin 2048) :
    KerTerm.qxT (F := Ideal) B (ix1 j) = Cert.MinDist.ofI (B (ix2 j (0 : Fin 2))) := by
  unfold KerTerm.qxT
  refine (shapeCast_apply _ _ (ix1 j) (ix2 j (0 : Fin 1)) ?_).trans ?_
  · rw [Shape.rowMajor_val_two, Shape.rowMajor_val_one]
    show j.val * 1 + 0 = j.val
    omega
  · exact (slice2_axis1_apply 0 _ _ j (0 : Fin 1) (0 : Fin 2) rfl).trans rfl

/-- The candidates' second coordinates as floats: column 1 of the integer table. -/
theorem qyT_apply (B : IVec S2048x2 32) (j : Fin 2048) :
    KerTerm.qyT (F := Ideal) B (ix1 j) = Cert.MinDist.ofI (B (ix2 j (1 : Fin 2))) := by
  unfold KerTerm.qyT
  refine (shapeCast_apply _ _ (ix1 j) (ix2 j (0 : Fin 1)) ?_).trans ?_
  · rw [Shape.rowMajor_val_two, Shape.rowMajor_val_one]
    show j.val * 1 + 0 = j.val
    omega
  · exact (slice2_axis1_apply 1 _ _ j (0 : Fin 1) (1 : Fin 2) rfl).trans rfl

/-- Row 0 of the candidates' array is the first coordinates. -/
theorem dyRows_zero (B : IVec S2048x2 32) (j : Fin 2048) :
    KerTerm.dyRowsT (F := Ideal) B (ix2 (0 : Fin 2) j) = Cert.MinDist.ofI (B (ix2 j (0 : Fin 2))) := by
  unfold KerTerm.dyRowsT
  refine (concatenate_pair_apply_left (s₁ := S1x2048) (s₂ := S1x2048) (0 : Fin 2) _ _ _ (ix2 (0 : Fin 2) j) rfl (ix2 (0 : Fin 1) j)
    (fun b => match b with | ⟨0, _⟩ => rfl | ⟨1, _⟩ => rfl)).trans ?_
  refine (Cert.Lib.RowInDim.row_apply (by decide) _ _ _ _).trans ?_
  exact qxT_apply B j

/-- Row 1 of the candidates' array is the second coordinates. -/
theorem dyRows_one (B : IVec S2048x2 32) (j : Fin 2048) :
    KerTerm.dyRowsT (F := Ideal) B (ix2 (1 : Fin 2) j) = Cert.MinDist.ofI (B (ix2 j (1 : Fin 2))) := by
  unfold KerTerm.dyRowsT
  refine (concatenate_pair_apply_right (s₁ := S1x2048) (s₂ := S1x2048) (0 : Fin 2) _ _ _ (ix2 (1 : Fin 2) j) rfl rfl (ix2 (0 : Fin 1) j) ?_ ?_).trans ?_
  · intro b hb
    match b, hb with
    | ⟨0, _⟩, hb => exact absurd rfl hb
    | ⟨1, _⟩, _ => rfl
  · rfl
  · refine (Cert.Lib.RowInDim.row_apply (by decide) _ _ _ _).trans ?_
    exact qyT_apply B j

/-- The bias row: the candidate's squared norm plus 0 for a marked candidate and the word 1e30 otherwise. -/
theorem biasT_apply (B : IVec S2048x2 32) (M : IVec S2048 1) (j : Fin 2048) :
    KerTerm.biasT (F := Ideal) B M (ix2 (0 : Fin 1) j)
      = (Cert.MinDist.ofI (B (ix2 j (0 : Fin 2))) * Cert.MinDist.ofI (B (ix2 j (0 : Fin 2)))
          + Cert.MinDist.ofI (B (ix2 j (1 : Fin 2))) * Cert.MinDist.ofI (B (ix2 j (1 : Fin 2))))
        + Scalar.select (M (ix1 j)) (Ideal.ofBits .f32 0x00000000#32) (Ideal.ofBits .f32 0x7149F2CA#32) := by
  unfold KerTerm.biasT
  refine (shapeCast_a_1a_apply _ _ (0 : Fin 1) j).trans ?_
  show (KerTerm.qxT (F := Ideal) B (ix1 j) * KerTerm.qxT (F := Ideal) B (ix1 j)
      + KerTerm.qyT (F := Ideal) B (ix1 j) * KerTerm.qyT (F := Ideal) B (ix1 j))
    + Scalar.select (M (ix1 j)) (Ideal.ofBits .f32 0x00000000#32) (Ideal.ofBits .f32 0x7149F2CA#32) = _
  rw [qxT_apply, qyT_apply]

/-! ### The region's value of a query row is the common form's -/

theorem GK_apply (X0 : S92160x2.Idx → EReal) (X1 : S2x2048.Idx → EReal) (X2 : S1x2048.Idx → EReal) (i : S720x128.Idx) :
    KerSpec.GK X0 X1 X2 i
      = KerSpec.rowOf (X0 (ix2 (KerSpec.rowIdx i) (0 : Fin 2))) (X0 (ix2 (KerSpec.rowIdx i) (1 : Fin 2)))
          (fun j => X1 (ix2 (0 : Fin 2) j)) (fun j => X1 (ix2 (1 : Fin 2) j)) (fun j => X2 (ix2 (0 : Fin 1) j)) := rfl

/-- With the penalised squared norm as the bias, a query point's value is the first form's least entry, finished. -/
theorem rowOf_eq (ax ay : BitVec 32) (qx qy : Fin 2048 → BitVec 32) (msk : Fin 2048 → BitVec 1) :
    KerSpec.rowOf (Cert.MinDist.ofI ax) (Cert.MinDist.ofI ay) (fun j => Cert.MinDist.ofI (qx j))
        (fun j => Cert.MinDist.ofI (qy j))
        (fun j => (Cert.MinDist.ofI (qx j) * Cert.MinDist.ofI (qx j) + Cert.MinDist.ofI (qy j) * Cert.MinDist.ofI (qy j))
          + Scalar.select (msk j) (Ideal.ofBits .f32 0x00000000#32) (Ideal.ofBits .f32 0x7149F2CA#32))
      = Cert.MinDist.finish (Cert.MinDist.rowK (Cert.MinDist.ofI ax) (Cert.MinDist.ofI ay)
          (fun j => Cert.MinDist.ofI (qx j)) (fun j => Cert.MinDist.ofI (qy j)) msk) := rfl

/-- The region's result at an entry whose query row reads the integer point (ax, ay). -/
theorem GK_read (A : IVec S73728x2 32) (A' : IVec S18432x2 32) (B : IVec S2048x2 32) (M : IVec S2048 1)
    (i : S720x128.Idx) (ax ay : BitVec 32)
    (h0 : KerTerm.nbFlatT (F := Ideal) A A' (ix2 (KerSpec.rowIdx i) (0 : Fin 2)) = Cert.MinDist.ofI ax)
    (h1 : KerTerm.nbFlatT (F := Ideal) A A' (ix2 (KerSpec.rowIdx i) (1 : Fin 2)) = Cert.MinDist.ofI ay) :
    KerSpec.GK (KerTerm.nbFlatT (F := Ideal) A A') (KerTerm.dyRowsT (F := Ideal) B) (KerTerm.biasT (F := Ideal) B M) i
      = Cert.MinDist.finish (Cert.MinDist.rowK (Cert.MinDist.ofI ax) (Cert.MinDist.ofI ay)
          (fun j => Cert.MinDist.ofI (B (ix2 j (0 : Fin 2)))) (fun j => Cert.MinDist.ofI (B (ix2 j (1 : Fin 2))))
          (fun j => M (ix1 j))) := by
  rw [GK_apply, h0, h1, funext (dyRows_zero B), funext (dyRows_one B), funext (biasT_apply B M)]
  exact rowOf_eq ax ay _ _ _

/-! ### The two results -/

theorem useT_eq (M : IVec S2048 1) : KerTerm.useT M ix0 = Cert.MinDist.useBit M := rfl

theorem tailLi_eq (A : IVec S73728x2 32) (A' : IVec S18432x2 32) (B : IVec S2048x2 32) (M : IVec S2048 1) :
    KerTerm.tailLi (F := Ideal) (KerTerm.useT M)
        (KerSpec.GK (KerTerm.nbFlatT (F := Ideal) A A') (KerTerm.dyRowsT (F := Ideal) B) (KerTerm.biasT (F := Ideal) B M))
      = Cert.MinDist.outLiK (Cert.MinDist.useBit M) A B M := by
  funext i
  obtain ⟨n, s, rfl⟩ : ∃ (n : Fin 8192) (s : Fin 9), i = ix2 n s := ⟨i 0, i 1, eq_ix2 i⟩
  have hn := n.isLt
  have hs := s.isLt
  have hq : n.val * 9 + s.val < 92160 := by omega
  have hR : (n.val * 9 + s.val) / 128 < 720 := by omega
  have hl : (n.val * 9 + s.val) % 128 < 128 := by omega
  refine (tailLi_apply _ _ n s (⟨n.val * 9 + s.val, hq⟩ : Fin 92160) rfl).trans ?_
  refine (gatedT_apply _ _ _ (⟨(n.val * 9 + s.val) / 128, hR⟩ : Fin 720) (⟨(n.val * 9 + s.val) % 128, hl⟩ : Fin 128)
    (by show n.val * 9 + s.val = (n.val * 9 + s.val) / 128 * 128 + (n.val * 9 + s.val) % 128; omega)).trans ?_
  have hrow : (KerSpec.rowIdx (ix2 (⟨(n.val * 9 + s.val) / 128, hR⟩ : Fin 720) (⟨(n.val * 9 + s.val) % 128, hl⟩ : Fin 128))).val
      = n.val * 9 + s.val := by
    show (n.val * 9 + s.val) / 128 * 128 + (n.val * 9 + s.val) % 128 = n.val * 9 + s.val
    omega
  have hlt : (KerSpec.rowIdx (ix2 (⟨(n.val * 9 + s.val) / 128, hR⟩ : Fin 720) (⟨(n.val * 9 + s.val) % 128, hl⟩ : Fin 128))).val
      < 73728 := by rw [hrow]; omega
  have hrowLi : (⟨_, hlt⟩ : Fin 73728) = Cert.MinDist.rowLi (ix2 n s) := Fin.ext hrow
  rw [useT_eq, GK_read A A' B M _ (A (ix2 (Cert.MinDist.rowLi (ix2 n s)) (0 : Fin 2)))
    (A (ix2 (Cert.MinDist.rowLi (ix2 n s)) (1 : Fin 2)))
    ((nbFlat_left A A' _ _ hlt).trans (by rw [hrowLi])) ((nbFlat_left A A' _ _ hlt).trans (by rw [hrowLi]))]
  rfl

theorem tailRa_eq (A : IVec S73728x2 32) (A' : IVec S18432x2 32) (B : IVec S2048x2 32) (M : IVec S2048 1) :
    KerTerm.tailRa (F := Ideal) (KerTerm.useT M)
        (KerSpec.GK (KerTerm.nbFlatT (F := Ideal) A A') (KerTerm.dyRowsT (F := Ideal) B) (KerTerm.biasT (F := Ideal) B M))
      = Cert.MinDist.outRaK (Cert.MinDist.useBit M) A' B M := by
  funext i
  obtain ⟨n, s, rfl⟩ : ∃ (n : Fin 2048) (s : Fin 9), i = ix2 n s := ⟨i 0, i 1, eq_ix2 i⟩
  have hn := n.isLt
  have hs := s.isLt
  have hq : 73728 + (n.val * 9 + s.val) < 92160 := by omega
  have hR : (73728 + (n.val * 9 + s.val)) / 128 < 720 := by omega
  have hl : (73728 + (n.val * 9 + s.val)) % 128 < 128 := by omega
  refine (tailRa_apply _ _ n s (⟨73728 + (n.val * 9 + s.val), hq⟩ : Fin 92160) rfl).trans ?_
  refine (gatedT_apply _ _ _ (⟨(73728 + (n.val * 9 + s.val)) / 128, hR⟩ : Fin 720)
    (⟨(73728 + (n.val * 9 + s.val)) % 128, hl⟩ : Fin 128)
    (by show 73728 + (n.val * 9 + s.val)
          = (73728 + (n.val * 9 + s.val)) / 128 * 128 + (73728 + (n.val * 9 + s.val)) % 128; omega)).trans ?_
  have hrow : (Cert.MinDist.rowRa (ix2 n s)).val + 73728
      = (KerSpec.rowIdx (ix2 (⟨(73728 + (n.val * 9 + s.val)) / 128, hR⟩ : Fin 720)
          (⟨(73728 + (n.val * 9 + s.val)) % 128, hl⟩ : Fin 128))).val := by
    show n.val * 9 + s.val + 73728
      = (73728 + (n.val * 9 + s.val)) / 128 * 128 + (73728 + (n.val * 9 + s.val)) % 128
    omega
  rw [useT_eq, GK_read A A' B M _ (A' (ix2 (Cert.MinDist.rowRa (ix2 n s)) (0 : Fin 2)))
    (A' (ix2 (Cert.MinDist.rowRa (ix2 n s)) (1 : Fin 2)))
    (nbFlat_right A A' _ _ (Cert.MinDist.rowRa (ix2 n s)) hrow) (nbFlat_right A A' _ _ (Cert.MinDist.rowRa (ix2 n s)) hrow)]
  rfl

end Cert.KernelIdeal.KerRead

end
-- ==== Proof.KerRun.lean ====
/-
  The kernel program's run, read: every weakly fair execution ends with the two result arrays at the first form of the
  common result (Spec) of the query points, the candidates' integer coordinates and the marks, and the arguments
  unchanged. The region's result array is the whole-array function of the three arrays the region reads (its 90 blocks
  are that function's blocks and cover the array); the host operations after the region guard, cut and re-lay it; the
  arrays the region reads are the host operations before the region, composed.
-/
import proofs.«154386_j24713241822141_2_alg».proof.Proof.KerValue
import proofs.«154386_j24713241822141_2_alg».proof.Proof.KerCover
import proofs.«154386_j24713241822141_2_alg».proof.Proof.KerTail
import proofs.«154386_j24713241822141_2_alg».proof.Proof.KerPrefix
import proofs.«154386_j24713241822141_2_alg».proof.Proof.KerRead

noncomputable section

namespace Cert.KernelIdeal.KerRun

open Cert.KernelIdeal Cert.KernelIdeal.Gen Cert.KernelIdeal.KerSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The region's result array after the run: the whole-array function of the arrays the region reads. -/
theorem final (c : Dev nD) :
    (dats m 0 c).arrAt 3 cfg0.N = GK (V m c main_v37) (V m c main_v22) (V m c main_v19) :=
  (dats m 0 c).arrAt_eq_of_cover 3 _ (fun t _ => KerValue.flushed_eq m c t) KerCover.cover

/-- The first result, as the host operations after the region leave it. -/
theorem out_v46 (c : Dev nD) :
    Pipeline.afterTail₀ cfgs (dats m) 0 (V0 m) [hostOps1, hostOps1_1, hostOps1_2] c main_v46
      = Cert.MinDist.outLiK (Cert.MinDist.useBit (KerTerm.maskT (F := Ideal) (m ((c : Thread nD τ).loc main_arg2))))
          (KerTerm.nbLiT (m ((c : Thread nD τ).loc main_arg0))) (KerTerm.dyIT (m ((c : Thread nD τ).loc main_arg3)))
          (KerTerm.maskT (F := Ideal) (m ((c : Thread nD τ).loc main_arg2))) := by
  rw [KerTail.tail_v46 m c _ (final m c), KerPrefix.V0_v6, KerPrefix.V_v37, KerPrefix.V_v22, KerPrefix.V_v19]
  exact KerRead.tailLi_eq _ _ _ _

/-- The second result, as the host operations after the region leave it. -/
theorem out_v47 (c : Dev nD) :
    Pipeline.afterTail₀ cfgs (dats m) 0 (V0 m) [hostOps1, hostOps1_1, hostOps1_2] c main_v47
      = Cert.MinDist.outRaK (Cert.MinDist.useBit (KerTerm.maskT (F := Ideal) (m ((c : Thread nD τ).loc main_arg2))))
          (KerTerm.nbRaT (m ((c : Thread nD τ).loc main_arg1))) (KerTerm.dyIT (m ((c : Thread nD τ).loc main_arg3)))
          (KerTerm.maskT (F := Ideal) (m ((c : Thread nD τ).loc main_arg2))) := by
  rw [KerTail.tail_v47 m c _ (final m c), KerPrefix.V0_v6, KerPrefix.V_v37, KerPrefix.V_v22, KerPrefix.V_v19]
  exact KerRead.tailRa_eq _ _ _ _

/-- The run, read. -/
theorem run : θ_run defs (onTc (τ := τ) (main (F := Ideal))) ⟨m, fun _ => 0, ρ⟩ fun r => ∀ c : Dev nD,
      r.2.mem ((c.tc : Thread nD τ).loc main_v46)
        = Cert.MinDist.outLiK (Cert.MinDist.useBit (KerTerm.maskT (F := Ideal) (m ((c : Thread nD τ).loc main_arg2))))
            (KerTerm.nbLiT (m ((c : Thread nD τ).loc main_arg0))) (KerTerm.dyIT (m ((c : Thread nD τ).loc main_arg3)))
            (KerTerm.maskT (F := Ideal) (m ((c : Thread nD τ).loc main_arg2)))
      ∧ r.2.mem ((c.tc : Thread nD τ).loc main_v47)
        = Cert.MinDist.outRaK (Cert.MinDist.useBit (KerTerm.maskT (F := Ideal) (m ((c : Thread nD τ).loc main_arg2))))
            (KerTerm.nbRaT (m ((c : Thread nD τ).loc main_arg1))) (KerTerm.dyIT (m ((c : Thread nD τ).loc main_arg3)))
            (KerTerm.maskT (F := Ideal) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v46 (Pipeline.mem_restRefs_of main_v46 (by decide) (by decide))).trans (out_v46 m c),
     ((h c).2 main_v47 (Pipeline.mem_restRefs_of main_v47 (by decide) (by decide))).trans (out_v47 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KerRun

end
-- ==== Proof.RefTerm.lean ====
/-
  The reference program's two results as composed terms of its argument arrays, stage by stage: the marks of the
  candidates (|velocity| > 0.1), the candidates' integer coordinates, the query points (each input point shifted by the
  nine offsets and wrapped modulo 513), the test "more than one candidate is marked", and per query point the least
  squared distance over the marked candidates, its square root, scaled by 0.01.
-/
import proofs.«154386_j24713241822141_2_alg».proof.ReferenceIdeal

noncomputable section

namespace Cert.ReferenceIdeal.RefTerm

open Cert.ReferenceIdeal Idealize.ShloMosaic
open Facts₀ Facts

variable {F : FTy → Type} [FloatOps F] [Facts]

/-- The marks: candidate j is marked when |column 4 of its row| exceeds the word 0.1. -/
def maskT (a2 : FVec F S2048x5 .f32) : IVec S2048 1 :=
  cmpf .ogt (Host.absf (shapeCast S2048 (extractStridedSlice S2048x1 ![0, 4] a2 slices_S2048x5_S2048x1_0_4) shapeCasts_S2048x1_S2048))
    (broadcastInDim S2048 ![] bcast_S_S2048 (constant S_ .f32 0x3DCCCCCD#32))

/-- The candidates' integer coordinates: columns 1 and 2 of the voxel table. -/
def dyIT (a3 : IVec S2048x3 32) : IVec S2048x2 32 := extractStridedSlice S2048x2 ![0, 1] a3 slices_S2048x3_S2048x2_0_1

/-- "More than one candidate is marked": the marks widened to words, summed from 0, compared (signed) with 1. -/
def useT (M : IVec S2048 1) : IVec S_ 1 :=
  cmpi .sgt (Host.reduce IntOp.addi (extui 32 M natLt_1_32) (constantI S_ 32 0#32) reducesTo_S2048_S_d0 h_S_) (constantI S_ 32 1#32)

/-- Floor-modulo by 513 on the shifted 8192×9×2 integer coordinates: the truncating remainder, corrected by the divisor where
    its sign differs from the divisor's. -/
def remLi (x : IVec S8192x9x2 32) : IVec S8192x9x2 32 :=
  let d0 : IVec S1x1x2 32 := broadcastInDim S1x1x2 ![2] bcast_S2_S1x1x2_2 (constantI S2 32 513#32)
  let d : IVec S1x1x2 32 := select (cmpi .eq d0 (broadcastInDim S1x1x2 ![] bcast_S_S1x1x2 (constantI S_ 32 0#32)))
    (broadcastInDim S1x1x2 ![] bcast_S_S1x1x2 (constantI S_ 32 1#32)) d0
  let r : IVec S8192x9x2 32 := Host.remsi x (broadcastInDim S8192x9x2 ![0, 1, 2] bcast_S1x1x2_S8192x9x2_0_1_2 d)
  select (andi (cmpi .ne (cmpi .slt r (broadcastInDim S8192x9x2 ![] bcast_S_S8192x9x2 (constantI S_ 32 0#32)))
        (broadcastInDim S8192x9x2 ![0, 1, 2] bcast_S1x1x2_S8192x9x2_0_1_2
          (cmpi .slt d (broadcastInDim S1x1x2 ![] bcast_S_S1x1x2 (constantI S_ 32 0#32)))))
      (cmpi .ne r (broadcastInDim S8192x9x2 ![] bcast_S_S8192x9x2 (constantI S_ 32 0#32))))
    (addi r (broadcastInDim S8192x9x2 ![0, 1, 2] bcast_S1x1x2_S8192x9x2_0_1_2 d)) r

/-- The 73728 query points: each of the 8192 input points shifted by the nine offsets, wrapped modulo 513, laid out as rows. -/
def nbLiT (a : IVec S8192x2 32) : IVec S73728x2 32 :=
  shapeCast S73728x2 (remLi (addi
    (broadcastInDim S8192x9x2 ![0, 1, 2] bcast_S8192x1x2_S8192x9x2_0_1_2 (broadcastInDim S8192x1x2 ![0, 2] bcast_S8192x2_S8192x1x2_0_2 a))
    (broadcastInDim S8192x9x2 ![0, 1, 2] bcast_S1x9x2_S8192x9x2_0_1_2
      (broadcastInDim S1x9x2 ![1, 2] bcast_S9x2_S1x9x2_1_2 (fun i => lit0 (S9x2.rowMajor i)))))) shapeCasts_S8192x9x2_S73728x2

/-- Per query point: the least masked squared distance to the candidates, its positive part's square root, scaled. -/
def distLi (A : IVec S73728x2 32) (B : IVec S2048x2 32) (M : IVec S2048 1) : FVec F S73728 .f32 :=
  let a : FVec F S73728x2 .f32 := sitofp .f32 A
  let b : FVec F S2048x2 .f32 := sitofp .f32 B
  let a2 : FVec F S73728 .f32 := Host.reduceAdd (mulf a a) (constant S_ .f32 0x00000000#32) reducesTo_S73728x2_S73728_d1 h_S_
  let b2 : FVec F S2048 .f32 := Host.reduceAdd (mulf b b) (constant S_ .f32 0x00000000#32) reducesTo_S2048x2_S2048_d1 h_S_
  let s : FVec F S73728x2048 .f32 := addf
    (broadcastInDim S73728x2048 ![0, 1] bcast_S73728x1_S73728x2048_0_1 (broadcastInDim S73728x1 ![0] bcast_S73728_S73728x1_0 a2))
    (broadcastInDim S73728x2048 ![0, 1] bcast_S1x2048_S73728x2048_0_1 (broadcastInDim S1x2048 ![1] bcast_S2048_S1x2048_1 b2))
  let dot : FVec F S73728x2048 .f32 := Host.dotGeneral dot_S73728x2_S2x2048_S73728x2048_1_0_0_1_n_n none a
    (transpose S2x2048 [1, 0] b transposes_S2048x2_S2x2048_1_0)
  let d2 : FVec F S73728x2048 .f32 := subf s (mulf (broadcastInDim S73728x2048 ![] bcast_S_S73728x2048 (constant S_ .f32 0x40000000#32)) dot)
  let w : FVec F S73728x2048 .f32 := select
    (broadcastInDim S73728x2048 ![0, 1] bcast_S1x2048_S73728x2048_0_1 (broadcastInDim S1x2048 ![1] bcast_S2048_S1x2048_1 M))
    d2 (broadcastInDim S73728x2048 ![] bcast_S_S73728x2048 (id (constant S_ .f32 0x7F800000#32)))
  let mn : FVec F S73728 .f32 := Host.reduce FloatOps.minimumf w (constant S_ .f32 0x7F800000#32) reducesTo_S73728x2048_S73728_d1 h_S_
  mulf (Host.sqrt (maximumf mn (broadcastInDim S73728 ![] bcast_S_S73728 (constant S_ .f32 0x00000000#32))))
    (broadcastInDim S73728 ![] bcast_S_S73728 (constant S_ .f32 0x3C23D70A#32))

/-- The [8192, 9] result: the distances laid out per input point, kept when more than one candidate is marked, 0 otherwise. -/
def refLi (a : IVec S8192x2 32) (a2 : FVec F S2048x5 .f32) (a3 : IVec S2048x3 32) : FVec F S8192x9 .f32 :=
  select (broadcastInDim S8192x9 ![] bcast_S_S8192x9 (useT (maskT a2)))
    (shapeCast S8192x9 (distLi (nbLiT a) (dyIT a3) (maskT a2)) shapeCasts_S73728_S8192x9)
    (broadcastInDim S8192x9 ![] bcast_S_S8192x9 (id (constant S_ .f32 0x00000000#32)))

/-- Floor-modulo by 513 on the shifted 2048×9×2 integer coordinates: the truncating remainder, corrected by the divisor where
    its sign differs from the divisor's. -/
def remRa (x : IVec S2048x9x2 32) : IVec S2048x9x2 32 :=
  let d0 : IVec S1x1x2 32 := broadcastInDim S1x1x2 ![2] bcast_S2_S1x1x2_2 (constantI S2 32 513#32)
  let d : IVec S1x1x2 32 := select (cmpi .eq d0 (broadcastInDim S1x1x2 ![] bcast_S_S1x1x2 (constantI S_ 32 0#32)))
    (broadcastInDim S1x1x2 ![] bcast_S_S1x1x2 (constantI S_ 32 1#32)) d0
  let r : IVec S2048x9x2 32 := Host.remsi x (broadcastInDim S2048x9x2 ![0, 1, 2] bcast_S1x1x2_S2048x9x2_0_1_2 d)
  select (andi (cmpi .ne (cmpi .slt r (broadcastInDim S2048x9x2 ![] bcast_S_S2048x9x2 (constantI S_ 32 0#32)))
        (broadcastInDim S2048x9x2 ![0, 1, 2] bcast_S1x1x2_S2048x9x2_0_1_2
          (cmpi .slt d (broadcastInDim S1x1x2 ![] bcast_S_S1x1x2 (constantI S_ 32 0#32)))))
      (cmpi .ne r (broadcastInDim S2048x9x2 ![] bcast_S_S2048x9x2 (constantI S_ 32 0#32))))
    (addi r (broadcastInDim S2048x9x2 ![0, 1, 2] bcast_S1x1x2_S2048x9x2_0_1_2 d)) r

/-- The 18432 query points: each of the 2048 input points shifted by the nine offsets, wrapped modulo 513, laid out as rows. -/
def nbRaT (a : IVec S2048x2 32) : IVec S18432x2 32 :=
  shapeCast S18432x2 (remRa (addi
    (broadcastInDim S2048x9x2 ![0, 1, 2] bcast_S2048x1x2_S2048x9x2_0_1_2 (broadcastInDim S2048x1x2 ![0, 2] bcast_S2048x2_S2048x1x2_0_2 a))
    (broadcastInDim S2048x9x2 ![0, 1, 2] bcast_S1x9x2_S2048x9x2_0_1_2
      (broadcastInDim S1x9x2 ![1, 2] bcast_S9x2_S1x9x2_1_2 (fun i => lit0 (S9x2.rowMajor i)))))) shapeCasts_S2048x9x2_S18432x2

/-- Per query point: the least masked squared distance to the candidates, its positive part's square root, scaled. -/
def distRa (A : IVec S18432x2 32) (B : IVec S2048x2 32) (M : IVec S2048 1) : FVec F S18432 .f32 :=
  let a : FVec F S18432x2 .f32 := sitofp .f32 A
  let b : FVec F S2048x2 .f32 := sitofp .f32 B
  let a2 : FVec F S18432 .f32 := Host.reduceAdd (mulf a a) (constant S_ .f32 0x00000000#32) reducesTo_S18432x2_S18432_d1 h_S_
  let b2 : FVec F S2048 .f32 := Host.reduceAdd (mulf b b) (constant S_ .f32 0x00000000#32) reducesTo_S2048x2_S2048_d1 h_S_
  let s : FVec F S18432x2048 .f32 := addf
    (broadcastInDim S18432x2048 ![0, 1] bcast_S18432x1_S18432x2048_0_1 (broadcastInDim S18432x1 ![0] bcast_S18432_S18432x1_0 a2))
    (broadcastInDim S18432x2048 ![0, 1] bcast_S1x2048_S18432x2048_0_1 (broadcastInDim S1x2048 ![1] bcast_S2048_S1x2048_1 b2))
  let dot : FVec F S18432x2048 .f32 := Host.dotGeneral dot_S18432x2_S2x2048_S18432x2048_1_0_0_1_n_n none a
    (transpose S2x2048 [1, 0] b transposes_S2048x2_S2x2048_1_0)
  let d2 : FVec F S18432x2048 .f32 := subf s (mulf (broadcastInDim S18432x2048 ![] bcast_S_S18432x2048 (constant S_ .f32 0x40000000#32)) dot)
  let w : FVec F S18432x2048 .f32 := select
    (broadcastInDim S18432x2048 ![0, 1] bcast_S1x2048_S18432x2048_0_1 (broadcastInDim S1x2048 ![1] bcast_S2048_S1x2048_1 M))
    d2 (broadcastInDim S18432x2048 ![] bcast_S_S18432x2048 (id (constant S_ .f32 0x7F800000#32)))
  let mn : FVec F S18432 .f32 := Host.reduce FloatOps.minimumf w (constant S_ .f32 0x7F800000#32) reducesTo_S18432x2048_S18432_d1 h_S_
  mulf (Host.sqrt (maximumf mn (broadcastInDim S18432 ![] bcast_S_S18432 (constant S_ .f32 0x00000000#32))))
    (broadcastInDim S18432 ![] bcast_S_S18432 (constant S_ .f32 0x3C23D70A#32))

/-- The [2048, 9] result: the distances laid out per input point, kept when more than one candidate is marked, 0 otherwise. -/
def refRa (a : IVec S2048x2 32) (a2 : FVec F S2048x5 .f32) (a3 : IVec S2048x3 32) : FVec F S2048x9 .f32 :=
  select (broadcastInDim S2048x9 ![] bcast_S_S2048x9 (useT (maskT a2)))
    (shapeCast S2048x9 (distRa (nbRaT a) (dyIT a3) (maskT a2)) shapeCasts_S18432_S2048x9)
    (broadcastInDim S2048x9 ![] bcast_S_S2048x9 (id (constant S_ .f32 0x00000000#32)))

end Cert.ReferenceIdeal.RefTerm

end
-- ==== Proof.RefOps.lean ====
/-
  The reference program as a straight line. Its @main runs two windows of host operations in order; with the outlined
  functions (the two floor-modulo helpers, each calling a select helper, and the four select helpers) unfolded at their
  call sites over the calls' buffer records, each window is a literal list of operations (ops0, ops1) and @main is
  their concatenation run as one line. Hence every weakly fair execution terminates with each buffer at the fold of
  the operations' results over the launch contents (run_main).
-/
import proofs.«154386_j24713241822141_2_alg».proof.Proof.RefTerm
import proofs.«154386_j24713241822141_2_alg».proof.Proof.Gen.ReferenceIdeal
import Idealize.ShloMosaic.Lib.StableHlo.Run

noncomputable section

namespace Cert.ReferenceIdeal.RefRun

open Cert.ReferenceIdeal Facts₀ Facts Idealize.ShloMosaic Idealize.ShloMosaic.TcCoe Idealize.SL.Sem Idealize.ShloMosaic.StableHlo

variable {F : FTy → Type} [FloatOps F] [Facts]

/-- The first window's operations, in order, the outlined functions' bodies written at their call sites. -/
abbrev ops0 : List (HloOp τ sig (Elt F)) :=
  [ StableHlo.nullary main_c (fun i => lit0 (S9x2.rowMajor i)),
    StableHlo.nullary main_c_0 (constantI S2 32 513#32),
    StableHlo.unary main_arg2 main_v0 ((extractStridedSlice S2048x1 ![0, 4] · slices_S2048x5_S2048x1_0_4) : (⟨S2048x5, .f32⟩ : BufTy).Contents (Elt F) → (⟨S2048x1, .f32⟩ : BufTy).Contents (Elt F)),
    StableHlo.reshape main_v0 main_v1 rfl shapeCasts_S2048x1_S2048,
    StableHlo.unary main_v1 main_v2 (Host.absf : (⟨S2048, .f32⟩ : BufTy).Contents (Elt F) → (⟨S2048, .f32⟩ : BufTy).Contents (Elt F)),
    StableHlo.nullary main_cst (constant S_ .f32 0x3DCCCCCD#32),
    StableHlo.unary main_cst main_v3 (broadcastInDim S2048 ![] bcast_S_S2048 : (⟨S_, .f32⟩ : BufTy).Contents (Elt F) → (⟨S2048, .f32⟩ : BufTy).Contents (Elt F)),
    StableHlo.binary main_v2 main_v3 main_v4 (cmpf .ogt : (⟨S2048, .f32⟩ : BufTy).Contents (Elt F) → (⟨S2048, .f32⟩ : BufTy).Contents (Elt F) → (⟨S2048, .i1⟩ : BufTy).Contents (Elt F)),
    StableHlo.unary main_arg3 main_v5 ((extractStridedSlice S2048x2 ![0, 1] · slices_S2048x3_S2048x2_0_1) : (⟨S2048x3, .i32⟩ : BufTy).Contents (Elt F) → (⟨S2048x2, .i32⟩ : BufTy).Contents (Elt F)),
    StableHlo.unary main_v5 main_v6 (sitofp .f32 : (⟨S2048x2, .i32⟩ : BufTy).Contents (Elt F) → (⟨S2048x2, .f32⟩ : BufTy).Contents (Elt F)),
    StableHlo.unary main_arg0 main_v7 (broadcastInDim S8192x1x2 ![0, 2] bcast_S8192x2_S8192x1x2_0_2 : (⟨S8192x2, .i32⟩ : BufTy).Contents (Elt F) → (⟨S8192x1x2, .i32⟩ : BufTy).Contents (Elt F)),
    StableHlo.unary main_c main_v8 (broadcastInDim S1x9x2 ![1, 2] bcast_S9x2_S1x9x2_1_2 : (⟨S9x2, .i32⟩ : BufTy).Contents (Elt F) → (⟨S1x9x2, .i32⟩ : BufTy).Contents (Elt F)),
    StableHlo.unary main_v7 main_v9 (broadcastInDim S8192x9x2 ![0, 1, 2] bcast_S8192x1x2_S8192x9x2_0_1_2 : (⟨S8192x1x2, .i32⟩ : BufTy).Contents (Elt F) → (⟨S8192x9x2, .i32⟩ : BufTy).Contents (Elt F)),
    StableHlo.unary main_v8 main_v10 (broadcastInDim S8192x9x2 ![0, 1, 2] bcast_S1x9x2_S8192x9x2_0_1_2 : (⟨S1x9x2, .i32⟩ : BufTy).Contents (Elt F) → (⟨S8192x9x2, .i32⟩ : BufTy).Contents (Elt F)),
    StableHlo.binary main_v9 main_v10 main_v11 (addi : (⟨S8192x9x2, .i32⟩ : BufTy).Contents (Elt F) → (⟨S8192x9x2, .i32⟩ : BufTy).Contents (Elt F) → (⟨S8192x9x2, .i32⟩ : BufTy).Contents (Elt F)),
    StableHlo.TRef.unary (.of main_c_0 : StableHlo.TRef sig ⟨S2, .i32⟩) main_call0.v0 (broadcastInDim S1x1x2 ![2] bcast_S2_S1x1x2_2),
    StableHlo.TRef.nullary main_call0.c (constantI S_ 32 0#32),
    StableHlo.TRef.unary main_call0.c main_call0.v1 (broadcastInDim S1x1x2 ![] bcast_S_S1x1x2),
    StableHlo.TRef.binary main_call0.v0 main_call0.v1 main_call0.v2 (cmpi .eq),
    StableHlo.TRef.nullary main_call0.c_0 (constantI S_ 32 1#32),
    StableHlo.TRef.unary main_call0.c_0 main_call0.v3 (broadcastInDim S1x1x2 ![] bcast_S_S1x1x2),
    StableHlo.TRef.ternary main_call0.v2 main_call0.v3 main_call0.v0 main_call0.call0.v0 select,
    StableHlo.TRef.unary main_call0.call0.v0 main_call0.v5 (broadcastInDim S8192x9x2 ![0, 1, 2] bcast_S1x1x2_S8192x9x2_0_1_2),
    StableHlo.TRef.binary (.of main_v11 : StableHlo.TRef sig ⟨S8192x9x2, .i32⟩) main_call0.v5 main_call0.v6 Host.remsi,
    StableHlo.TRef.nullary main_call0.c_1 (constantI S_ 32 0#32),
    StableHlo.TRef.unary main_call0.c_1 main_call0.v7 (broadcastInDim S8192x9x2 ![] bcast_S_S8192x9x2),
    StableHlo.TRef.binary main_call0.v6 main_call0.v7 main_call0.v8 (cmpi .ne),
    StableHlo.TRef.nullary main_call0.c_2 (constantI S_ 32 0#32),
    StableHlo.TRef.unary main_call0.c_2 main_call0.v9 (broadcastInDim S8192x9x2 ![] bcast_S_S8192x9x2),
    StableHlo.TRef.binary main_call0.v6 main_call0.v9 main_call0.v10 (cmpi .slt),
    StableHlo.TRef.nullary main_call0.c_3 (constantI S_ 32 0#32),
    StableHlo.TRef.unary main_call0.c_3 main_call0.v11 (broadcastInDim S1x1x2 ![] bcast_S_S1x1x2),
    StableHlo.TRef.binary main_call0.call0.v0 main_call0.v11 main_call0.v12 (cmpi .slt),
    StableHlo.TRef.unary main_call0.v12 main_call0.v13 (broadcastInDim S8192x9x2 ![0, 1, 2] bcast_S1x1x2_S8192x9x2_0_1_2),
    StableHlo.TRef.binary main_call0.v10 main_call0.v13 main_call0.v14 (cmpi .ne),
    StableHlo.TRef.binary main_call0.v14 main_call0.v8 main_call0.v15 andi,
    StableHlo.TRef.unary main_call0.call0.v0 main_call0.v16 (broadcastInDim S8192x9x2 ![0, 1, 2] bcast_S1x1x2_S8192x9x2_0_1_2),
    StableHlo.TRef.binary main_call0.v6 main_call0.v16 main_call0.v17 addi,
    StableHlo.TRef.ternary main_call0.v15 main_call0.v17 main_call0.v6 main_call0.v18 select,
    StableHlo.unary main_arg1 main_v13 (broadcastInDim S2048x1x2 ![0, 2] bcast_S2048x2_S2048x1x2_0_2 : (⟨S2048x2, .i32⟩ : BufTy).Contents (Elt F) → (⟨S2048x1x2, .i32⟩ : BufTy).Contents (Elt F)),
    StableHlo.unary main_c main_v14 (broadcastInDim S1x9x2 ![1, 2] bcast_S9x2_S1x9x2_1_2 : (⟨S9x2, .i32⟩ : BufTy).Contents (Elt F) → (⟨S1x9x2, .i32⟩ : BufTy).Contents (Elt F)),
    StableHlo.unary main_v13 main_v15 (broadcastInDim S2048x9x2 ![0, 1, 2] bcast_S2048x1x2_S2048x9x2_0_1_2 : (⟨S2048x1x2, .i32⟩ : BufTy).Contents (Elt F) → (⟨S2048x9x2, .i32⟩ : BufTy).Contents (Elt F)),
    StableHlo.unary main_v14 main_v16 (broadcastInDim S2048x9x2 ![0, 1, 2] bcast_S1x9x2_S2048x9x2_0_1_2 : (⟨S1x9x2, .i32⟩ : BufTy).Contents (Elt F) → (⟨S2048x9x2, .i32⟩ : BufTy).Contents (Elt F)),
    StableHlo.binary main_v15 main_v16 main_v17 (addi : (⟨S2048x9x2, .i32⟩ : BufTy).Contents (Elt F) → (⟨S2048x9x2, .i32⟩ : BufTy).Contents (Elt F) → (⟨S2048x9x2, .i32⟩ : BufTy).Contents (Elt F)),
    StableHlo.TRef.unary (.of main_c_0 : StableHlo.TRef sig ⟨S2, .i32⟩) main_call1.v0 (broadcastInDim S1x1x2 ![2] bcast_S2_S1x1x2_2),
    StableHlo.TRef.nullary main_call1.c (constantI S_ 32 0#32),
    StableHlo.TRef.unary main_call1.c main_call1.v1 (broadcastInDim S1x1x2 ![] bcast_S_S1x1x2),
    StableHlo.TRef.binary main_call1.v0 main_call1.v1 main_call1.v2 (cmpi .eq),
    StableHlo.TRef.nullary main_call1.c_0 (constantI S_ 32 1#32),
    StableHlo.TRef.unary main_call1.c_0 main_call1.v3 (broadcastInDim S1x1x2 ![] bcast_S_S1x1x2),
    StableHlo.TRef.ternary main_call1.v2 main_call1.v3 main_call1.v0 main_call1.call0.v0 select,
    StableHlo.TRef.unary main_call1.call0.v0 main_call1.v5 (broadcastInDim S2048x9x2 ![0, 1, 2] bcast_S1x1x2_S2048x9x2_0_1_2),
    StableHlo.TRef.binary (.of main_v17 : StableHlo.TRef sig ⟨S2048x9x2, .i32⟩) main_call1.v5 main_call1.v6 Host.remsi,
    StableHlo.TRef.nullary main_call1.c_1 (constantI S_ 32 0#32),
    StableHlo.TRef.unary main_call1.c_1 main_call1.v7 (broadcastInDim S2048x9x2 ![] bcast_S_S2048x9x2),
    StableHlo.TRef.binary main_call1.v6 main_call1.v7 main_call1.v8 (cmpi .ne),
    StableHlo.TRef.nullary main_call1.c_2 (constantI S_ 32 0#32),
    StableHlo.TRef.unary main_call1.c_2 main_call1.v9 (broadcastInDim S2048x9x2 ![] bcast_S_S2048x9x2),
    StableHlo.TRef.binary main_call1.v6 main_call1.v9 main_call1.v10 (cmpi .slt),
    StableHlo.TRef.nullary main_call1.c_3 (constantI S_ 32 0#32),
    StableHlo.TRef.unary main_call1.c_3 main_call1.v11 (broadcastInDim S1x1x2 ![] bcast_S_S1x1x2),
    StableHlo.TRef.binary main_call1.call0.v0 main_call1.v11 main_call1.v12 (cmpi .slt),
    StableHlo.TRef.unary main_call1.v12 main_call1.v13 (broadcastInDim S2048x9x2 ![0, 1, 2] bcast_S1x1x2_S2048x9x2_0_1_2),
    StableHlo.TRef.binary main_call1.v10 main_call1.v13 main_call1.v14 (cmpi .ne),
    StableHlo.TRef.binary main_call1.v14 main_call1.v8 main_call1.v15 andi,
    StableHlo.TRef.unary main_call1.call0.v0 main_call1.v16 (broadcastInDim S2048x9x2 ![0, 1, 2] bcast_S1x1x2_S2048x9x2_0_1_2),
    StableHlo.TRef.binary main_call1.v6 main_call1.v16 main_call1.v17 addi,
    StableHlo.TRef.ternary main_call1.v15 main_call1.v17 main_call1.v6 main_call1.v18 select,
    StableHlo.unary main_v4 main_v19 ((extui 32 · natLt_1_32) : (⟨S2048, .i1⟩ : BufTy).Contents (Elt F) → (⟨S2048, .i32⟩ : BufTy).Contents (Elt F)),
    StableHlo.nullary main_c_1 (constantI S_ 32 0#32),
    StableHlo.binary main_v19 main_c_1 main_v20 ((fun x v => Host.reduce IntOp.addi x v reducesTo_S2048_S_d0 h_S_) : (⟨S2048, .i32⟩ : BufTy).Contents (Elt F) → (⟨S_, .i32⟩ : BufTy).Contents (Elt F) → (⟨S_, .i32⟩ : BufTy).Contents (Elt F)),
    StableHlo.nullary main_c_2 (constantI S_ 32 1#32),
    StableHlo.binary main_v20 main_c_2 main_v21 (cmpi .sgt : (⟨S_, .i32⟩ : BufTy).Contents (Elt F) → (⟨S_, .i32⟩ : BufTy).Contents (Elt F) → (⟨S_, .i1⟩ : BufTy).Contents (Elt F)),
    StableHlo.reshape main_v12 main_v22 rfl shapeCasts_S8192x9x2_S73728x2,
    StableHlo.unary main_v22 main_v23 (sitofp .f32 : (⟨S73728x2, .i32⟩ : BufTy).Contents (Elt F) → (⟨S73728x2, .f32⟩ : BufTy).Contents (Elt F)),
    StableHlo.binary main_v23 main_v23 main_v24 (mulf : (⟨S73728x2, .f32⟩ : BufTy).Contents (Elt F) → (⟨S73728x2, .f32⟩ : BufTy).Contents (Elt F) → (⟨S73728x2, .f32⟩ : BufTy).Contents (Elt F)),
    StableHlo.nullary main_cst_3 (constant S_ .f32 0x00000000#32),
    StableHlo.binary main_v24 main_cst_3 main_v25 ((fun x v => Host.reduceAdd x v reducesTo_S73728x2_S73728_d1 h_S_) : (⟨S73728x2, .f32⟩ : BufTy).Contents (Elt F) → (⟨S_, .f32⟩ : BufTy).Contents (Elt F) → (⟨S73728, .f32⟩ : BufTy).Contents (Elt F)),
    StableHlo.binary main_v6 main_v6 main_v26 (mulf : (⟨S2048x2, .f32⟩ : BufTy).Contents (Elt F) → (⟨S2048x2, .f32⟩ : BufTy).Contents (Elt F) → (⟨S2048x2, .f32⟩ : BufTy).Contents (Elt F)),
    StableHlo.nullary main_cst_4 (constant S_ .f32 0x00000000#32),
    StableHlo.binary main_v26 main_cst_4 main_v27 ((fun x v => Host.reduceAdd x v reducesTo_S2048x2_S2048_d1 h_S_) : (⟨S2048x2, .f32⟩ : BufTy).Contents (Elt F) → (⟨S_, .f32⟩ : BufTy).Contents (Elt F) → (⟨S2048, .f32⟩ : BufTy).Contents (Elt F)),
    StableHlo.unary main_v25 main_v28 (broadcastInDim S73728x1 ![0] bcast_S73728_S73728x1_0 : (⟨S73728, .f32⟩ : BufTy).Contents (Elt F) → (⟨S73728x1, .f32⟩ : BufTy).Contents (Elt F)),
    StableHlo.unary main_v27 main_v29 (broadcastInDim S1x2048 ![1] bcast_S2048_S1x2048_1 : (⟨S2048, .f32⟩ : BufTy).Contents (Elt F) → (⟨S1x2048, .f32⟩ : BufTy).Contents (Elt F)),
    StableHlo.unary main_v28 main_v30 (broadcastInDim S73728x2048 ![0, 1] bcast_S73728x1_S73728x2048_0_1 : (⟨S73728x1, .f32⟩ : BufTy).Contents (Elt F) → (⟨S73728x2048, .f32⟩ : BufTy).Contents (Elt F)),
    StableHlo.unary main_v29 main_v31 (broadcastInDim S73728x2048 ![0, 1] bcast_S1x2048_S73728x2048_0_1 : (⟨S1x2048, .f32⟩ : BufTy).Contents (Elt F) → (⟨S73728x2048, .f32⟩ : BufTy).Contents (Elt F)),
    StableHlo.binary main_v30 main_v31 main_v32 (addf : (⟨S73728x2048, .f32⟩ : BufTy).Contents (Elt F) → (⟨S73728x2048, .f32⟩ : BufTy).Contents (Elt F) → (⟨S73728x2048, .f32⟩ : BufTy).Contents (Elt F)),
    StableHlo.unary main_v6 main_v33 ((transpose S2x2048 [1, 0] · transposes_S2048x2_S2x2048_1_0) : (⟨S2048x2, .f32⟩ : BufTy).Contents (Elt F) → (⟨S2x2048, .f32⟩ : BufTy).Contents (Elt F)),
    StableHlo.binary main_v23 main_v33 main_v34 ((fun l r => Host.dotGeneral dot_S73728x2_S2x2048_S73728x2048_1_0_0_1_n_n none l r) : (⟨S73728x2, .f32⟩ : BufTy).Contents (Elt F) → (⟨S2x2048, .f32⟩ : BufTy).Contents (Elt F) → (⟨S73728x2048, .f32⟩ : BufTy).Contents (Elt F)),
    StableHlo.nullary main_cst_5 (constant S_ .f32 0x40000000#32),
    StableHlo.unary main_cst_5 main_v35 (broadcastInDim S73728x2048 ![] bcast_S_S73728x2048 : (⟨S_, .f32⟩ : BufTy).Contents (Elt F) → (⟨S73728x2048, .f32⟩ : BufTy).Contents (Elt F)),
    StableHlo.binary main_v35 main_v34 main_v36 (mulf : (⟨S73728x2048, .f32⟩ : BufTy).Contents (Elt F) → (⟨S73728x2048, .f32⟩ : BufTy).Contents (Elt F) → (⟨S73728x2048, .f32⟩ : BufTy).Contents (Elt F)),
    StableHlo.binary main_v32 main_v36 main_v37 (subf : (⟨S73728x2048, .f32⟩ : BufTy).Contents (Elt F) → (⟨S73728x2048, .f32⟩ : BufTy).Contents (Elt F) → (⟨S73728x2048, .f32⟩ : BufTy).Contents (Elt F)),
    StableHlo.unary main_v4 main_v38 (broadcastInDim S1x2048 ![1] bcast_S2048_S1x2048_1 : (⟨S2048, .i1⟩ : BufTy).Contents (Elt F) → (⟨S1x2048, .i1⟩ : BufTy).Contents (Elt F)),
    StableHlo.nullary main_cst_6 (constant S_ .f32 0x7F800000#32),
    StableHlo.TRef.unary (.of main_cst_6 : StableHlo.TRef sig ⟨S_, .f32⟩) main_call2.v0 id,
    StableHlo.TRef.unary (.of main_v38 : StableHlo.TRef sig ⟨S1x2048, .i1⟩) main_call2.v1 (broadcastInDim S73728x2048 ![0, 1] bcast_S1x2048_S73728x2048_0_1),
    StableHlo.TRef.unary main_call2.v0 main_call2.v2 (broadcastInDim S73728x2048 ![] bcast_S_S73728x2048),
    StableHlo.TRef.ternary main_call2.v1 (.of main_v37 : StableHlo.TRef sig ⟨S73728x2048, .f32⟩) main_call2.v2 main_call2.v3 select,
    StableHlo.nullary main_cst_7 (constant S_ .f32 0x7F800000#32),
    StableHlo.binary main_v39 main_cst_7 main_v40 ((fun x v => Host.reduce FloatOps.minimumf x v reducesTo_S73728x2048_S73728_d1 h_S_) : (⟨S73728x2048, .f32⟩ : BufTy).Contents (Elt F) → (⟨S_, .f32⟩ : BufTy).Contents (Elt F) → (⟨S73728, .f32⟩ : BufTy).Contents (Elt F)),
    StableHlo.nullary main_cst_8 (constant S_ .f32 0x00000000#32),
    StableHlo.unary main_cst_8 main_v41 (broadcastInDim S73728 ![] bcast_S_S73728 : (⟨S_, .f32⟩ : BufTy).Contents (Elt F) → (⟨S73728, .f32⟩ : BufTy).Contents (Elt F)),
    StableHlo.binary main_v40 main_v41 main_v42 (maximumf : (⟨S73728, .f32⟩ : BufTy).Contents (Elt F) → (⟨S73728, .f32⟩ : BufTy).Contents (Elt F) → (⟨S73728, .f32⟩ : BufTy).Contents (Elt F)),
    StableHlo.unary main_v42 main_v43 (Host.sqrt : (⟨S73728, .f32⟩ : BufTy).Contents (Elt F) → (⟨S73728, .f32⟩ : BufTy).Contents (Elt F)),
    StableHlo.nullary main_cst_9 (constant S_ .f32 0x3C23D70A#32),
    StableHlo.unary main_cst_9 main_v44 (broadcastInDim S73728 ![] bcast_S_S73728 : (⟨S_, .f32⟩ : BufTy).Contents (Elt F) → (⟨S73728, .f32⟩ : BufTy).Contents (Elt F)),
    StableHlo.binary main_v43 main_v44 main_v45 (mulf : (⟨S73728, .f32⟩ : BufTy).Contents (Elt F) → (⟨S73728, .f32⟩ : BufTy).Contents (Elt F) → (⟨S73728, .f32⟩ : BufTy).Contents (Elt F)),
    StableHlo.reshape main_v45 main_v46 rfl shapeCasts_S73728_S8192x9,
    StableHlo.nullary main_cst_10 (constant S_ .f32 0x00000000#32) ]

/-- The second window's operations, in order. -/
abbrev ops1 : List (HloOp τ sig (Elt F)) :=
  [ StableHlo.TRef.unary (.of main_cst_10 : StableHlo.TRef sig ⟨S_, .f32⟩) main_call3.v0 id,
    StableHlo.TRef.unary main_call3.v0 main_call3.v1 (broadcastInDim S8192x9 ![] bcast_S_S8192x9),
    StableHlo.TRef.ternary (.of main_v21 : StableHlo.TRef sig ⟨S_, .i1⟩) (.of main_v46 : StableHlo.TRef sig ⟨S8192x9, .f32⟩) main_call3.v1 main_call3.v2 (fun p a b => select (broadcastInDim S8192x9 ![] bcast_S_S8192x9 p) a b),
    StableHlo.reshape main_v18 main_v48 rfl shapeCasts_S2048x9x2_S18432x2,
    StableHlo.unary main_v48 main_v49 (sitofp .f32 : (⟨S18432x2, .i32⟩ : BufTy).Contents (Elt F) → (⟨S18432x2, .f32⟩ : BufTy).Contents (Elt F)),
    StableHlo.binary main_v49 main_v49 main_v50 (mulf : (⟨S18432x2, .f32⟩ : BufTy).Contents (Elt F) → (⟨S18432x2, .f32⟩ : BufTy).Contents (Elt F) → (⟨S18432x2, .f32⟩ : BufTy).Contents (Elt F)),
    StableHlo.nullary main_cst_11 (constant S_ .f32 0x00000000#32),
    StableHlo.binary main_v50 main_cst_11 main_v51 ((fun x v => Host.reduceAdd x v reducesTo_S18432x2_S18432_d1 h_S_) : (⟨S18432x2, .f32⟩ : BufTy).Contents (Elt F) → (⟨S_, .f32⟩ : BufTy).Contents (Elt F) → (⟨S18432, .f32⟩ : BufTy).Contents (Elt F)),
    StableHlo.binary main_v6 main_v6 main_v52 (mulf : (⟨S2048x2, .f32⟩ : BufTy).Contents (Elt F) → (⟨S2048x2, .f32⟩ : BufTy).Contents (Elt F) → (⟨S2048x2, .f32⟩ : BufTy).Contents (Elt F)),
    StableHlo.nullary main_cst_12 (constant S_ .f32 0x00000000#32),
    StableHlo.binary main_v52 main_cst_12 main_v53 ((fun x v => Host.reduceAdd x v reducesTo_S2048x2_S2048_d1 h_S_) : (⟨S2048x2, .f32⟩ : BufTy).Contents (Elt F) → (⟨S_, .f32⟩ : BufTy).Contents (Elt F) → (⟨S2048, .f32⟩ : BufTy).Contents (Elt F)),
    StableHlo.unary main_v51 main_v54 (broadcastInDim S18432x1 ![0] bcast_S18432_S18432x1_0 : (⟨S18432, .f32⟩ : BufTy).Contents (Elt F) → (⟨S18432x1, .f32⟩ : BufTy).Contents (Elt F)),
    StableHlo.unary main_v53 main_v55 (broadcastInDim S1x2048 ![1] bcast_S2048_S1x2048_1 : (⟨S2048, .f32⟩ : BufTy).Contents (Elt F) → (⟨S1x2048, .f32⟩ : BufTy).Contents (Elt F)),
    StableHlo.unary main_v54 main_v56 (broadcastInDim S18432x2048 ![0, 1] bcast_S18432x1_S18432x2048_0_1 : (⟨S18432x1, .f32⟩ : BufTy).Contents (Elt F) → (⟨S18432x2048, .f32⟩ : BufTy).Contents (Elt F)),
    StableHlo.unary main_v55 main_v57 (broadcastInDim S18432x2048 ![0, 1] bcast_S1x2048_S18432x2048_0_1 : (⟨S1x2048, .f32⟩ : BufTy).Contents (Elt F) → (⟨S18432x2048, .f32⟩ : BufTy).Contents (Elt F)),
    StableHlo.binary main_v56 main_v57 main_v58 (addf : (⟨S18432x2048, .f32⟩ : BufTy).Contents (Elt F) → (⟨S18432x2048, .f32⟩ : BufTy).Contents (Elt F) → (⟨S18432x2048, .f32⟩ : BufTy).Contents (Elt F)),
    StableHlo.unary main_v6 main_v59 ((transpose S2x2048 [1, 0] · transposes_S2048x2_S2x2048_1_0) : (⟨S2048x2, .f32⟩ : BufTy).Contents (Elt F) → (⟨S2x2048, .f32⟩ : BufTy).Contents (Elt F)),
    StableHlo.binary main_v49 main_v59 main_v60 ((fun l r => Host.dotGeneral dot_S18432x2_S2x2048_S18432x2048_1_0_0_1_n_n none l r) : (⟨S18432x2, .f32⟩ : BufTy).Contents (Elt F) → (⟨S2x2048, .f32⟩ : BufTy).Contents (Elt F) → (⟨S18432x2048, .f32⟩ : BufTy).Contents (Elt F)),
    StableHlo.nullary main_cst_13 (constant S_ .f32 0x40000000#32),
    StableHlo.unary main_cst_13 main_v61 (broadcastInDim S18432x2048 ![] bcast_S_S18432x2048 : (⟨S_, .f32⟩ : BufTy).Contents (Elt F) → (⟨S18432x2048, .f32⟩ : BufTy).Contents (Elt F)),
    StableHlo.binary main_v61 main_v60 main_v62 (mulf : (⟨S18432x2048, .f32⟩ : BufTy).Contents (Elt F) → (⟨S18432x2048, .f32⟩ : BufTy).Contents (Elt F) → (⟨S18432x2048, .f32⟩ : BufTy).Contents (Elt F)),
    StableHlo.binary main_v58 main_v62 main_v63 (subf : (⟨S18432x2048, .f32⟩ : BufTy).Contents (Elt F) → (⟨S18432x2048, .f32⟩ : BufTy).Contents (Elt F) → (⟨S18432x2048, .f32⟩ : BufTy).Contents (Elt F)),
    StableHlo.unary main_v4 main_v64 (broadcastInDim S1x2048 ![1] bcast_S2048_S1x2048_1 : (⟨S2048, .i1⟩ : BufTy).Contents (Elt F) → (⟨S1x2048, .i1⟩ : BufTy).Contents (Elt F)),
    StableHlo.nullary main_cst_14 (constant S_ .f32 0x7F800000#32),
    StableHlo.TRef.unary (.of main_cst_14 : StableHlo.TRef sig ⟨S_, .f32⟩) main_call4.v0 id,
    StableHlo.TRef.unary (.of main_v64 : StableHlo.TRef sig ⟨S1x2048, .i1⟩) main_call4.v1 (broadcastInDim S18432x2048 ![0, 1] bcast_S1x2048_S18432x2048_0_1),
    StableHlo.TRef.unary main_call4.v0 main_call4.v2 (broadcastInDim S18432x2048 ![] bcast_S_S18432x2048),
    StableHlo.TRef.ternary main_call4.v1 (.of main_v63 : StableHlo.TRef sig ⟨S18432x2048, .f32⟩) main_call4.v2 main_call4.v3 select,
    StableHlo.nullary main_cst_15 (constant S_ .f32 0x7F800000#32),
    StableHlo.binary main_v65 main_cst_15 main_v66 ((fun x v => Host.reduce FloatOps.minimumf x v reducesTo_S18432x2048_S18432_d1 h_S_) : (⟨S18432x2048, .f32⟩ : BufTy).Contents (Elt F) → (⟨S_, .f32⟩ : BufTy).Contents (Elt F) → (⟨S18432, .f32⟩ : BufTy).Contents (Elt F)),
    StableHlo.nullary main_cst_16 (constant S_ .f32 0x00000000#32),
    StableHlo.unary main_cst_16 main_v67 (broadcastInDim S18432 ![] bcast_S_S18432 : (⟨S_, .f32⟩ : BufTy).Contents (Elt F) → (⟨S18432, .f32⟩ : BufTy).Contents (Elt F)),
    StableHlo.binary main_v66 main_v67 main_v68 (maximumf : (⟨S18432, .f32⟩ : BufTy).Contents (Elt F) → (⟨S18432, .f32⟩ : BufTy).Contents (Elt F) → (⟨S18432, .f32⟩ : BufTy).Contents (Elt F)),
    StableHlo.unary main_v68 main_v69 (Host.sqrt : (⟨S18432, .f32⟩ : BufTy).Contents (Elt F) → (⟨S18432, .f32⟩ : BufTy).Contents (Elt F)),
    StableHlo.nullary main_cst_17 (constant S_ .f32 0x3C23D70A#32),
    StableHlo.unary main_cst_17 main_v70 (broadcastInDim S18432 ![] bcast_S_S18432 : (⟨S_, .f32⟩ : BufTy).Contents (Elt F) → (⟨S18432, .f32⟩ : BufTy).Contents (Elt F)),
    StableHlo.binary main_v69 main_v70 main_v71 (mulf : (⟨S18432, .f32⟩ : BufTy).Contents (Elt F) → (⟨S18432, .f32⟩ : BufTy).Contents (Elt F) → (⟨S18432, .f32⟩ : BufTy).Contents (Elt F)),
    StableHlo.reshape main_v71 main_v72 rfl shapeCasts_S18432_S2048x9,
    StableHlo.nullary main_cst_18 (constant S_ .f32 0x00000000#32),
    StableHlo.TRef.unary (.of main_cst_18 : StableHlo.TRef sig ⟨S_, .f32⟩) main_call5.v0 id,
    StableHlo.TRef.unary main_call5.v0 main_call5.v1 (broadcastInDim S2048x9 ![] bcast_S_S2048x9),
    StableHlo.TRef.ternary (.of main_v21 : StableHlo.TRef sig ⟨S_, .i1⟩) (.of main_v72 : StableHlo.TRef sig ⟨S2048x9, .f32⟩) main_call5.v1 main_call5.v2 (fun p a b => select (broadcastInDim S2048x9 ![] bcast_S_S2048x9 p) a b) ]

set_option maxRecDepth 16384 in
set_option maxHeartbeats 4000000 in
/-- The first window is that straight line: the functions' definitions unfolded at their calls, sequencing reassociated. -/
theorem part0_eq (c : Dev nD) : main_part0 (F := F) c = seq ops0 := by
  simp only [main_part0, fn_remainder.body, fn_remainder_0.body, fn_where.body, fn_where_1.body, seq, bind_assoc, pure_bind]
  rfl

set_option maxRecDepth 16384 in
set_option maxHeartbeats 4000000 in
/-- The second window likewise. -/
theorem part1_eq (c : Dev nD) : main_part1 (F := F) c = seq ops1 := by
  simp only [main_part1, fn_where_2.body, fn_where_3.body, fn_where_4.body, seq, bind_assoc, pure_bind]

/-- @main is the two windows in order, so the concatenated line. -/
theorem main_eq (c : Dev nD) : main (F := F) c = seq (ops0 ++ ops1) := by
  rw [seq_append, ← part0_eq c, ← part1_eq c]
  rfl

/-- The fold over a concatenation is the second list's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., nullary_bufs_sub .., unary_bufs_sub .., reshape_bufs_sub .., unary_bufs_sub .., nullary_bufs_sub ..,
    unary_bufs_sub .., binary_bufs_sub .., unary_bufs_sub .., unary_bufs_sub .., unary_bufs_sub .., unary_bufs_sub ..,
    unary_bufs_sub .., unary_bufs_sub .., binary_bufs_sub .., unary_bufs_sub .., nullary_bufs_sub .., unary_bufs_sub ..,
    binary_bufs_sub .., nullary_bufs_sub .., unary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., unary_bufs_sub .., binary_bufs_sub .., binary_bufs_sub ..,
    unary_bufs_sub .., binary_bufs_sub .., ternary_bufs_sub .., unary_bufs_sub .., unary_bufs_sub .., unary_bufs_sub ..,
    unary_bufs_sub .., binary_bufs_sub .., unary_bufs_sub .., nullary_bufs_sub .., unary_bufs_sub .., binary_bufs_sub ..,
    nullary_bufs_sub .., unary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., unary_bufs_sub .., binary_bufs_sub .., binary_bufs_sub .., unary_bufs_sub ..,
    binary_bufs_sub .., ternary_bufs_sub .., unary_bufs_sub .., nullary_bufs_sub .., binary_bufs_sub .., nullary_bufs_sub ..,
    binary_bufs_sub .., reshape_bufs_sub .., unary_bufs_sub .., binary_bufs_sub .., nullary_bufs_sub .., binary_bufs_sub ..,
    binary_bufs_sub .., nullary_bufs_sub .., binary_bufs_sub .., unary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., unary_bufs_sub .., nullary_bufs_sub .., unary_bufs_sub .., unary_bufs_sub ..,
    unary_bufs_sub .., ternary_bufs_sub .., nullary_bufs_sub .., binary_bufs_sub .., nullary_bufs_sub .., unary_bufs_sub ..,
    binary_bufs_sub .., unary_bufs_sub .., nullary_bufs_sub .., unary_bufs_sub .., binary_bufs_sub .., reshape_bufs_sub ..,
    nullary_bufs_sub ..⟩

theorem ops1_sub : (ops1 : List (HloOp τ sig (Elt F))).Forall fun op => op.bufs ⊆ tcRefs τ sig :=
  ⟨unary_bufs_sub .., unary_bufs_sub .., ternary_bufs_sub .., reshape_bufs_sub .., unary_bufs_sub .., binary_bufs_sub ..,
    nullary_bufs_sub .., binary_bufs_sub .., binary_bufs_sub .., nullary_bufs_sub .., binary_bufs_sub .., unary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., unary_bufs_sub .., nullary_bufs_sub ..,
    unary_bufs_sub .., unary_bufs_sub .., unary_bufs_sub .., ternary_bufs_sub .., nullary_bufs_sub .., binary_bufs_sub ..,
    nullary_bufs_sub .., unary_bufs_sub .., binary_bufs_sub .., unary_bufs_sub .., nullary_bufs_sub .., unary_bufs_sub ..,
    binary_bufs_sub .., reshape_bufs_sub .., nullary_bufs_sub .., unary_bufs_sub .., unary_bufs_sub .., ternary_bufs_sub ..⟩

theorem ops_sub : (ops0 ++ ops1 : List (HloOp τ sig (Elt F))).Forall fun op => op.bufs ⊆ tcRefs τ sig :=
  List.forall_append.mpr ⟨ops0_sub, ops1_sub⟩

/-- Every operation determines its results: none allocates. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

theorem ops_fresh : ∀ op ∈ (ops0 ++ ops1 : List (HloOp τ sig (Elt F))), op.fresh = ∅ :=
  List.forall_iff_forall_mem.mp (List.forall_append.mpr ⟨ops0_fresh, ops1_fresh⟩)

/-- For any float values, from any memory with zero counters: every weakly fair execution of @main on the TensorCores
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops0 ++ ops1) (launchContents m c) (b : DevRef τ sig) :=
  run_seq scopedRefs_eq scopedSems_eq defs main (fun _ => ops0 ++ ops1) main_eq (fun _ => ops_sub) m ρ (fun _ => ops_fresh)

end Cert.ReferenceIdeal.RefRun

end
-- ==== Proof.RefRun.lean ====
/-
  The reference program's run, read at its results. The program is a straight line of host operations (its two
  windows ops0, ops1), so every execution ends with each buffer at the fold of the operations' results over the launch
  contents. Read through the first window, the fold gives the marks, the candidates' coordinates as floats, the test
  "more than one candidate is marked", the wrapped query points and the first result's distances, each as the composed
  term of the argument arrays; read through the second window from those, it gives the two results
  (RefTerm.refLi, RefTerm.refRa). No operation writes an argument buffer.
-/
import proofs.«154386_j24713241822141_2_alg».proof.Proof.RefOps

noncomputable section

namespace Cert.ReferenceIdeal.RefRun

open Cert.ReferenceIdeal Facts₀ Facts Idealize.ShloMosaic Idealize.ShloMosaic.TcCoe Idealize.SL.Sem Idealize.ShloMosaic.StableHlo

variable {F : FTy → Type} [FloatOps F] [Facts]

attribute [local irreducible] Host.reduce Host.reduceAdd Host.remsi Host.sqrt Host.absf transpose broadcastInDim extractStridedSlice in
set_option maxRecDepth 16384 in
set_option maxHeartbeats 4000000 in
/-- The marks after the first window. -/
theorem v4_eq (V : Valuation τ sig (Elt F)) :
    after ops0 V (main_v4 : DevRef τ sig) = RefTerm.maskT (V (main_arg2 : DevRef τ sig)) := by
  after_results_simp
  rfl

attribute [local irreducible] Host.reduce Host.reduceAdd Host.remsi Host.sqrt Host.absf transpose broadcastInDim extractStridedSlice in
set_option maxRecDepth 16384 in
set_option maxHeartbeats 4000000 in
/-- The candidates' coordinates as floats after the first window. -/
theorem v6_eq (V : Valuation τ sig (Elt F)) :
    after ops0 V (main_v6 : DevRef τ sig) = sitofp .f32 (RefTerm.dyIT (V (main_arg3 : DevRef τ sig))) := by
  after_results_simp
  rfl

attribute [local irreducible] Host.reduce Host.reduceAdd Host.remsi Host.sqrt Host.absf transpose broadcastInDim extractStridedSlice in
set_option maxRecDepth 16384 in
set_option maxHeartbeats 4000000 in
/-- The test "more than one candidate is marked" after the first window. -/
theorem v21_eq (V : Valuation τ sig (Elt F)) :
    after ops0 V (main_v21 : DevRef τ sig) = RefTerm.useT (RefTerm.maskT (V (main_arg2 : DevRef τ sig))) := by
  after_results_simp
  rfl

attribute [local irreducible] Host.reduce Host.reduceAdd Host.remsi Host.sqrt Host.absf transpose broadcastInDim extractStridedSlice in
set_option maxRecDepth 16384 in
set_option maxHeartbeats 4000000 in
/-- The zero the first result's select falls back to. -/
theorem cst10_eq (V : Valuation τ sig (Elt F)) :
    after ops0 V (main_cst_10 : DevRef τ sig) = constant S_ .f32 0x00000000#32 := by
  after_results_simp

attribute [local irreducible] Host.reduce Host.reduceAdd Host.remsi Host.sqrt Host.absf transpose broadcastInDim extractStridedSlice in
set_option maxRecDepth 16384 in
set_option maxHeartbeats 4000000 in
/-- The second result's wrapped query points, before they are laid out as rows. -/
theorem v18_eq (V : Valuation τ sig (Elt F)) :
    after ops0 V (main_v18 : DevRef τ sig) = RefTerm.remRa (addi
      (broadcastInDim S2048x9x2 ![0, 1, 2] bcast_S2048x1x2_S2048x9x2_0_1_2 (broadcastInDim S2048x1x2 ![0, 2] bcast_S2048x2_S2048x1x2_0_2 (V (main_arg1 : DevRef τ sig))))
      (broadcastInDim S2048x9x2 ![0, 1, 2] bcast_S1x9x2_S2048x9x2_0_1_2
        (broadcastInDim S1x9x2 ![1, 2] bcast_S9x2_S1x9x2_1_2 (fun i => lit0 (S9x2.rowMajor i))))) := by
  after_results_simp
  rfl

attribute [local irreducible] Host.reduce Host.reduceAdd Host.remsi Host.sqrt Host.absf transpose broadcastInDim extractStridedSlice in
set_option maxRecDepth 16384 in
set_option maxHeartbeats 4000000 in
/-- The first result's distances, laid out per input point. -/
theorem v46_eq (V : Valuation τ sig (Elt F)) :
    after ops0 V (main_v46 : DevRef τ sig) = shapeCast S8192x9 (RefTerm.distLi (RefTerm.nbLiT (V (main_arg0 : DevRef τ sig))) (RefTerm.dyIT (V (main_arg3 : DevRef τ sig))) (RefTerm.maskT (V (main_arg2 : DevRef τ sig)))) shapeCasts_S73728_S8192x9 := by
  after_results_simp
  rfl

set_option maxRecDepth 16384 in
set_option maxHeartbeats 4000000 in
theorem p0_arg0 (V : Valuation τ sig (Elt F)) :
    after ops0 V (main_arg0 : DevRef τ sig) = V (main_arg0 : DevRef τ sig) := by
  after_results_simp

set_option maxRecDepth 16384 in
set_option maxHeartbeats 4000000 in
theorem p0_arg1 (V : Valuation τ sig (Elt F)) :
    after ops0 V (main_arg1 : DevRef τ sig) = V (main_arg1 : DevRef τ sig) := by
  after_results_simp

set_option maxRecDepth 16384 in
set_option maxHeartbeats 4000000 in
theorem p0_arg2 (V : Valuation τ sig (Elt F)) :
    after ops0 V (main_arg2 : DevRef τ sig) = V (main_arg2 : DevRef τ sig) := by
  after_results_simp

set_option maxRecDepth 16384 in
set_option maxHeartbeats 4000000 in
theorem p0_arg3 (V : Valuation τ sig (Elt F)) :
    after ops0 V (main_arg3 : DevRef τ sig) = V (main_arg3 : DevRef τ sig) := by
  after_results_simp

attribute [local irreducible] Host.reduce Host.reduceAdd Host.remsi Host.sqrt Host.absf transpose broadcastInDim extractStridedSlice in
set_option maxRecDepth 16384 in
set_option maxHeartbeats 4000000 in
/-- The first result, read through the second window from the first window's values. -/
theorem v47_of (W : Valuation τ sig (Elt F)) (a0 : IVec S8192x2 32) (a2 : FVec F S2048x5 .f32) (a3 : IVec S2048x3 32)
    (h21 : W (main_v21 : DevRef τ sig) = RefTerm.useT (RefTerm.maskT a2))
    (h46 : W (main_v46 : DevRef τ sig) = shapeCast S8192x9 (RefTerm.distLi (RefTerm.nbLiT a0) (RefTerm.dyIT a3) (RefTerm.maskT a2)) shapeCasts_S73728_S8192x9)
    (h10 : W (main_cst_10 : DevRef τ sig) = constant S_ .f32 0x00000000#32) :
    after ops1 W (main_v47 : DevRef τ sig) = RefTerm.refLi a0 a2 a3 := by
  after_results_simp
  rw [h21, h46, h10]
  rfl

attribute [local irreducible] Host.reduce Host.reduceAdd Host.remsi Host.sqrt Host.absf transpose broadcastInDim extractStridedSlice in
set_option maxRecDepth 16384 in
set_option maxHeartbeats 4000000 in
/-- The second result, read through the second window from the first window's values. -/
theorem v73_of (W : Valuation τ sig (Elt F)) (a1 : IVec S2048x2 32) (a2 : FVec F S2048x5 .f32) (a3 : IVec S2048x3 32)
    (h21 : W (main_v21 : DevRef τ sig) = RefTerm.useT (RefTerm.maskT a2))
    (h4 : W (main_v4 : DevRef τ sig) = RefTerm.maskT a2)
    (h6 : W (main_v6 : DevRef τ sig) = sitofp .f32 (RefTerm.dyIT a3))
    (h18 : W (main_v18 : DevRef τ sig) = RefTerm.remRa (addi
      (broadcastInDim S2048x9x2 ![0, 1, 2] bcast_S2048x1x2_S2048x9x2_0_1_2 (broadcastInDim S2048x1x2 ![0, 2] bcast_S2048x2_S2048x1x2_0_2 a1))
      (broadcastInDim S2048x9x2 ![0, 1, 2] bcast_S1x9x2_S2048x9x2_0_1_2
        (broadcastInDim S1x9x2 ![1, 2] bcast_S9x2_S1x9x2_1_2 (fun i => lit0 (S9x2.rowMajor i)))))) :
    after ops1 W (main_v73 : DevRef τ sig) = RefTerm.refRa a1 a2 a3 := by
  after_results_simp
  rw [h21, h4, h6, h18]
  rfl

set_option maxRecDepth 16384 in
set_option maxHeartbeats 4000000 in
theorem p1_arg0 (V : Valuation τ sig (Elt F)) :
    after ops1 V (main_arg0 : DevRef τ sig) = V (main_arg0 : DevRef τ sig) := by
  after_results_simp

set_option maxRecDepth 16384 in
set_option maxHeartbeats 4000000 in
theorem p1_arg1 (V : Valuation τ sig (Elt F)) :
    after ops1 V (main_arg1 : DevRef τ sig) = V (main_arg1 : DevRef τ sig) := by
  after_results_simp

set_option maxRecDepth 16384 in
set_option maxHeartbeats 4000000 in
theorem p1_arg2 (V : Valuation τ sig (Elt F)) :
    after ops1 V (main_arg2 : DevRef τ sig) = V (main_arg2 : DevRef τ sig) := by
  after_results_simp

set_option maxRecDepth 16384 in
set_option maxHeartbeats 4000000 in
theorem p1_arg3 (V : Valuation τ sig (Elt F)) :
    after ops1 V (main_arg3 : DevRef τ sig) = V (main_arg3 : DevRef τ sig) := by
  after_results_simp

/-- The first result after the whole line. -/
theorem read_v47 (V : Valuation τ sig (Elt F)) :
    after (ops0 ++ ops1) V (main_v47 : DevRef τ sig) = RefTerm.refLi (V (main_arg0 : DevRef τ sig)) (V (main_arg2 : DevRef τ sig)) (V (main_arg3 : DevRef τ sig)) := by
  rw [after_app]
  exact v47_of _ _ _ _ (v21_eq V) (v46_eq V) (cst10_eq V)

/-- The second result after the whole line. -/
theorem read_v73 (V : Valuation τ sig (Elt F)) :
    after (ops0 ++ ops1) V (main_v73 : DevRef τ sig) = RefTerm.refRa (V (main_arg1 : DevRef τ sig)) (V (main_arg2 : DevRef τ sig)) (V (main_arg3 : DevRef τ sig)) := by
  rw [after_app]
  exact v73_of _ _ _ _ (v21_eq V) (v4_eq V) (v6_eq V) (v18_eq V)

theorem read_arg0 (V : Valuation τ sig (Elt F)) :
    after (ops0 ++ ops1) V (main_arg0 : DevRef τ sig) = V (main_arg0 : DevRef τ sig) := by
  rw [after_app, p1_arg0, p0_arg0]

theorem read_arg1 (V : Valuation τ sig (Elt F)) :
    after (ops0 ++ ops1) V (main_arg1 : DevRef τ sig) = V (main_arg1 : DevRef τ sig) := by
  rw [after_app, p1_arg1, p0_arg1]

theorem read_arg2 (V : Valuation τ sig (Elt F)) :
    after (ops0 ++ ops1) V (main_arg2 : DevRef τ sig) = V (main_arg2 : DevRef τ sig) := by
  rw [after_app, p1_arg2, p0_arg2]

theorem read_arg3 (V : Valuation τ sig (Elt F)) :
    after (ops0 ++ ops1) V (main_arg3 : DevRef τ sig) = V (main_arg3 : DevRef τ sig) := by
  rw [after_app, p1_arg3, p0_arg3]

/-- On every device, for any float values, from any memory with zero counters: every weakly fair execution of @main
    terminates with the two results at the composed terms of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = RefTerm.refLi (m ((c.tc : Thread nD τ).loc main_arg0)) (m ((c.tc : Thread nD τ).loc main_arg2)) (m ((c.tc : Thread nD τ).loc main_arg3))
      ∧ r.2.mem ((c.tc : Thread nD τ).loc main_v73) = RefTerm.refRa (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v47).trans (read_v47 _), (h c main_v73).trans (read_v73 _),
      (h c main_arg0).trans (read_arg0 _), (h c main_arg1).trans (read_arg1 _),
      (h c main_arg2).trans (read_arg2 _), (h c main_arg3).trans (read_arg3 _)⟩)
    (run_main m ρ)

end Cert.ReferenceIdeal.RefRun

end
-- ==== Proof.LibColumnInDim.lean ====
/-
  The column forms of `broadcast_in_dim`, read at an index given by coordinates: a vector `[n]` laid as the column
  `[n, 1]` (its axis sent to axis 0), and a column `[n, 1]` repeated along the rows to `[n, b]` (axes sent to
  themselves). This is how a per-row quantity — a row sum, a norm, a degree — is spread over a matrix when it is
  written `v[:, None]`: both read the operand at the row coordinate alone. (`n ≠ 1`: on an axis of extent one
  a broadcast reads coordinate 0 whatever the index, and the statements would need no hypothesis but another proof.)
-/
import Idealize.ShloMosaic.Lib.Pipeline.Value
import Idealize.ShloMosaic.Lib.ValueIdx

namespace Cert.Lib.ColumnInDim

open Idealize.ShloMosaic Idealize.ShloMosaic.ValueIdx

variable {α : Type}

/-- A vector `[n]` laid as the column `[n, 1]` reads, at `(P, u)`, the vector at `P`. -/
theorem column_apply {n : ℕ} (hn : n ≠ 1) (h : (⟨1, ![n]⟩ : Shape).BroadcastsInDim ⟨2, ![n, 1]⟩ ![0])
    (v : (⟨1, ![n]⟩ : Shape).Idx → α) (P : Fin n) (u : Fin 1) :
    broadcastInDim ⟨2, ![n, 1]⟩ ![0] h v (ix2 P u) = v (ix1 P) :=
  broadcastInDim_apply _ h v (ix2 P u) (ix1 P) (fun a => match a with
    | ⟨0, _⟩ => by show P.val = if n = 1 then 0 else P.val; rw [if_neg hn])

/-- A column `[n, 1]` repeated along the rows to `[n, b]` reads, at `(P, q)`, the column's entry of row `P`. -/
theorem spread_apply {n b : ℕ} (hn : n ≠ 1) (h : (⟨2, ![n, 1]⟩ : Shape).BroadcastsInDim ⟨2, ![n, b]⟩ ![0, 1])
    (v : (⟨2, ![n, 1]⟩ : Shape).Idx → α) (P : Fin n) (q : Fin b) :
    broadcastInDim ⟨2, ![n, b]⟩ ![0, 1] h v (ix2 P q) = v (ix2 P (0 : Fin 1)) :=
  broadcastInDim_apply _ h v (ix2 P q) (ix2 P (0 : Fin 1)) (fun a => match a with
    | ⟨0, _⟩ => by show P.val = if n = 1 then 0 else P.val; rw [if_neg hn]
    | ⟨1, _⟩ => by show 0 = if (1 : ℕ) = 1 then 0 else q.val; rw [if_pos rfl])

end Cert.Lib.ColumnInDim
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.RefRead.lean ====
/-
  The reference's composed term read index by index at the exact values.

  Per query point p with integer coordinates (ax, ay), and per candidate j with integer coordinates (qx_j, qy_j) and mark
  m_j, the program's stages read as follows: the squared norm of a row of an [n, 2] integer array is the sum of the two
  squared coordinates (the sum's initial zero contributes nothing); the product of the [n, 2] array of query points by the
  transposed [2, 2048] array of candidates reads, at (p, j), ax·qx_j + ay·qy_j; the masked entry at (p, j) is
  (|a|² + |q_j|²) − 2·(a·q_j) for a marked candidate and +∞ otherwise; the row minimum from +∞ is the fold of min over j;
  and the result is the square root of the positive part scaled by the word 0.01, laid out [rows / 9, 9] by row-major
  position and kept only when more than one candidate is marked.
-/
import proofs.«154386_j24713241822141_2_alg».proof.Proof.RefTerm
import proofs.«154386_j24713241822141_2_alg».proof.Proof.Spec
import proofs.«154386_j24713241822141_2_alg».proof.Proof.LibColumnInDim
import proofs.«154386_j24713241822141_2_alg».proof.Proof.LibRowInDim
import proofs.«154386_j24713241822141_2_alg».proof.Proof.LibContractPlain
import proofs.«154386_j24713241822141_2_alg».proof.Proof.LibBlockLayout
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Idealize.ShloMosaic.PureOps.Reduce

noncomputable section

namespace Cert.ReferenceIdeal.RefRead

open Cert.ReferenceIdeal Facts₀ Facts Idealize.ShloMosaic Idealize.ShloMosaic.ValueIdx
open Cert.MinDist

/-- The squared norm of row p of an [n, 2] integer array: the sum from 0 over the two coordinates of the squares. -/
theorem sqnorm_apply {n : ℕ} (X : IVec ⟨2, ![n, 2]⟩ 32)
    (h' : (⟨2, ![n, 2]⟩ : Shape).ReducesTo [(1 : Fin 2)] ⟨1, ![n]⟩)
    (h : (⟨2, ![n, 2]⟩ : Shape).Reduces [(1 : Fin 2)] ⟨1, ![n]⟩)
    (hu : 0 < (⟨0, ![]⟩ : Shape).numel) (p : Fin n) :
    Host.reduceAdd (F := Ideal) (mulf (sitofp .f32 X) (sitofp .f32 X)) (constant ⟨0, ![]⟩ .f32 0x00000000#32) h' hu (ix1 p)
      = ofI (X (ix2 p 0)) * ofI (X (ix2 p 0)) + ofI (X (ix2 p 1)) * ofI (X (ix2 p 1)) := by
  refine (Ideal.hostReduceAdd_single h' h _ _ (ix1 p)).trans ?_
  have e : ∀ k : Fin 2, h.lift (ix1 p) k = ix2 p k := fun k => Cert.BlockLayout.lift_trailing2 h p k
  show Ideal.ofBits .f32 0x00000000#32
      + ∑ k : Fin 2, (mulf (sitofp (F := Ideal) .f32 X) (sitofp .f32 X)) (h.lift (ix1 p) k) = _
  rw [Fin.sum_univ_two, e 0, e 1, Ideal.ofBits_zero_f32, zero_add]
  rfl

/-- The product of the [n, 2] query points by the transposed candidates, at (p, j): ax·qx_j + ay·qy_j. -/
theorem dot_apply {n : ℕ} (A : IVec ⟨2, ![n, 2]⟩ 32) (B : IVec ⟨2, ![2048, 2]⟩ 32)
    (D : DotDims ⟨2, ![n, 2]⟩ ⟨2, ![2, 2048]⟩ ⟨2, ![n, 2048]⟩) (hD : D = DotDims.plain n 2 2048)
    (ht : (⟨2, ![2048, 2]⟩ : Shape).Transposes [(1 : Fin 2), 0] ⟨2, ![2, 2048]⟩) (p : Fin n) (j : Fin 2048) :
    Host.dotGeneral (F := Ideal) D none (sitofp .f32 A) (transpose ⟨2, ![2, 2048]⟩ [1, 0] (sitofp .f32 B) ht) (ix2 p j)
      = ofI (A (ix2 p 0)) * ofI (B (ix2 j 0)) + ofI (A (ix2 p 1)) * ofI (B (ix2 j 1)) := by
  refine (Cert.Lib.ContractPlain.hostDot_apply D hD none _ _ p j).trans ?_
  have e : ∀ c : Fin 2, transpose ⟨2, ![2, 2048]⟩ [1, 0] (sitofp (F := Ideal) .f32 B) ht (ix2 c j)
      = sitofp (F := Ideal) .f32 B (ix2 j c) := fun c =>
    transpose_apply _ _ ht (ix2 c j) (ix2 j c) (fun b => match b with
      | ⟨0, _⟩ => rfl
      | ⟨1, _⟩ => rfl)
  rw [Fin.sum_univ_two, e 0, e 1]
  rfl

/-! Pointwise operations at an index, at the exact values. -/

theorem addf_apply {s : Shape} {φ : FTy} (x y : FVec Ideal s φ) (i : s.Idx) : addf x y i = x i + y i := rfl
theorem subf_apply {s : Shape} {φ : FTy} (x y : FVec Ideal s φ) (i : s.Idx) : subf x y i = x i - y i := rfl
theorem mulf_apply {s : Shape} {φ : FTy} (x y : FVec Ideal s φ) (i : s.Idx) : mulf x y i = x i * y i := rfl
theorem select_apply {s : Shape} {α : Type} (c : IVec s 1) (a b : s.Idx → α) (i : s.Idx) :
    select c a b i = Scalar.select (c i) (a i) (b i) := rfl

theorem select_congr {α : Type} {c c' : BitVec 1} {a a' b b' : α} (hc : c = c') (ha : a = a') (hb : b = b') :
    Scalar.select c a b = Scalar.select c' a' b' := by subst hc ha hb; rfl

/-- A scalar constant spread over any shape reads the constant's value everywhere. -/
theorem scalarConst_apply {T : Shape} (h : (⟨0, ![]⟩ : Shape).BroadcastsInDim T ![]) (w : BitVec 32) (i : T.Idx) :
    broadcastInDim T ![] h (constant (F := Ideal) ⟨0, ![]⟩ .f32 w) i = Ideal.ofBits .f32 w := rfl

/-- The square root of the positive part scaled by the word 0.01, at an index. -/
theorem finish_apply {T : Shape} (h : (⟨0, ![]⟩ : Shape).BroadcastsInDim T ![]) (mn : FVec Ideal T .f32) (i : T.Idx) :
    mulf (Host.sqrt (maximumf mn (broadcastInDim T ![] h (constant ⟨0, ![]⟩ .f32 0x00000000#32))))
        (broadcastInDim T ![] h (constant ⟨0, ![]⟩ .f32 0x3C23D70A#32)) i
      = finish (mn i) := rfl

/-- The distance stage over a general number n of query points (the program's, with n in place of its row count). -/
def distN {n : ℕ}
    (rA : (⟨2, ![n, 2]⟩ : Shape).ReducesTo [(1 : Fin 2)] ⟨1, ![n]⟩)
    (rB : (⟨2, ![2048, 2]⟩ : Shape).ReducesTo [(1 : Fin 2)] ⟨1, ![2048]⟩)
    (hu : 0 < (⟨0, ![]⟩ : Shape).numel)
    (bCol : (⟨1, ![n]⟩ : Shape).BroadcastsInDim ⟨2, ![n, 1]⟩ ![0])
    (bSpread : (⟨2, ![n, 1]⟩ : Shape).BroadcastsInDim ⟨2, ![n, 2048]⟩ ![0, 1])
    (bRow : (⟨1, ![2048]⟩ : Shape).BroadcastsInDim ⟨2, ![1, 2048]⟩ ![1])
    (bRep : (⟨2, ![1, 2048]⟩ : Shape).BroadcastsInDim ⟨2, ![n, 2048]⟩ ![0, 1])
    (bS2 : (⟨0, ![]⟩ : Shape).BroadcastsInDim ⟨2, ![n, 2048]⟩ ![])
    (bS1 : (⟨0, ![]⟩ : Shape).BroadcastsInDim ⟨1, ![n]⟩ ![])
    (D : DotDims ⟨2, ![n, 2]⟩ ⟨2, ![2, 2048]⟩ ⟨2, ![n, 2048]⟩)
    (ht : (⟨2, ![2048, 2]⟩ : Shape).Transposes [(1 : Fin 2), 0] ⟨2, ![2, 2048]⟩)
    (rM : (⟨2, ![n, 2048]⟩ : Shape).ReducesTo [(1 : Fin 2)] ⟨1, ![n]⟩)
    (A : IVec ⟨2, ![n, 2]⟩ 32) (B : IVec ⟨2, ![2048, 2]⟩ 32) (M : IVec ⟨1, ![2048]⟩ 1) : FVec Ideal ⟨1, ![n]⟩ .f32 :=
  let a : FVec Ideal ⟨2, ![n, 2]⟩ .f32 := sitofp .f32 A
  let b : FVec Ideal ⟨2, ![2048, 2]⟩ .f32 := sitofp .f32 B
  let a2 : FVec Ideal ⟨1, ![n]⟩ .f32 := Host.reduceAdd (mulf a a) (constant ⟨0, ![]⟩ .f32 0x00000000#32) rA hu
  let b2 : FVec Ideal ⟨1, ![2048]⟩ .f32 := Host.reduceAdd (mulf b b) (constant ⟨0, ![]⟩ .f32 0x00000000#32) rB hu
  let s : FVec Ideal ⟨2, ![n, 2048]⟩ .f32 := addf
    (broadcastInDim ⟨2, ![n, 2048]⟩ ![0, 1] bSpread (broadcastInDim ⟨2, ![n, 1]⟩ ![0] bCol a2))
    (broadcastInDim ⟨2, ![n, 2048]⟩ ![0, 1] bRep (broadcastInDim ⟨2, ![1, 2048]⟩ ![1] bRow b2))
  let dot : FVec Ideal ⟨2, ![n, 2048]⟩ .f32 := Host.dotGeneral D none a (transpose ⟨2, ![2, 2048]⟩ [1, 0] b ht)
  let d2 : FVec Ideal ⟨2, ![n, 2048]⟩ .f32 :=
    subf s (mulf (broadcastInDim ⟨2, ![n, 2048]⟩ ![] bS2 (constant ⟨0, ![]⟩ .f32 0x40000000#32)) dot)
  let w : FVec Ideal ⟨2, ![n, 2048]⟩ .f32 := select
    (broadcastInDim ⟨2, ![n, 2048]⟩ ![0, 1] bRep (broadcastInDim ⟨2, ![1, 2048]⟩ ![1] bRow M))
    d2 (broadcastInDim ⟨2, ![n, 2048]⟩ ![] bS2 (id (constant ⟨0, ![]⟩ .f32 0x7F800000#32)))
  let mn : FVec Ideal ⟨1, ![n]⟩ .f32 := Host.reduce FloatOps.minimumf w (constant ⟨0, ![]⟩ .f32 0x7F800000#32) rM hu
  mulf (Host.sqrt (maximumf mn (broadcastInDim ⟨1, ![n]⟩ ![] bS1 (constant ⟨0, ![]⟩ .f32 0x00000000#32))))
    (broadcastInDim ⟨1, ![n]⟩ ![] bS1 (constant ⟨0, ![]⟩ .f32 0x3C23D70A#32))

/-- The distance stage at query point p: the least masked squared distance over the candidates, finished. -/
theorem distN_apply {n : ℕ} (hn : n ≠ 1)
    (rA : (⟨2, ![n, 2]⟩ : Shape).ReducesTo [(1 : Fin 2)] ⟨1, ![n]⟩)
    (rB : (⟨2, ![2048, 2]⟩ : Shape).ReducesTo [(1 : Fin 2)] ⟨1, ![2048]⟩)
    (hu : 0 < (⟨0, ![]⟩ : Shape).numel)
    (bCol : (⟨1, ![n]⟩ : Shape).BroadcastsInDim ⟨2, ![n, 1]⟩ ![0])
    (bSpread : (⟨2, ![n, 1]⟩ : Shape).BroadcastsInDim ⟨2, ![n, 2048]⟩ ![0, 1])
    (bRow : (⟨1, ![2048]⟩ : Shape).BroadcastsInDim ⟨2, ![1, 2048]⟩ ![1])
    (bRep : (⟨2, ![1, 2048]⟩ : Shape).BroadcastsInDim ⟨2, ![n, 2048]⟩ ![0, 1])
    (bS2 : (⟨0, ![]⟩ : Shape).BroadcastsInDim ⟨2, ![n, 2048]⟩ ![])
    (bS1 : (⟨0, ![]⟩ : Shape).BroadcastsInDim ⟨1, ![n]⟩ ![])
    (D : DotDims ⟨2, ![n, 2]⟩ ⟨2, ![2, 2048]⟩ ⟨2, ![n, 2048]⟩) (hD : D = DotDims.plain n 2 2048)
    (ht : (⟨2, ![2048, 2]⟩ : Shape).Transposes [(1 : Fin 2), 0] ⟨2, ![2, 2048]⟩)
    (rM : (⟨2, ![n, 2048]⟩ : Shape).ReducesTo [(1 : Fin 2)] ⟨1, ![n]⟩)
    (hA : (⟨2, ![n, 2]⟩ : Shape).Reduces [(1 : Fin 2)] ⟨1, ![n]⟩)
    (hB : (⟨2, ![2048, 2]⟩ : Shape).Reduces [(1 : Fin 2)] ⟨1, ![2048]⟩)
    (hM : (⟨2, ![n, 2048]⟩ : Shape).Reduces [(1 : Fin 2)] ⟨1, ![n]⟩)
    (A : IVec ⟨2, ![n, 2]⟩ 32) (B : IVec ⟨2, ![2048, 2]⟩ 32) (M : IVec ⟨1, ![2048]⟩ 1) (p : Fin n) :
    distN rA rB hu bCol bSpread bRow bRep bS2 bS1 D ht rM A B M (ix1 p)
      = finish (rowR (ofI (A (ix2 p 0))) (ofI (A (ix2 p 1))) (fun j => ofI (B (ix2 j 0))) (fun j => ofI (B (ix2 j 1)))
          (fun j => M (ix1 j))) := by
  have h2048 : (2048 : ℕ) ≠ 1 := by decide
  refine (finish_apply bS1 _ (ix1 p)).trans (congrArg finish ?_)
  refine (Host.reduce_eq_fold_single FloatOps.minimumf _ _ rM hM hu (ix1 p)).trans ?_
  unfold rowR
  refine congrArg (fun f => Finset.fold min (Ideal.ofBits .f32 0x7F800000#32) f (Finset.univ : Finset (Fin 2048)))
    (funext fun j => ?_)
  refine (congrArg _ (Cert.BlockLayout.lift_trailing2 hM p j)).trans ?_
  refine (select_apply _ _ _ _).trans ?_
  unfold colR
  refine select_congr ?_ ?_ rfl
  · exact (Cert.Lib.RowInDim.repeat_apply h2048 bRep _ p j).trans (Cert.Lib.RowInDim.row_apply h2048 bRow M 0 j)
  · refine (subf_apply _ _ _).trans (congrArg₂ (· - ·) ?_ ?_)
    · refine (addf_apply _ _ _).trans (congrArg₂ (· + ·) ?_ ?_)
      · exact (Cert.Lib.ColumnInDim.spread_apply hn bSpread _ p j).trans
          ((Cert.Lib.ColumnInDim.column_apply hn bCol _ p 0).trans (sqnorm_apply A rA hA hu p))
      · exact (Cert.Lib.RowInDim.repeat_apply h2048 bRep _ p j).trans
          ((Cert.Lib.RowInDim.row_apply h2048 bRow _ 0 j).trans (sqnorm_apply B rB hB hu j))
    · refine (mulf_apply _ _ _).trans (congrArg₂ (· * ·) rfl ?_)
      exact dot_apply A B D hD ht p j

variable [Cert.ReferenceIdeal.Facts]

/-- The program's distance stage over the 73728 query points is the general one at n = 73728. -/
theorem distLi_apply (A : IVec S73728x2 32) (B : IVec S2048x2 32) (M : IVec S2048 1) (p : Fin 73728) :
    RefTerm.distLi (F := Ideal) A B M (ix1 p)
      = finish (rowR (ofI (A (ix2 p 0))) (ofI (A (ix2 p 1))) (fun j => ofI (B (ix2 j 0))) (fun j => ofI (B (ix2 j 1)))
          (fun j => M (ix1 j))) :=
  distN_apply (n := 73728) (by decide) reducesTo_S73728x2_S73728_d1 reducesTo_S2048x2_S2048_d1 h_S_ bcast_S73728_S73728x1_0
    bcast_S73728x1_S73728x2048_0_1 bcast_S2048_S1x2048_1 bcast_S1x2048_S73728x2048_0_1 bcast_S_S73728x2048 bcast_S_S73728
    dot_S73728x2_S2x2048_S73728x2048_1_0_0_1_n_n rfl transposes_S2048x2_S2x2048_1_0 reducesTo_S73728x2048_S73728_d1
    (by decide) (by decide) (by decide) A B M p

/-- The [8192, 9] result, entry by entry: the second form of the common statement. -/
theorem refLi_eq (a0 : IVec S8192x2 32) (a2 : FVec Ideal S2048x5 .f32) (a3 : IVec S2048x3 32) :
    RefTerm.refLi (F := Ideal) a0 a2 a3
      = Cert.MinDist.outLiR (Cert.MinDist.useBit (RefTerm.maskT a2)) (RefTerm.nbLiT a0) (RefTerm.dyIT a3) (RefTerm.maskT a2) := by
  funext i
  refine (select_apply _ _ _ i).trans ?_
  unfold outLiR gR
  refine select_congr ?_ ?_ rfl
  · exact broadcastInDim_scalar_apply bcast_S_S8192x9 _ i
  · refine (shapeCast_apply _ shapeCasts_S73728_S8192x9 i (ix1 (rowLi i)) ?_).trans (distLi_apply _ _ _ (rowLi i))
    rw [Shape.rowMajor_val_one, Shape.rowMajor_val_two]
    rfl

/-- The program's distance stage over the 18432 query points is the general one at n = 18432. -/
theorem distRa_apply (A : IVec S18432x2 32) (B : IVec S2048x2 32) (M : IVec S2048 1) (p : Fin 18432) :
    RefTerm.distRa (F := Ideal) A B M (ix1 p)
      = finish (rowR (ofI (A (ix2 p 0))) (ofI (A (ix2 p 1))) (fun j => ofI (B (ix2 j 0))) (fun j => ofI (B (ix2 j 1)))
          (fun j => M (ix1 j))) :=
  distN_apply (n := 18432) (by decide) reducesTo_S18432x2_S18432_d1 reducesTo_S2048x2_S2048_d1 h_S_ bcast_S18432_S18432x1_0
    bcast_S18432x1_S18432x2048_0_1 bcast_S2048_S1x2048_1 bcast_S1x2048_S18432x2048_0_1 bcast_S_S18432x2048 bcast_S_S18432
    dot_S18432x2_S2x2048_S18432x2048_1_0_0_1_n_n rfl transposes_S2048x2_S2x2048_1_0 reducesTo_S18432x2048_S18432_d1
    (by decide) (by decide) (by decide) A B M p

/-- The [2048, 9] result, entry by entry: the second form of the common statement. -/
theorem refRa_eq (a1 : IVec S2048x2 32) (a2 : FVec Ideal S2048x5 .f32) (a3 : IVec S2048x3 32) :
    RefTerm.refRa (F := Ideal) a1 a2 a3
      = Cert.MinDist.outRaR (Cert.MinDist.useBit (RefTerm.maskT a2)) (RefTerm.nbRaT a1) (RefTerm.dyIT a3) (RefTerm.maskT a2) := by
  funext i
  refine (select_apply _ _ _ i).trans ?_
  unfold outRaR gR
  refine select_congr ?_ ?_ rfl
  · exact broadcastInDim_scalar_apply bcast_S_S2048x9 _ i
  · refine (shapeCast_apply _ shapeCasts_S18432_S2048x9 i (ix1 (rowRa i)) ?_).trans (distRa_apply _ _ _ (rowRa i))
    rw [Shape.rowMajor_val_one, Shape.rowMajor_val_two]
    rfl

end Cert.ReferenceIdeal.RefRead

end
-- ==== Proof.Cross.lean ====
/-
  The stages the two programs share, identified across the two programs' vocabularies.

  Each program states the marks of the candidates, the candidates' integer coordinates and the two arrays of query points
  by the same operations on the same argument arrays; the two statements differ only in the names of the shapes (the same
  literal shapes), in the proofs of the shape facts (irrelevant), and in the name of the table of the nine offsets (three
  tables with the same eighteen entries). So the stage terms are equal.
-/
import proofs.«154386_j24713241822141_2_alg».proof.Proof.KerTerm
import proofs.«154386_j24713241822141_2_alg».proof.Proof.RefTerm
import proofs.«154386_j24713241822141_2_alg».proof.Proof.Gen.KernelIdeal
import proofs.«154386_j24713241822141_2_alg».proof.Proof.Gen.ReferenceIdeal
import Idealize.ShloMosaic.PureOps.Ideal

noncomputable section

namespace Cert.Cross

open Idealize.ShloMosaic

/-- The two programs' tables of the nine offsets have the same eighteen entries. -/
theorem lit_eq0 : Cert.ReferenceIdeal.lit0 = Cert.KernelIdeal.lit0 := by
  funext i; fin_cases i <;> rfl

/-- The kernel program's second copy of the table likewise. -/
theorem lit_eq1 : Cert.ReferenceIdeal.lit0 = Cert.KernelIdeal.lit1 := by
  funext i; fin_cases i <;> rfl

/-- The marks of the candidates are the same term in both programs. -/
theorem mask_eq (a2 : FVec Ideal ⟨2, ![2048, 5]⟩ .f32) :
    Cert.ReferenceIdeal.RefTerm.maskT (F := Ideal) a2 = Cert.KernelIdeal.KerTerm.maskT (F := Ideal) a2 := rfl

/-- The candidates' integer coordinates are the same term in both programs. -/
theorem dyI_eq (a3 : IVec ⟨2, ![2048, 3]⟩ 32) :
    Cert.ReferenceIdeal.RefTerm.dyIT a3 = Cert.KernelIdeal.KerTerm.dyIT a3 := rfl

/-- The 73728 query points are the same term in both programs, the offsets read from equal tables. -/
theorem nbLi_eq (a0 : IVec ⟨2, ![8192, 2]⟩ 32) :
    Cert.ReferenceIdeal.RefTerm.nbLiT a0 = Cert.KernelIdeal.KerTerm.nbLiT a0 := by
  unfold Cert.ReferenceIdeal.RefTerm.nbLiT Cert.KernelIdeal.KerTerm.nbLiT
  rw [lit_eq0]
  rfl

/-- The 18432 query points are the same term in both programs, the offsets read from equal tables. -/
theorem nbRa_eq (a1 : IVec ⟨2, ![2048, 2]⟩ 32) :
    Cert.ReferenceIdeal.RefTerm.nbRaT a1 = Cert.KernelIdeal.KerTerm.nbRaT a1 := by
  unfold Cert.ReferenceIdeal.RefTerm.nbRaT Cert.KernelIdeal.KerTerm.nbRaT
  rw [lit_eq1]
  rfl

end Cert.Cross

end
-- ==== Proof.LibFinite.lean ====
/-
  General facts about finiteness on the extended reals, for certificates whose precondition says that every
  float input is finite and whose algebra (distributivity, cancellation) needs it.

  * `coe_sum`: the inclusion of the reals into the extended reals commutes with finite sums, so an identity
    between sums of finite entries can be proved over the reals and carried back.
  * `ofBool_one`, `inf_word`, `finite_of_abs_lt`: one element of a printed `|x| < +∞` test, read back — the
    f32 word `0x7F800000` is `+∞`, `|x|` is `max x (-x)`, and that is below `+∞` only when `x` is a real number.
-/
import Idealize.ShloMosaic.PureOps.Ideal
import Idealize.ShloMosaic.PureOps.Ideal.Laws

namespace Cert.LibFinite

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A Boolean read as a one-bit word is the word 1 exactly when it is true. -/
theorem ofBool_one (b : Bool) : BitVec.ofBool b = 1#1 ↔ b = true := by cases b <;> decide

/-- The f32 word `0x7F800000` is `+∞`. -/
theorem inf_word : Ideal.ofBits .f32 0x7F800000#32 = ⊤ := by simp [Ideal.ofBits, Ideal.ieee]

/-- An extended real whose absolute value compares below `+∞` is neither infinity: `|x| = max x (-x)` is `+∞` at
    both. (The host's and the kernel's absolute value are one function on the extended reals.) -/
theorem finite_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [Ideal.hostAbsf_def, Ideal.absf_def, Ideal.cmpf_def, inf_word] at h
  have h2 : BitVec.ofBool (decide (max x (-x) < ⊤)) = 1#1 := h
  have h' : max x (-x) < ⊤ := of_decide_eq_true ((ofBool_one _).1 h2)
  induction x using EReal.rec with
  | bot => simp at h'
  | top => simp at h'
  | coe r => exact ⟨EReal.coe_ne_top r, EReal.coe_ne_bot r⟩

end Cert.LibFinite
-- ==== Proof.Law.lean ====
/-
  The two forms of a query point's result agree.

  All coordinates are 32-bit integers read exactly, so every entry of either form is a real number or +∞. At a marked
  candidate both forms give the squared distance (x − p)² + (y − q)²; at an unmarked candidate the first form gives the
  squared distance plus the finite word 1e30 and the second +∞. A squared distance is at most 2 · (2³²)² = 2⁶⁵, far below
  1e30 = 13234890 · 2⁷⁶, so once one candidate is marked the least entry of the first form is attained at a marked
  candidate, where the forms agree. "More than one candidate is marked" gives a marked candidate.
-/
import proofs.«154386_j24713241822141_2_alg».proof.Proof.Spec
import proofs.«154386_j24713241822141_2_alg».proof.Proof.LibFinite

noncomputable section

namespace Cert.MinDist

open Idealize.ShloMosaic Idealize.ShloMosaic.ValueIdx

/-! ### The literal words -/

/-- The f32 word `0x40000000` is 2. -/
theorem two_word : Ideal.ofBits .f32 0x40000000#32 = ((2 : ℝ) : EReal) := by
  simp [Ideal.ofBits, Ideal.ieee, -EReal.coe_mul]; norm_num

/-- The penalty as a real number: 13234890 · 2⁷⁶ (the f32 word nearest 1e30). -/
def penalty : ℝ := 13234890 * 2 ^ 76

/-- The f32 word `0x7149F2CA` is the real number `penalty`. -/
theorem big_word : Ideal.ofBits .f32 0x7149F2CA#32 = ((penalty : ℝ) : EReal) := by
  unfold penalty
  simp [Ideal.ofBits, Ideal.ieee, -EReal.coe_mul]

theorem penalty_ge : (2 : ℝ) ^ 65 ≤ penalty := by
  unfold penalty; norm_num

/-! ### One candidate's entry, in real numbers -/

theorem select_one {α : Type} (a b : α) : Scalar.select 1#1 a b = a := by simp [Scalar.select]

theorem select_zero {α : Type} (a b : α) : Scalar.select 0#1 a b = b := by simp [Scalar.select]

theorem colK_marked (x y p q : ℝ) :
    colK (x : EReal) (y : EReal) (p : EReal) (q : EReal) 1#1 = (((x - p) ^ 2 + (y - q) ^ 2 : ℝ) : EReal) := by
  unfold colK
  rw [select_one, Ideal.ofBits_zero_f32]
  norm_cast
  ring

theorem colK_unmarked (x y p q : ℝ) :
    colK (x : EReal) (y : EReal) (p : EReal) (q : EReal) 0#1
      = (((x - p) ^ 2 + (y - q) ^ 2 + penalty : ℝ) : EReal) := by
  unfold colK
  rw [select_zero, big_word]
  norm_cast
  ring

theorem colR_marked (x y p q : ℝ) :
    colR (x : EReal) (y : EReal) (p : EReal) (q : EReal) 1#1 = (((x - p) ^ 2 + (y - q) ^ 2 : ℝ) : EReal) := by
  unfold colR
  rw [select_one, two_word]
  norm_cast
  ring

theorem colR_unmarked (x y p q : ℝ) :
    colR (x : EReal) (y : EReal) (p : EReal) (q : EReal) 0#1 = ⊤ := by
  unfold colR
  rw [select_zero, LibFinite.inf_word]

/-! ### Bounds on the coordinates -/

/-- A 32-bit word read as a signed integer lies in [−2³¹, 2³¹]. -/
theorem toInt_bound (w : BitVec 32) : -(2 : ℝ) ^ 31 ≤ (w.toInt : ℝ) ∧ (w.toInt : ℝ) ≤ (2 : ℝ) ^ 31 := by
  have h1 : w.toInt < 2 ^ 31 := BitVec.toInt_lt
  have h2 : -2 ^ 31 ≤ w.toInt := BitVec.le_toInt w
  constructor
  · exact_mod_cast h2
  · exact_mod_cast h1.le

/-- The square of the difference of two numbers in [−2³¹, 2³¹] is at most 2⁶⁴. -/
theorem sq_sub_le (x p : ℝ) (hx : -(2 : ℝ) ^ 31 ≤ x ∧ x ≤ (2 : ℝ) ^ 31) (hp : -(2 : ℝ) ^ 31 ≤ p ∧ p ≤ (2 : ℝ) ^ 31) :
    (x - p) ^ 2 ≤ (2 : ℝ) ^ 64 := by
  have h : (x - p) ^ 2 ≤ ((2 : ℝ) ^ 32) ^ 2 := by
    apply sq_le_sq'
    · linarith [hx.1, hp.2]
    · linarith [hx.2, hp.1]
  calc (x - p) ^ 2 ≤ ((2 : ℝ) ^ 32) ^ 2 := h
    _ = (2 : ℝ) ^ 64 := by norm_num

/-- The squared distance of two points with 32-bit integer coordinates is at most 2⁶⁵. -/
theorem sqdist_le (ax ay bx by' : BitVec 32) :
    ((ax.toInt : ℝ) - (bx.toInt : ℝ)) ^ 2 + ((ay.toInt : ℝ) - (by'.toInt : ℝ)) ^ 2 ≤ (2 : ℝ) ^ 65 := by
  have h1 := sq_sub_le _ _ (toInt_bound ax) (toInt_bound bx)
  have h2 := sq_sub_le _ _ (toInt_bound ay) (toInt_bound by')
  calc _ ≤ (2 : ℝ) ^ 64 + (2 : ℝ) ^ 64 := add_le_add h1 h2
    _ = (2 : ℝ) ^ 65 := by norm_num

/-! ### The least entries agree once a candidate is marked -/

section Row

variable (qx qy : Fin 2048 → BitVec 32) (msk : Fin 2048 → BitVec 1) (ax ay : BitVec 32)

theorem rowK_le_col (j : Fin 2048) :
    rowK (ofI ax) (ofI ay) (fun j => ofI (qx j)) (fun j => ofI (qy j)) msk
      ≤ colK (ofI ax) (ofI ay) (ofI (qx j)) (ofI (qy j)) (msk j) := by
  unfold rowK
  exact (Finset.fold_min_le _).2 (Or.inr ⟨j, Finset.mem_univ j, le_rfl⟩)

theorem rowR_le_col (j : Fin 2048) :
    rowR (ofI ax) (ofI ay) (fun j => ofI (qx j)) (fun j => ofI (qy j)) msk
      ≤ colR (ofI ax) (ofI ay) (ofI (qx j)) (ofI (qy j)) (msk j) := by
  unfold rowR
  exact (Finset.fold_min_le _).2 (Or.inr ⟨j, Finset.mem_univ j, le_rfl⟩)

/-- Entry by entry the first form is below the second: equal at a marked candidate, anything against +∞ otherwise. -/
theorem colK_le_colR (j : Fin 2048) :
    colK (ofI ax) (ofI ay) (ofI (qx j)) (ofI (qy j)) (msk j)
      ≤ colR (ofI ax) (ofI ay) (ofI (qx j)) (ofI (qy j)) (msk j) := by
  rcases BitVec.eq_zero_or_eq_one (msk j) with h | h
  · rw [h]; unfold ofI; rw [colR_unmarked]; exact le_top
  · rw [h]; unfold ofI; rw [colK_marked, colR_marked]

/-- With a marked candidate j0, every entry of the first form is above the least entry of the second: a marked entry is
    the second form's own, an unmarked one carries the penalty, which exceeds the squared distance to j0. -/
theorem rowR_le_colK (j0 : Fin 2048) (h0 : msk j0 = 1#1) (j : Fin 2048) :
    rowR (ofI ax) (ofI ay) (fun j => ofI (qx j)) (fun j => ofI (qy j)) msk
      ≤ colK (ofI ax) (ofI ay) (ofI (qx j)) (ofI (qy j)) (msk j) := by
  rcases BitVec.eq_zero_or_eq_one (msk j) with h | h
  · refine (rowR_le_col qx qy msk ax ay j0).trans ?_
    rw [h, h0]; unfold ofI; rw [colR_marked, colK_unmarked, EReal.coe_le_coe_iff]
    have hd := sqdist_le ax ay (qx j0) (qy j0)
    have hj : 0 ≤ ((ax.toInt : ℝ) - ((qx j).toInt : ℝ)) ^ 2 + ((ay.toInt : ℝ) - ((qy j).toInt : ℝ)) ^ 2 := by positivity
    linarith [penalty_ge]
  · refine (rowR_le_col qx qy msk ax ay j).trans ?_
    rw [h]; unfold ofI; rw [colK_marked, colR_marked]

theorem rowK_eq_rowR (j0 : Fin 2048) (h0 : msk j0 = 1#1) :
    rowK (ofI ax) (ofI ay) (fun j => ofI (qx j)) (fun j => ofI (qy j)) msk
      = rowR (ofI ax) (ofI ay) (fun j => ofI (qx j)) (fun j => ofI (qy j)) msk := by
  apply le_antisymm
  · conv_rhs => unfold rowR
    refine (Finset.le_fold_min _).2 ⟨?_, fun j _ => ?_⟩
    · rw [LibFinite.inf_word]; exact le_top
    · exact (rowK_le_col qx qy msk ax ay j).trans (colK_le_colR qx qy msk ax ay j)
  · conv_rhs => unfold rowK
    refine (Finset.le_fold_min _).2 ⟨?_, fun j _ => ?_⟩
    · rw [LibFinite.inf_word]; exact le_top
    · exact rowR_le_colK qx qy msk ax ay j0 h0 j

end Row

/-! ### A query point's result -/

theorem gK_eq_gR (u : BitVec 1) (qx qy : Fin 2048 → BitVec 32) (msk : Fin 2048 → BitVec 1) (ax ay : BitVec 32)
    (hu : u = 1#1 → ∃ j, msk j = 1#1) : gK u qx qy msk ax ay = gR u qx qy msk ax ay := by
  rcases BitVec.eq_zero_or_eq_one u with h | h
  · subst h; unfold gK gR; rw [select_zero, select_zero]
  · obtain ⟨j0, h0⟩ := hu h
    unfold gK gR; rw [rowK_eq_rowR qx qy msk ax ay j0 h0]

/-! ### "More than one candidate is marked" gives a marked candidate -/

/-- A left fold of additions of zeros, from zero, is zero. -/
theorem foldl_addi_zero {β : Type} (l : List β) (g : β → BitVec 32) (hg : ∀ n, g n = 0#32) :
    l.foldl (fun r n => IntOp.addi r (g n)) 0#32 = 0#32 := by
  induction l with
  | nil => rfl
  | cons a l ih =>
    rw [List.foldl_cons, hg a]
    have : IntOp.addi 0#32 0#32 = 0#32 := by decide
    rw [this]; exact ih

/-- The sum, from 0, of a vector of zeros is 0. -/
theorem reduce_zero (x : IVec ⟨1, ![2048]⟩ 32) (hx : ∀ i, x i = 0#32) :
    (Host.reduce (s := ⟨1, ![2048]⟩) (axes := [0]) (t := ⟨0, ![]⟩) (u := ⟨0, ![]⟩) IntOp.addi
      x (constantI ⟨0, ![]⟩ 32 0#32)) ix0 = 0#32 := by
  unfold Host.reduce
  exact foldl_addi_zero _ _ (fun n => hx _)

theorem useBit_exists (M : IVec ⟨1, ![2048]⟩ 1) (h : useBit M = 1#1) : ∃ j : Fin 2048, M (ix1 j) = 1#1 := by
  by_contra hex
  have hne : ∀ j : Fin 2048, M (ix1 j) ≠ 1#1 := fun j hj => hex ⟨j, hj⟩
  have hz : ∀ i, M i = 0#1 := fun i => by
    rcases BitVec.eq_zero_or_eq_one (M i) with h' | h'
    · exact h'
    · rw [eq_ix1 i] at h'; exact absurd h' (hne _)
  have hx : ∀ i, (extui 32 M) i = 0#32 := fun i => by
    show (M i).setWidth 32 = 0#32
    rw [hz i]; decide
  have h0 : useBit M = 0#1 := by
    unfold useBit
    show IntOp.cmpi .sgt ((Host.reduce (s := ⟨1, ![2048]⟩) (axes := [0]) (t := ⟨0, ![]⟩) (u := ⟨0, ![]⟩) IntOp.addi
      (extui 32 M) (constantI ⟨0, ![]⟩ 32 0#32)) ix0) 1#32 = 0#1
    rw [reduce_zero _ hx]; decide
  rw [h0] at h
  exact absurd h (by decide)

/-! ### The whole results -/

theorem outLi_agree (A : IVec ⟨2, ![73728, 2]⟩ 32) (B : IVec ⟨2, ![2048, 2]⟩ 32) (M : IVec ⟨1, ![2048]⟩ 1) :
    outLiK (useBit M) A B M = outLiR (useBit M) A B M := by
  funext i
  unfold outLiK outLiR
  exact gK_eq_gR _ _ _ _ _ _ (useBit_exists M)

theorem outRa_agree (A : IVec ⟨2, ![18432, 2]⟩ 32) (B : IVec ⟨2, ![2048, 2]⟩ 32) (M : IVec ⟨1, ![2048]⟩ 1) :
    outRaK (useBit M) A B M = outRaR (useBit M) A B M := by
  funext i
  unfold outRaK outRaR
  exact gK_eq_gR _ _ _ _ _ _ (useBit_exists M)

end Cert.MinDist

end
-- ==== Proof.lean ====
/-
  The certificate: a Pallas kernel for the nearest marked candidate of each query point against its jnp reference.

  For every query point (each input point shifted by nine offsets and wrapped modulo 513) both programs take the least
  squared distance to the 2048 candidate points over the marked ones (|velocity| > 0.1), its square root, scaled by 0.01,
  and return 0 everywhere unless more than one candidate is marked. The kernel computes
  |a|² + (|q|² + p) − ((a·q) + (a·q)) with the penalty p = 0 for a marked candidate and the finite word 1e30 for an
  unmarked one, tiled over a grid of 90 blocks of 1024 query points; the reference computes |a|² + |q|² − 2 (a·q) and
  replaces an unmarked candidate's entry by +∞. At the exact values both squared distances are the same real number
  (all coordinates are 32-bit integers), at most 2^65, far below the penalty: so while a marked candidate exists an
  unmarked one never attains the minimum in either form, and the test that guards the result guarantees that one exists.

  The three frames: the kernel's two programs' frames are the generated ones; the reference's is its run with the results
  dropped. The idealization rewrote nothing, so the preservation claim is trivial. The algebraic claim puts the kernel
  program's run (both results at the first form of the common result, module KerRun) beside the reference's run (both
  results at its composed term, module RefRun, read as the second form, module RefRead), identifies the two programs'
  shared stages (module Cross) and closes by the law that the two forms agree (module Law).
-/
import proofs.«154386_j24713241822141_2_alg».proof.Defs
import proofs.«154386_j24713241822141_2_alg».proof.Proof.Gen.Kernel
import proofs.«154386_j24713241822141_2_alg».proof.Proof.Gen.Kernel.Frame
import proofs.«154386_j24713241822141_2_alg».proof.Proof.Gen.KernelIdeal
import proofs.«154386_j24713241822141_2_alg».proof.Proof.Gen.KernelIdeal.Frame
import proofs.«154386_j24713241822141_2_alg».proof.Proof.Gen.ReferenceIdeal
import proofs.«154386_j24713241822141_2_alg».proof.Proof.Gen.Pre_finite_inputs
import proofs.«154386_j24713241822141_2_alg».proof.Proof.KerRun
import proofs.«154386_j24713241822141_2_alg».proof.Proof.RefRun
import proofs.«154386_j24713241822141_2_alg».proof.Proof.RefRead
import proofs.«154386_j24713241822141_2_alg».proof.Proof.Cross
import proofs.«154386_j24713241822141_2_alg».proof.Proof.Law
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

/-- Both programs end with equal results: the kernel's at the first form of the common result, the reference's at the
    second, of the same query points, candidates and marks. -/
theorem algebraic : Cert.algebraic_KernelIdeal_ReferenceIdeal := by
  intro m ρ m' ρ' _ hagree
  refine ⟨_, _, Cert.KernelIdeal.KerRun.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · rw [(hagree c).1, (hagree c).2.2.1, (hagree c).2.2.2, Cert.ReferenceIdeal.RefRead.refLi_eq, Cert.Cross.mask_eq,
      Cert.Cross.nbLi_eq, Cert.Cross.dyI_eq]
    exact (Cert.MinDist.outLi_agree _ _ _).symm
  · rw [(hagree c).2.1, (hagree c).2.2.1, (hagree c).2.2.2, Cert.ReferenceIdeal.RefRead.refRa_eq, Cert.Cross.mask_eq,
      Cert.Cross.nbRa_eq, Cert.Cross.dyI_eq]
    exact (Cert.MinDist.outRa_agree _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
